-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x3 : Shape := ⟨3, ![64, 1024, 3]⟩
abbrev S64 : Shape := ⟨1, ![64]⟩
abbrev S_ : Shape := ⟨0, ![]⟩

class Facts : Prop where
  bcast_S_S64x1024x3 : S_.BroadcastsInDim S64x1024x3 (![] : Fin 0 → Fin S64x1024x3.rank)
  reducesTo_S64x1024x3_S_d0_1_2 : S64x1024x3.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S64x1024x3 .f32) (main_arg1 : FVec F S64x1024x3 .f32) (main_arg2 : FVec F S64x1024x3 .f32) (main_arg3 : FVec F S64 .f32) (main_arg4 : FVec F S64 .f32) (main_arg5 : FVec F S64 .f32) : IVec S_ 1 :=
  let main_v0 : FVec F S64x1024x3 .f32 := Host.absf main_arg0
  let main_cst : FVec F S_ .f32 := constant S_ .f32 0x7F800000#32
  let main_v1 : FVec F S64x1024x3 .f32 := broadcastInDim S64x1024x3 ![] bcast_S_S64x1024x3 main_cst
  let main_v2 : IVec S64x1024x3 1 := cmpf .olt main_v0 main_v1
  let main_c : IVec S_ 1 := constantI S_ 1 1#1
  let main_v3 : IVec S_ 1 := (fun x v => Host.reduce IntOp.andi x v reducesTo_S64x1024x3_S_d0_1_2 h_S_) main_v2 main_c
  let main_v4 : FVec F S64x1024x3 .f32 := Host.absf main_arg1
  let main_cst_0 : FVec F S_ .f32 := constant S_ .f32 0x7F800000#32
  let main_v5 : FVec F S64x1024x3 .f32 := broadcastInDim S64x1024x3 ![] bcast_S_S64x1024x3 main_cst_0
  let main_v6 : IVec S64x1024x3 1 := cmpf .olt main_v4 main_v5
  let main_c_1 : IVec S_ 1 := constantI S_ 1 1#1
  let main_v7 : IVec S_ 1 := (fun x v => Host.reduce IntOp.andi x v reducesTo_S64x1024x3_S_d0_1_2 h_S_) main_v6 main_c_1
  let main_v8 : IVec S_ 1 := andi main_v3 main_v7
  let main_v9 : FVec F S64x1024x3 .f32 := Host.absf main_arg2
  let main_cst_2 : FVec F S_ .f32 := constant S_ .f32 0x7F800000#32
  let main_v10 : FVec F S64x1024x3 .f32 := broadcastInDim S64x1024x3 ![] bcast_S_S64x1024x3 main_cst_2
  let main_v11 : IVec S64x1024x3 1 := cmpf .olt main_v9 main_v10
  let main_c_3 : IVec S_ 1 := constantI S_ 1 1#1
  let main_v12 : IVec S_ 1 := (fun x v => Host.reduce IntOp.andi x v reducesTo_S64x1024x3_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S64x1024x3 : Shape := ⟨3, ![64, 1024, 3]⟩
abbrev S64 : Shape := ⟨1, ![64]⟩
abbrev S64x128 : Shape := ⟨2, ![64, 128]⟩
abbrev S8x1024x3 : Shape := ⟨3, ![8, 1024, 3]⟩
abbrev S8x128 : Shape := ⟨2, ![8, 128]⟩
abbrev S8x1024 : Shape := ⟨2, ![8, 1024]⟩
abbrev S8 : Shape := ⟨1, ![8]⟩
abbrev S8x128x3 : Shape := ⟨3, ![8, 128, 3]⟩
abbrev S8x128x1024 : Shape := ⟨3, ![8, 128, 1024]⟩
abbrev S8x128x1 : Shape := ⟨3, ![8, 128, 1]⟩
abbrev S8x1x1024 : Shape := ⟨3, ![8, 1, 1024]⟩
abbrev S8x1 : Shape := ⟨2, ![8, 1]⟩
abbrev S8x4 : Shape := ⟨2, ![8, 4]⟩
abbrev S8x124 : Shape := ⟨2, ![8, 124]⟩
abbrev S64x1 : Shape := ⟨2, ![64, 1]⟩
abbrev S_ : Shape := ⟨0, ![]⟩
abbrev S1 : Shape := ⟨1, ![1]⟩
abbrev S3 : Shape := ⟨1, ![3]⟩

abbrev nBuf : Space → Nat
  | .hbm => 46
  | .vmem => 8
  | .smem => 0
  | _ => 0

abbrev bufTy : (tb : Table) → Fin (tcTables nBuf tb) → BufTy
  | .hbm, ⟨0, _⟩ => ⟨S64x1024x3, .f32⟩
  | .hbm, ⟨1, _⟩ => ⟨S64x1024x3, .f32⟩
  | .hbm, ⟨2, _⟩ => ⟨S64x1024x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S3, .f32⟩
  | .local _ .vmem, ⟨0, _⟩ => ⟨S8x1024x3, .f32⟩
  | .local _ .vmem, ⟨1, _⟩ => ⟨S8x1024x3, .f32⟩
  | .local _ .vmem, ⟨2, _⟩ => ⟨S8x1024x3, .f32⟩
  | .local _ .vmem, ⟨3, _⟩ => ⟨S8x1024x3, .f32⟩
  | .local _ .vmem, ⟨4, _⟩ => ⟨S8x1024x3, .f32⟩
  | .local _ .vmem, ⟨5, _⟩ => ⟨S8x1024x3, .f32⟩
  | .local _ .vmem, ⟨6, _⟩ => ⟨S8x128, .f32⟩
  | .local _ .vmem, ⟨7, _⟩ => ⟨S8x128, .f32⟩
  | _, _ => ⟨S64x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v57 : BitVec 32 := Scalar.muli arg5 c128_i32
  v57
def k0_off1 (k0_t1 : Fin k0_t1_loop.trips) : Fin 3 → Nat :=
  let c0_36 : Index := 0#32
  let c0_i32 : BitVec 32 := 0#32
  let c1_i32 : BitVec 32 := 1#32
  let arg5 : BitVec 32 := Scf.iv c0_i32 c1_i32 k0_t1
  let c128_i32 : BitVec 32 := 128#32
  let v57 : BitVec 32 := Scalar.muli arg5 c128_i32
  let v58 : BitVec 32 := v57
  let v59 : Index := Scalar.indexCast v58
  let c0_37 : Index := 0#32
  ![0, v59.toNat, 0]
@[reducible] def k0_t2_loop : Scf.Loop 32 :=
  let c0_i32_24 : BitVec 32 := 0#32
  let c8_i32_25 : BitVec 32 := 8#32
  let v36 : BitVec 32 := Scalar.addi c0_i32_24 c8_i32_25
  let c1_i32_26 : BitVec 32 := 1#32
  ⟨c0_i32_24, v36, c1_i32_26⟩
def k0_mult2 (k0_t2 : Fin k0_t2_loop.trips) : BitVec 32 :=
  let c0_i32_24 : BitVec 32 := 0#32
  let c1_i32_26 : BitVec 32 := 1#32
  let arg5 : BitVec 32 := Scf.iv c0_i32_24 c1_i32_26 k0_t2
  let c128_i32 : BitVec 32 := 128#32
  let v57 : BitVec 32 := Scalar.muli arg5 c128_i32
  v57
def k0_off2 (k0_t2 : Fin k0_t2_loop.trips) : Fin 3 → Nat :=
  let c0_36 : Index := 0#32
  let c0_i32_24 : BitVec 32 := 0#32
  let c1_i32_26 : BitVec 32 := 1#32
  let arg5 : BitVec 32 := Scf.iv c0_i32_24 c1_i32_26 k0_t2
  let c128_i32 : BitVec 32 := 128#32
  let v57 : BitVec 32 := Scalar.muli arg5 c128_i32
  let v58 : BitVec 32 := v57
  let v59 : Index := Scalar.indexCast v58
  let c0_37 : Index := 0#32
  ![0, v59.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x1024x3_S8x1024x3_0_0_0 : ∀ a, (![0, 0, 0] : Fin 3 → Nat) a + S8x1024x3.size a ≤ S8x1024x3.size a
  h_S8x1024x3 : 0 < S8x1024x3.numel
  reduces_S8x1024x3_S8x1024 : S8x1024x3.Reduces [2] S8x1024
  reduces_S8x1024_S8 : S8x1024.Reduces [1] S8
  h_S8x128x3 : 0 < S8x128x3.numel
  reduces_S8x128x3_S8x128 : S8x128x3.Reduces [2] S8x128
  shapeCasts_S8x128_S8x128x1 : S8x128.ShapeCasts S8x128x1
  shapeCasts_S8x1024_S8x1x1024 : S8x1024.ShapeCasts S8x1x1024
  broadcasts_S8x128x1_S8x128x1024 : S8x128x1.Broadcasts S8x128x1024
  broadcasts_S8x1x1024_S8x128x1024 : S8x1x1024.Broadcasts S8x128x1024
  reduces_S8x128x1024_S8x128 : S8x128x1024.Reduces [2] S8x128
  reduces_S8x128x1024_S8x1024 : S8x128x1024.Reduces [1] S8x1024
  reduces_S8x128_S8 : S8x128.Reduces [1] S8
  shapeCasts_S8_S8x1 : S8.ShapeCasts S8x1
  concatenates_S8x1_S8x1_S8x1_S8x1_S8x4_d1 : Shape.Concatenates [S8x1, S8x1, S8x1, S8x1] S8x4 1
  concatenates_S8x4_S8x124_S8x128_d1 : Shape.Concatenates [S8x4, S8x124] S8x128 1
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  slices_S64x128_S64x1_0_1 : S64x128.Slices ![0, 1] S64x1
  slices_S64x128_S64x1_0_2 : S64x128.Slices ![0, 2] S64x1
  slices_S64x128_S64x1_0_3 : S64x128.Slices ![0, 3] S64x1
  bcast_S_S64 : S_.BroadcastsInDim S64 (![] : Fin 0 → Fin S64.rank)
  reducesTo_S64_S_d0 : S64.ReducesTo [0] S_
  h_S_ : 0 < S_.numel
  bcast_S_S1 : S_.BroadcastsInDim S1 (![] : Fin 0 → Fin S1.rank)
  concatenates_S1_S1_S1_S3_d0 : Shape.Concatenates [S1, S1, S1] S3 0
  dot_S8x128x3_S8x1024x3_S8x128x1024_2_2_1_1_0_0_wf : DotDims.WF S8x128x3 S8x1024x3 S8x128x1024 [2] [2] [1] [1] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S8x128x3.size a ≤ S8x1024x3.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S8x128x3.size a ≤ S8x1024x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x3.size a ≤ S64x1024x3.size a
  hwx0_0 : ∀ i : grid0.Coords, EltTy.bits .f32 = 32 ∨ (Rect.block (s := S64x1024x3) S8x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x3.size a ≤ S64x1024x3.size a
  hwx0_1 : ∀ i : grid0.Coords, EltTy.bits .f32 = 32 ∨ (Rect.block (s := S64x1024x3) S8x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x3.size a ≤ S64x1024x3.size a
  hwx0_2 : ∀ i : grid0.Coords, EltTy.bits .f32 = 32 ∨ (Rect.block (s := S64x1024x3) S8x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def dot_S8x128x3_S8x1024x3_S8x128x1024_2_2_1_1_0_0 : DotDims S8x128x3 S8x1024x3 S8x128x1024 where
  lhsContracting := [2]
  rhsContracting := [2]
  lhsNonContracting := [1]
  rhsNonContracting := [1]
  lhsBatch := [0]
  rhsBatch := [0]
  wf := dot_S8x128x3_S8x1024x3_S8x128x1024_2_2_1_1_0_0_wf

abbrev win0_0 : Pipeline.Window sig grid0 :=
  Pipeline.Window.ofSpec (Memref.whole main_arg0) S8x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x3 : Shape := ⟨3, ![64, 1024, 3]⟩
abbrev S64 : Shape := ⟨1, ![64]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S1 : Shape := ⟨1, ![1]⟩
abbrev S3 : Shape := ⟨1, ![3]⟩

abbrev nBuf : Space → Nat
  | .hbm => 123
  | .vmem => 0
  | .smem => 0
  | _ => 0

abbrev bufTy : (tb : Table) → Fin (tcTables nBuf tb) → BufTy
  | .hbm, ⟨0, _⟩ => ⟨S64x1024x3, .f32⟩
  | .hbm, ⟨1, _⟩ => ⟨S64x1024x3, .f32⟩
  | .hbm, ⟨2, _⟩ => ⟨S64x1024x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x1024x3, .f32⟩
  | .hbm, ⟨7, _⟩ => ⟨S_, .f32⟩
  | .hbm, ⟨8, _⟩ => ⟨S64x1024, .f32⟩
  | .hbm, ⟨9, _⟩ => ⟨S64x1024x1, .f32⟩
  | .hbm, ⟨10, _⟩ => ⟨S64x1024x3, .f32⟩
  | .hbm, ⟨11, _⟩ => ⟨S_, .f32⟩
  | .hbm, ⟨12, _⟩ => ⟨S64x1024, .f32⟩
  | .hbm, ⟨13, _⟩ => ⟨S64x1x1024, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S_, .f32⟩
  | .hbm, ⟨19, _⟩ => ⟨S64x1024x1024, .f32⟩
  | .hbm, ⟨20, _⟩ => ⟨S64x1024x1024, .f32⟩
  | .hbm, ⟨21, _⟩ => ⟨S64x1024x1024, .f32⟩
  | .hbm, ⟨22, _⟩ => ⟨S_, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64x1024x3, .f32⟩
  | .hbm, ⟨40, _⟩ => ⟨S64x1024x3, .f32⟩
  | .hbm, ⟨41, _⟩ => ⟨S_, .f32⟩
  | .hbm, ⟨42, _⟩ => ⟨S64x1024, .f32⟩
  | .hbm, ⟨43, _⟩ => ⟨S64x1024, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64x1024x3, .f32⟩
  | .hbm, ⟨57, _⟩ => ⟨S_, .f32⟩
  | .hbm, ⟨58, _⟩ => ⟨S64x1024, .f32⟩
  | .hbm, ⟨59, _⟩ => ⟨S64x1024x1, .f32⟩
  | .hbm, ⟨60, _⟩ => ⟨S64x1024x3, .f32⟩
  | .hbm, ⟨61, _⟩ => ⟨S_, .f32⟩
  | .hbm, ⟨62, _⟩ => ⟨S64x1024, .f32⟩
  | .hbm, ⟨63, _⟩ => ⟨S64x1x1024, .f32⟩
  | .hbm, ⟨64, _⟩ => ⟨S64x1024x1024, .f32⟩
  | .hbm, ⟨65, _⟩ => ⟨S64x1024x1024, .f32⟩
  | .hbm, ⟨66, _⟩ => ⟨S64x1024x1024, .f32⟩
  | .hbm, ⟨67, _⟩ => ⟨S64x1024x1024, .f32⟩
  | .hbm, ⟨68, _⟩ => ⟨S_, .f32⟩
  | .hbm, ⟨69, _⟩ => ⟨S64x1024x1024, .f32⟩
  | .hbm, ⟨70, _⟩ => ⟨S64x1024x1024, .f32⟩
  | .hbm, ⟨71, _⟩ => ⟨S64x1024x1024, .f32⟩
  | .hbm, ⟨72, _⟩ => ⟨S_, .f32⟩
  | .hbm, ⟨73, _⟩ => ⟨S64x1024x1024, .f32⟩
  | .hbm, ⟨74, _⟩ => ⟨S64x1024x1024, .f32⟩
  | .hbm, ⟨75, _⟩ => ⟨S64x1024x1024, .f32⟩
  | .hbm, ⟨76, _⟩ => ⟨S_, .f32⟩
  | .hbm, ⟨77, _⟩ => ⟨S64x1024, .f32⟩
  | .hbm, ⟨78, _⟩ => ⟨S_, .f32⟩
  | .hbm, ⟨79, _⟩ => ⟨S64x1024, .f32⟩
  | .hbm, ⟨80, _⟩ => ⟨S64x1024, .f32⟩
  | .hbm, ⟨81, _⟩ => ⟨S_, .f32⟩
  | .hbm, ⟨82, _⟩ => ⟨S64x1024, .f32⟩
  | .hbm, ⟨83, _⟩ => ⟨S64x1024, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1024x3, .f32⟩
  | .hbm, ⟨90, _⟩ => ⟨S64x1024x3, .f32⟩
  | .hbm, ⟨91, _⟩ => ⟨S_, .f32⟩
  | .hbm, ⟨92, _⟩ => ⟨S64x1024, .f32⟩
  | .hbm, ⟨93, _⟩ => ⟨S64x1024, .f32⟩
  | .hbm, ⟨94, _⟩ => ⟨S_, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S1, .f32⟩
  | .hbm, ⟨120, _⟩ => ⟨S1, .f32⟩
  | .hbm, ⟨121, _⟩ => ⟨S1, .f32⟩
  | .hbm, ⟨122, _⟩ => ⟨S3, .f32⟩
  | _, _ => ⟨S64x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call1_v0 : Ref sig .tc := ⟨.hbm, 90, rfl⟩
abbrev main_call1_cst : Ref sig .tc := ⟨.hbm, 91, rfl⟩
abbrev main_call1_v1 : Ref sig .tc := ⟨.hbm, 92, rfl⟩
abbrev main_v60 : Ref sig .tc := ⟨.hbm, 93, rfl⟩
abbrev main_cst_20 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_22 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_23 : Ref sig .tc := ⟨.hbm, 107, rfl⟩
abbrev main_v71 : Ref sig .tc := ⟨.hbm, 108, rfl⟩
abbrev main_cst_24 : Ref sig .tc := ⟨.hbm, 109, rfl⟩
abbrev main_v72 : Ref sig .tc := ⟨.hbm, 110, rfl⟩
abbrev main_cst_25 : Ref sig .tc := ⟨.hbm, 111, rfl⟩
abbrev main_v73 : Ref sig .tc := ⟨.hbm, 112, rfl⟩
abbrev main_cst_26 : Ref sig .tc := ⟨.hbm, 113, rfl⟩
abbrev main_v74 : Ref sig .tc := ⟨.hbm, 114, rfl⟩
abbrev main_cst_27 : Ref sig .tc := ⟨.hbm, 115, rfl⟩
abbrev main_v75 : Ref sig .tc := ⟨.hbm, 116, rfl⟩
abbrev main_cst_28 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  reducesTo_S64x1024x3_S64x1024_d2 : S64x1024x3.ReducesTo [2] S64x1024
  h_S_ : 0 < S_.numel
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64x1024_d2 : S64x1024x1024.ReducesTo [2] S64x1024
  reducesTo_S64x1024x1024_S64x1024_d1 : S64x1024x1024.ReducesTo [1] S64x1024
  bcast_S_S64x1024 : S_.BroadcastsInDim S64x1024 (![] : Fin 0 → Fin S64x1024.rank)
  reducesTo_S64x1024_S64_d1 : S64x1024.ReducesTo [1] S64
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  concatenates_S1_S1_S1_S3_d0 : Shape.Concatenates [S1, S1, S1] S3 0
  dot_S64x1024x3_S64x1024x3_S64x1024x1024_2_2_1_1_0_0_wf : DotDims.WF S64x1024x3 S64x1024x3 S64x1024x1024 [2] [2] [1] [1] [0] [0]

variable [Facts₀]

def dot_S64x1024x3_S64x1024x3_S64x1024x1024_2_2_1_1_0_0 : DotDims S64x1024x3 S64x1024x3 S64x1024x1024 where
  lhsContracting := [2]
  rhsContracting := [2]
  lhsNonContracting := [1]
  rhsNonContracting := [1]
  lhsBatch := [0]
  rhsBatch := [0]
  wf := dot_S64x1024x3_S64x1024x3_S64x1024x1024_2_2_1_1_0_0_wf

class Facts : Prop extends Facts₀ where

variable [Facts]
-- ==== Proof.BRun.lean ====
/-
  The word-level kernel's launch, first half (the same text as for the idealized kernel, read at any float instance): how @main reduces to the one pallas region followed by its
  host lines, what each window's block is at a grid point, and the kernel body's run on whole staging
  buffers.

  The body reads its three input blocks (two prediction blocks and the target block, each 8 batches of
  1024 points in 3 coordinates), goes through its two counted loops (eight trips each, a trip reading one
  chunk of 128 query points) by their invariants, and overwrites the whole 8 x 128 output block with one
  store. Nothing else is touched: the inputs' buffers end as they were found.
-/
import proofs.«147218_j17695265260051_2_alg».proof.Proof.Gen.Kernel.Launch
import proofs.«147218_j17695265260051_2_alg».proof.Proof.Gen.Kernel.Skeleton
import proofs.«147218_j17695265260051_2_alg».proof.Proof.Gen.Kernel.Loops
import proofs.«147218_j17695265260051_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line comes before it, so they are the launch
    contents. -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

/-- The host lines after the region allocate nothing. -/
theorem tail_fresh : (hostOps1 : List (HloOp τ sig (Elt F))).Forall fun op => op.fresh = ∅ := by
  simp only [List.Forall]; repeat' constructor

/-- @main is the region continued by the 39 host lines that turn the per-batch statistics into the three losses. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host lines touch only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- No host line writes one of the four arrays the region stages (the three point clouds and the kernel's
    result): each line writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The windows' blocks -/

/-- Window `w`'s block at grid point `t`: eight consecutive batches of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the
    region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

/-- One staging buffer of the output window, through which its contents are stated. -/
abbrev outView : View sig .tc .vmem S8x128 .f32 := (Memref.whole cc0_stg3_0 : Memref sig .tc .vmem S8x128 .f32).view
abbrev stg0 (t : Fin cfg0.N) : Memref sig .tc .vmem S8x1024x3 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8x1024x3 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S8x1024x3 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S8x128 .f32 := win0_3.stage (cfg0.slots t 3)
abbrev hstg3 (t : Fin cfg0.N) : (stg3 t).IsWhole := hstage0_3 ((cfg0.slots t 3).cast nbuf0_3)

/-! ## The body's run -/

set_option maxHeartbeats 4000000 in
/-- The kernel body on any whole staging buffers, the three inputs' at given contents and the output's at
    anything: it runs to its end, leaves the inputs' buffers as they were and the output's with the listed
    pieces written (the one whole-block store, found by the run). -/
noncomputable def bodyRun (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.BFrame.lean ====
/-
  The word-level kernel's launch, second half (the same text as for the idealized kernel, read at any float instance): the proof data of the pipeline (what every window's staging
  buffer holds after the body at each grid point), the body obligation, the run of @main and the frame.

  The grid has eight points; point `t` works on batches 8t … 8t+7. The three input windows are fetched at
  every point and left in place by the body; the output window's 8 x 128 block is overwritten whole by the
  body's one store and written back at every point. After the region the host lines run on the arrays the
  region leaves; no argument array is ever written.
-/
import proofs.«147218_j17695265260051_2_alg».proof.Proof.BRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store covers the whole output block. -/
theorem bodyRun_cover (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) (y : S8x128.Idx) :
    ∃ pc ∈ (bodyRun c i arg1 harg1 arg2 harg2 arg3 harg3 arg4 harg4 x0 x1 x2).1, y ∈ pc.1.set :=
  View.cover_of_tiledL (bodyRun c i arg1 harg1 arg2 harg2 arg3 harg3 arg4 harg4 x0 x1 x2).1 S8x128.size (by sl_kernel_rfl) y

/-- What the body leaves in the output's staging buffer: its pieces read back. -/
def outBlock (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) : Vec F S8x128 .f32 :=
  outView.read (Elt F) (outView.writes (Elt F) outView.junk (bodyRun c i arg1 harg1 arg2 harg2 arg3 harg3 arg4 harg4 x0 x1 x2).1)

/-- The output block after the body at point `t`: the run's contents at the point's buffers and input blocks. -/
def outAt (c : Dev nD) (t : Fin cfg0.N) : Vec F S8x128 .f32 :=
  outBlock c (grid0.coords t) (stg0 t) (hstg0 t) (stg1 t) (hstg1 t) (stg2 t) (hstg2 t) (stg3 t) (hstg3 t)
    (iblk m c 0 t) (iblk m c 1 t) (iblk m c 2 t)

/-- The pipeline's proof data on core `c`: the arrays as the region finds them; after the body each input's
    buffer at its block and the output's at `outAt`; the invariant is the class's (the scoped rest and the
    generator register, neither touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

/-- The body at any point: the inputs' buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  unfold outAt
  unfold outBlock
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (bodyRun_cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each staged array holds what the write-backs
    left and every other unscoped buffer what the host lines after the region computed. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-! ## The argument arrays end as launched -/

theorem V_of_launch (c : Dev nD) (b : Ref sig .tc) : V m c b = m ((c : Thread nD τ).loc b) := rfl

/-- A buffer that no host line writes and no window stages ends as launched. -/
theorem tail_keeps_flag (b : Ref sig .tc) (hb : ∀ w, Pipeline.arrRef spec0 w ≠ b)
    (hw : ∀ op ∈ (hostOps1 : List (HloOp τ sig (Elt F))), Proc.devRef .tc b ∉ op.writes) (c : Dev nD) :
    Pipeline.afterTail₀ cfgs (dats m) 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b hb]
  rfl

theorem flag_not_written (b : Ref sig .tc) (hb : b = main_arg3 ∨ b = main_arg4 ∨ b = main_arg5) :
    ∀ op ∈ (hostOps1 : List (HloOp τ sig (Elt F))), Proc.devRef .tc b ∉ op.writes := by
  refine List.forall_iff_forall_mem.mp ?_
  rcases hb with rfl | rfl | rfl
  all_goals
    simp only [hostOps1, List.Forall, StableHlo.nullary_writes, StableHlo.unary_writes, StableHlo.binary_writes, StableHlo.nary_writes, StableHlo.reshape_writes, Finset.mem_singleton]
    repeat' apply And.intro
    all_goals exact StableHlo.devRef_ne_of_ne (by decide)

/-- THE FRAME: every weakly fair execution of @main terminates, nothing faulting, with the six argument arrays
    as launched — the three point clouds are input windows, never written back; the three flag vectors are
    read by host lines only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_of_launch m c main_arg0))),
     ((h c).1 1).trans (((dats m 0 c).arrAt_in 1 rfl _).trans ((A_eq m c 1).trans (V_of_launch m c main_arg1))),
     ((h c).1 2).trans (((dats m 0 c).arrAt_in 2 rfl _).trans ((A_eq m c 2).trans (V_of_launch m c main_arg2))),
     ((h c).2 main_arg3 (Pipeline.mem_restRefs_of main_arg3 (by decide) (by decide))).trans
       (tail_keeps_flag m main_arg3 (by decide) (flag_not_written main_arg3 (.inl rfl)) c),
     ((h c).2 main_arg4 (Pipeline.mem_restRefs_of main_arg4 (by decide) (by decide))).trans
       (tail_keeps_flag m main_arg4 (by decide) (flag_not_written main_arg4 (.inr (.inl rfl))) c),
     ((h c).2 main_arg5 (Pipeline.mem_restRefs_of main_arg5 (by decide) (by decide))).trans
       (tail_keeps_flag m main_arg5 (by decide) (flag_not_written main_arg5 (.inr (.inr rfl))) c)⟩) (run_main m ρ)

end Cert.Kernel.Hand

end
-- ==== Proof.KRun.lean ====
/-
  The idealized kernel's launch, first half: how @main reduces to the one pallas region followed by its
  host lines, what each window's block is at a grid point, and the kernel body's run on whole staging
  buffers.

  The body reads its three input blocks (two prediction blocks and the target block, each 8 batches of
  1024 points in 3 coordinates), goes through its two counted loops (eight trips each, a trip reading one
  chunk of 128 query points) by their invariants, and overwrites the whole 8 x 128 output block with one
  store. Nothing else is touched: the inputs' buffers end as they were found.
-/
import proofs.«147218_j17695265260051_2_alg».proof.Proof.Gen.KernelIdeal.Launch
import proofs.«147218_j17695265260051_2_alg».proof.Proof.Gen.KernelIdeal.Skeleton
import proofs.«147218_j17695265260051_2_alg».proof.Proof.Gen.KernelIdeal.Loops
import proofs.«147218_j17695265260051_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line comes before it, so they are the launch
    contents. -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

/-- The host lines after the region allocate nothing. -/
theorem tail_fresh : (hostOps1 : List (HloOp τ sig (Elt F))).Forall fun op => op.fresh = ∅ := by
  simp only [List.Forall]; repeat' constructor

/-- @main is the region continued by the 39 host lines that turn the per-batch statistics into the three losses. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host lines touch only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- No host line writes one of the four arrays the region stages (the three point clouds and the kernel's
    result): each line writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The windows' blocks -/

/-- Window `w`'s block at grid point `t`: eight consecutive batches of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the
    region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

/-- One staging buffer of the output window, through which its contents are stated. -/
abbrev outView : View sig .tc .vmem S8x128 .f32 := (Memref.whole cc0_stg3_0 : Memref sig .tc .vmem S8x128 .f32).view
abbrev stg0 (t : Fin cfg0.N) : Memref sig .tc .vmem S8x1024x3 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8x1024x3 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S8x1024x3 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S8x128 .f32 := win0_3.stage (cfg0.slots t 3)
abbrev hstg3 (t : Fin cfg0.N) : (stg3 t).IsWhole := hstage0_3 ((cfg0.slots t 3).cast nbuf0_3)

/-! ## The body's run -/

set_option maxHeartbeats 4000000 in
/-- The kernel body on any whole staging buffers, the three inputs' at given contents and the output's at
    anything: it runs to its end, leaves the inputs' buffers as they were and the output's with the listed
    pieces written (the one whole-block store, found by the run). -/
noncomputable def bodyRun (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) :
    { L : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KFrame.lean ====
/-
  The idealized kernel's launch, second half: the proof data of the pipeline (what every window's staging
  buffer holds after the body at each grid point), the body obligation, the run of @main and the frame.

  The grid has eight points; point `t` works on batches 8t … 8t+7. The three input windows are fetched at
  every point and left in place by the body; the output window's 8 x 128 block is overwritten whole by the
  body's one store and written back at every point. After the region the host lines run on the arrays the
  region leaves; no argument array is ever written.
-/
import proofs.«147218_j17695265260051_2_alg».proof.Proof.KRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store covers the whole output block. -/
theorem bodyRun_cover (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) (y : S8x128.Idx) :
    ∃ pc ∈ (bodyRun c i arg1 harg1 arg2 harg2 arg3 harg3 arg4 harg4 x0 x1 x2).1, y ∈ pc.1.set :=
  View.cover_of_tiledL (bodyRun c i arg1 harg1 arg2 harg2 arg3 harg3 arg4 harg4 x0 x1 x2).1 S8x128.size (by sl_kernel_rfl) y

/-- What the body leaves in the output's staging buffer: its pieces read back. -/
def outBlock (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) : Vec F S8x128 .f32 :=
  outView.read (Elt F) (outView.writes (Elt F) outView.junk (bodyRun c i arg1 harg1 arg2 harg2 arg3 harg3 arg4 harg4 x0 x1 x2).1)

/-- The output block after the body at point `t`: the run's contents at the point's buffers and input blocks. -/
def outAt (c : Dev nD) (t : Fin cfg0.N) : Vec F S8x128 .f32 :=
  outBlock c (grid0.coords t) (stg0 t) (hstg0 t) (stg1 t) (hstg1 t) (stg2 t) (hstg2 t) (stg3 t) (hstg3 t)
    (iblk m c 0 t) (iblk m c 1 t) (iblk m c 2 t)

/-- The pipeline's proof data on core `c`: the arrays as the region finds them; after the body each input's
    buffer at its block and the output's at `outAt`; the invariant is the class's (the scoped rest and the
    generator register, neither touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

/-- The body at any point: the inputs' buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  unfold outAt
  unfold outBlock
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (bodyRun_cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each staged array holds what the write-backs
    left and every other unscoped buffer what the host lines after the region computed. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-! ## The argument arrays end as launched -/

theorem V_of_launch (c : Dev nD) (b : Ref sig .tc) : V m c b = m ((c : Thread nD τ).loc b) := rfl

/-- A buffer that no host line writes and no window stages ends as launched. -/
theorem tail_keeps_flag (b : Ref sig .tc) (hb : ∀ w, Pipeline.arrRef spec0 w ≠ b)
    (hw : ∀ op ∈ (hostOps1 : List (HloOp τ sig (Elt F))), Proc.devRef .tc b ∉ op.writes) (c : Dev nD) :
    Pipeline.afterTail₀ cfgs (dats m) 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b hb]
  rfl

theorem flag_not_written (b : Ref sig .tc) (hb : b = main_arg3 ∨ b = main_arg4 ∨ b = main_arg5) :
    ∀ op ∈ (hostOps1 : List (HloOp τ sig (Elt F))), Proc.devRef .tc b ∉ op.writes := by
  refine List.forall_iff_forall_mem.mp ?_
  rcases hb with rfl | rfl | rfl
  all_goals
    simp only [hostOps1, List.Forall, StableHlo.nullary_writes, StableHlo.unary_writes, StableHlo.binary_writes, StableHlo.nary_writes, StableHlo.reshape_writes, Finset.mem_singleton]
    repeat' apply And.intro
    all_goals exact StableHlo.devRef_ne_of_ne (by decide)

/-- THE FRAME: every weakly fair execution of @main terminates, nothing faulting, with the six argument arrays
    as launched — the three point clouds are input windows, never written back; the three flag vectors are
    read by host lines only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_of_launch m c main_arg0))),
     ((h c).1 1).trans (((dats m 0 c).arrAt_in 1 rfl _).trans ((A_eq m c 1).trans (V_of_launch m c main_arg1))),
     ((h c).1 2).trans (((dats m 0 c).arrAt_in 2 rfl _).trans ((A_eq m c 2).trans (V_of_launch m c main_arg2))),
     ((h c).2 main_arg3 (Pipeline.mem_restRefs_of main_arg3 (by decide) (by decide))).trans
       (tail_keeps_flag m main_arg3 (by decide) (flag_not_written main_arg3 (.inl rfl)) c),
     ((h c).2 main_arg4 (Pipeline.mem_restRefs_of main_arg4 (by decide) (by decide))).trans
       (tail_keeps_flag m main_arg4 (by decide) (flag_not_written main_arg4 (.inr (.inl rfl))) c),
     ((h c).2 main_arg5 (Pipeline.mem_restRefs_of main_arg5 (by decide) (by decide))).trans
       (tail_keeps_flag m main_arg5 (by decide) (flag_not_written main_arg5 (.inr (.inr rfl))) c)⟩) (run_main m ρ)

end Cert.KernelIdeal.Hand

end
-- ==== Proof.KBlock.lean ====
/-
  What the kernel body leaves in the output block, as a pure function of the three input blocks.

  The body's one store writes the whole 8 x 128 block. Its payload is built from the target block's squared
  norms, the two mean paired distances, and the results of the two counted loops: each loop goes eight
  times through a chunk of 128 query points of one prediction block, adding the chunk's sum of clamped
  square roots of nearest-target squared distances to a running sum and folding the chunk's column minima
  into a running minimum per target point. Here the loops' carried values are restated as plain recursions
  over the trip number.
-/
import proofs.«147218_j17695265260051_2_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The chunk of 128 query points that trip `k` of the first loop reads from the first prediction block. -/
def chunkA (p : Vec F S8x1024x3 .f32) (k : Fin k0_t1_loop.trips) : Vec F S8x128x3 .f32 :=
  View.ld p (Rect.unit (s := S8x1024x3) (k0_off1 k) S8x128x3.size (k0_off1_inb k))

/-- The chunk that trip `k` of the second loop reads from the second prediction block. -/
def chunkB (p : Vec F S8x1024x3 .f32) (k : Fin k0_t2_loop.trips) : Vec F S8x128x3 .f32 :=
  View.ld p (Rect.unit (s := S8x1024x3) (k0_off2 k) S8x128x3.size (k0_off2_inb k))

/-- The first loop's carried pair (running sum, running column minimum) before trip `k`. -/
def carriedA (t p : Vec F S8x1024x3 .f32) : ℕ → FVec F S8 .f32 × FVec F S8x1024 .f32
  | 0 => (k0_pay10, k0_pay11)
  | k + 1 =>
    if h : k < k0_t1_loop.trips then
      (k0_pay13 t (carriedA t p k).1 (chunkA p ⟨k, h⟩), k0_pay14 t (carriedA t p k).2 (chunkA p ⟨k, h⟩))
    else carriedA t p k

/-- The second loop's carried pair before trip `k`. -/
def carriedB (t p : Vec F S8x1024x3 .f32) : ℕ → FVec F S8 .f32 × FVec F S8x1024 .f32
  | 0 => (k0_pay1, k0_pay2)
  | k + 1 =>
    if h : k < k0_t2_loop.trips then
      (k0_pay4 t (k0_pay7 t) (carriedB t p k).1 (chunkB p ⟨k, h⟩), k0_pay5 t (k0_pay7 t) (carriedB t p k).2 (chunkB p ⟨k, h⟩))
    else carriedB t p k

/-- The run's carried value of the first loop is the plain recursion. -/
theorem st1_eq (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole) (t p : Vec F S8x1024x3 .f32) (n : ℕ) :
    st_k0_t1 (F := F) Variants.none c none i arg1 harg1 arg2 harg2 arg3 harg3 arg4 harg4 t (harg1.unread p) (k0_pay10, k0_pay11) n
      = carriedA t p n := by
  induction n with
  | zero => rfl
  | succ n ih =>
    rw [st_k0_t1.eq_2, carriedA]
    unfold st_k0_t1Step
    by_cases h : n < k0_t1_loop.trips
    · rw [dif_pos h, dif_pos h, ih]
      unfold tripR_k0_t1 trip_k0_t1
      dsimp only
      simp only [View.readAt_eq_ld, harg1.read_unread]
      rfl
    · rw [dif_neg h, dif_neg h, ih]

/-- The run's carried value of the second loop is the plain recursion. -/
theorem st2_eq (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole) (t p : Vec F S8x1024x3 .f32) (n : ℕ) :
    st_k0_t2 (F := F) Variants.none c none i arg1 harg1 arg2 harg2 arg3 harg3 arg4 harg4 t (k0_pay7 t) (harg2.unread p) (k0_pay1, k0_pay2) n
      = carriedB t p n := by
  induction n with
  | zero => rfl
  | succ n ih =>
    rw [st_k0_t2.eq_2, carriedB]
    unfold st_k0_t2Step
    by_cases h : n < k0_t2_loop.trips
    · rw [dif_pos h, dif_pos h, ih]
      unfold tripR_k0_t2 trip_k0_t2
      dsimp only
      simp only [View.readAt_eq_ld, harg2.read_unread]
      rfl
    · rw [dif_neg h, dif_neg h, ih]

/-- The output block as a function of the first prediction block `p1`, the second `p2` and the target block `t`. -/
def blockValue (p1 p2 t : Vec F S8x1024x3 .f32) : Vec F S8x128 .f32 :=
  k0_pay6 (k0_pay8 t p1) (k0_pay9 t p2) (k0_pay15 (carriedA t p1 8).1 (carriedA t p1 8).2) (Scalar.ofBits .f32 0x3F000000#32)
    (carriedB t p2 8).1 (carriedB t p2 8).2

theorem trips1 : Scf.trips k0_t1_loop.lb k0_t1_loop.ub k0_t1_loop.st = 8 := by decide
theorem trips2 : Scf.trips (0#32) (Scalar.addi 0#32 8#32) 1#32 = 8 := by decide

/-- The body leaves `blockValue` of the input blocks in the output's staging buffer. -/
theorem outBlock_eq (c : Dev nD) (i : grid0.Coords) (arg1 : Memref sig .tc .vmem S8x1024x3 .f32) (harg1 : arg1.IsWhole)
    (arg2 : Memref sig .tc .vmem S8x1024x3 .f32) (harg2 : arg2.IsWhole) (arg3 : Memref sig .tc .vmem S8x1024x3 .f32) (harg3 : arg3.IsWhole)
    (arg4 : Memref sig .tc .vmem S8x128 .f32) (harg4 : arg4.IsWhole)
    (x0 x1 x2 : Vec F S8x1024x3 .f32) :
    outBlock c i arg1 harg1 arg2 harg2 arg3 harg3 arg4 harg4 x0 x1 x2 = blockValue x0 x1 x2 := by
  have hz2 : (![0, 0] : Fin S8x128.rank → Nat) = fun _ => 0 := funext fun a => by
    match a with | ⟨0, _⟩ => rfl | ⟨1, _⟩ => rfl
  have hz3 : (![0, 0, 0] : Fin S8x1024x3.rank → Nat) = fun _ => 0 := funext fun a => by
    match a with | ⟨0, _⟩ => rfl | ⟨1, _⟩ => rfl | ⟨2, _⟩ => rfl
  unfold outBlock
  rw [View.read_writes_eq_canon _ _ _ (bodyRun_cover c i arg1 harg1 arg2 harg2 arg3 harg3 arg4 harg4 x0 x1 x2)]
  unfold bodyRun
  dsimp only
  rw [View.canon_unit_zero hz2]
  sl_unfold_run_names
  simp only [View.readAt_eq_ld, harg1.read_unread, harg2.read_unread, harg3.read_unread, View.ld_unit_zero (S := S8x1024x3) hz3]
  rw [trips1, st1_eq, st2_eq]
  rfl

end Cert.KernelIdeal.Hand

end
-- ==== Proof.KArray.lean ====
/-
  The kernel's result array as ONE function of the three point clouds, and what the host lines make of it.

  Grid point `t` writes back the 8 x 128 block of batches 8t … 8t+7, so entry (B, j) of the result array is
  entry (B mod 8, j) of the block computed from batches 8·(B div 8) … of the inputs: the eight blocks tile the
  64 rows. The host lines then cut columns 0–3 out of that array (the two symmetric and the two asymmetric
  statistics per batch), weight them by the flags and average over the 64 batches; the last line stacks the
  three means.
-/
import proofs.«147218_j17695265260051_2_alg».proof.Proof.KBlock
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

/-! ## The blocks tile the array -/

/-- At grid point `t` every window is on block `t` of its leading axis and block 0 of the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The block that grid point `t` computes, from the inputs' blocks at `t`. -/
def blockAt (c : Dev nD) (t : Fin cfg0.N) : Vec F S8x128 .f32 :=
  blockValue (iblk m c 0 t) (iblk m c 1 t) (iblk m c 2 t)

/-- The result array: entry (B, j) is entry (B mod 8, j) of the block of grid point B div 8. -/
def statsArray (c : Dev nD) : S64x128.Idx → Elt F .f32 := fun i =>
  blockAt m c ⟨(i 0).val / 8, lt_of_lt_of_eq (by have : (i 0).val < 64 := (i 0).isLt; omega) N_0.symm⟩
    (ix2 (⟨(i 0).val % 8, Nat.mod_lt _ (by omega)⟩ : Fin 8) (⟨(i 1).val, (i 1).isLt⟩ : Fin 128))

/-- What grid point `t` writes back is block `t` of the result array. -/
theorem flushed_eq (c : Dev nD) (t : Fin cfg0.N) :
    (dats m 0 c).flushed 3 t = ((cfg0.win 3).blk t).view.read (Elt F) (statsArray m c) := by
  show (cfg0.win 3).cut (grid0.coords t) ((dats m 0 c).after 3 t) = _
  rw [after_3]
  unfold outAt
  rw [outBlock_eq]
  obtain ⟨-, -, -, -, -, -, -, -, -, e0, e1⟩ := idx_facts t
  funext j
  show blockValue (iblk m c 0 t) (iblk m c 1 t) (iblk m c 2 t) j = statsArray m c (((cfg0.win 3).blk t).view.emb j)
  have hj0 : (j 0).val < 8 := (j 0).isLt
  have h0 : ((((cfg0.win 3).blk t).view.emb j) 0).val = t.val * 8 + (j 0).val := by
    show win0_3.index t (0 : Fin 2) * 8 + 1 * (j 0).val = _
    rw [e0]; omega
  have h1 : ((((cfg0.win 3).blk t).view.emb j) 1).val = (j 1).val := by
    show win0_3.index t (1 : Fin 2) * 128 + 1 * (j 1).val = _
    rw [e1]; omega
  unfold statsArray
  have key : ∀ (t' : Fin cfg0.N) (y' : S8x128.Idx), t' = t → y' = j → blockAt m c t' y' = blockAt m c t j := by
    rintro _ _ rfl rfl; rfl
  refine (key _ _ (Fin.ext ?_) (funext fun a => Fin.ext ?_)).symm
  · show ((((cfg0.win 3).blk t).view.emb j) 0).val / 8 = t.val
    rw [h0]; omega
  · match a with
    | ⟨0, _⟩ =>
      show ((((cfg0.win 3).blk t).view.emb j) 0).val % 8 = (j 0).val
      rw [h0]; omega
    | ⟨1, _⟩ => exact h1

/-- An index of the result array is in point `t`'s block iff each coordinate is in the block's range. -/
theorem mem_blk (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- Every index of the result array is in the block of grid point (row div 8). -/
theorem covered (i : S64x128.Idx) :
    ∃ t : Fin cfg0.N, (cfg0.win 3).flush t = true ∧ i ∈ ((cfg0.win 3).blk t).view.set := by
  have hi0 : (i 0).val < 64 := (i 0).isLt
  have hi1 : (i 1).val < 128 := (i 1).isLt
  obtain ⟨-, -, -, -, -, -, -, -, -, e0, e1⟩ := idx_facts (⟨(i 0).val / 8, lt_of_lt_of_eq (by omega) N_0.symm⟩ : Fin cfg0.N)
  refine ⟨⟨(i 0).val / 8, lt_of_lt_of_eq (by omega) N_0.symm⟩, flush0_3 _, (mem_blk _ i).mpr fun a => ?_⟩
  match a with
  | ⟨0, _⟩ =>
    show win0_3.index _ (0 : Fin 2) * 8 ≤ (i 0).val ∧ (i 0).val < win0_3.index _ (0 : Fin 2) * 8 + 8
    rw [e0]
    show (i 0).val / 8 * 8 ≤ (i 0).val ∧ (i 0).val < (i 0).val / 8 * 8 + 8
    omega
  | ⟨1, _⟩ =>
    show win0_3.index _ (1 : Fin 2) * 128 ≤ (i 1).val ∧ (i 1).val < win0_3.index _ (1 : Fin 2) * 128 + 128
    rw [e1]
    omega

/-- The result array after the region. -/
theorem final (c : Dev nD) : (dats m 0 c).arrAt 3 cfg0.N = statsArray m c :=
  (dats m 0 c).arrAt_eq_of_cover 3 (statsArray m c) (fun t _ => flushed_eq m c t) covered

/-! ## The host lines -/

/-- The host lines but the last, -/
abbrev tailInit : List (HloOp τ sig (Elt F)) :=
  ( StableHlo.unary main_v0 main_v1 ((extractStridedSlice S64x1 ![0, 0] · slices_S64x128_S64x1_0_0) : (⟨S64x128, .f32⟩ : BufTy).Contents (Elt F) → (⟨S64x1, .f32⟩ : BufTy).Contents (Elt F))
  :: StableHlo.reshape main_v1 main_v2 rfl shapeCasts_S64x1_S64
  :: StableHlo.unary main_v0 main_v3 ((extractStridedSlice S64x1 ![0, 1] · slices_S64x128_S64x1_0_1) : (⟨S64x128, .f32⟩ : BufTy).Contents (Elt F) → (⟨S64x1, .f32⟩ : BufTy).Contents (Elt F))
  :: StableHlo.reshape main_v3 main_v4 rfl shapeCasts_S64x1_S64
  :: StableHlo.unary main_v0 main_v5 ((extractStridedSlice S64x1 ![0, 2] · slices_S64x128_S64x1_0_2) : (⟨S64x128, .f32⟩ : BufTy).Contents (Elt F) → (⟨S64x1, .f32⟩ : BufTy).Contents (Elt F))
  :: StableHlo.reshape main_v5 main_v6 rfl shapeCasts_S64x1_S64
  :: StableHlo.unary main_v0 main_v7 ((extractStridedSlice S64x1 ![0, 3] · slices_S64x128_S64x1_0_3) : (⟨S64x128, .f32⟩ : BufTy).Contents (Elt F) → (⟨S64x1, .f32⟩ : BufTy).Contents (Elt F))
  :: StableHlo.reshape main_v7 main_v8 rfl shapeCasts_S64x1_S64
  :: StableHlo.binary main_arg5 main_v2 main_v9 (mulf : (⟨S64, .f32⟩ : BufTy).Contents (Elt F) → (⟨S64, .f32⟩ : BufTy).Contents (Elt F) → (⟨S64, .f32⟩ : BufTy).Contents (Elt F))
  :: StableHlo.nullary main_cst (constant S_ .f32 0x3F800000#32)
  :: StableHlo.unary main_cst main_v10 (broadcastInDim S64 ![] bcast_S_S64 : (⟨S_, .f32⟩ : BufTy).Contents (Elt F) → (⟨S64, .f32⟩ : BufTy).Contents (Elt F))
  :: StableHlo.binary main_v10 main_arg5 main_v11 (subf : (⟨S64, .f32⟩ : BufTy).Contents (Elt F) → (⟨S64, .f32⟩ : BufTy).Contents (Elt F) → (⟨S64, .f32⟩ : BufTy).Contents (Elt F))
  :: StableHlo.binary main_v11 main_v4 main_v12 (mulf : (⟨S64, .f32⟩ : BufTy).Contents (Elt F) → (⟨S64, .f32⟩ : BufTy).Contents (Elt F) → (⟨S64, .f32⟩ : BufTy).Contents (Elt F))
  :: StableHlo.binary main_v9 main_v12 main_v13 (addf : (⟨S64, .f32⟩ : BufTy).Contents (Elt F) → (⟨S64, .f32⟩ : BufTy).Contents (Elt F) → (⟨S64, .f32⟩ : BufTy).Contents (Elt F))
  :: StableHlo.binary main_arg3 main_v13 main_v14 (mulf : (⟨S64, .f32⟩ : BufTy).Contents (Elt F) → (⟨S64, .f32⟩ : BufTy).Contents (Elt F) → (⟨S64, .f32⟩ : BufTy).Contents (Elt F))
  :: StableHlo.binary main_arg5 main_v6 main_v15 (mulf : (⟨S64, .f32⟩ : BufTy).Contents (Elt F) → (⟨S64, .f32⟩ : BufTy).Contents (Elt F) → (⟨S64, .f32⟩ : BufTy).Contents (Elt F))
  :: StableHlo.nullary main_cst_0 (constant S_ .f32 0x3F800000#32)
  :: StableHlo.unary main_cst_0 main_v16 (broadcastInDim S64 ![] bcast_S_S64 : (⟨S_, .f32⟩ : BufTy).Contents (Elt F) → (⟨S64, .f32⟩ : BufTy).Contents (Elt F))
  :: StableHlo.binary main_v16 main_arg5 main_v17 (subf : (⟨S64, .f32⟩ : BufTy).Contents (Elt F) → (⟨S64, .f32⟩ : BufTy).Contents (Elt F) → (⟨S64, .f32⟩ : BufTy).Contents (Elt F))
  :: StableHlo.binary main_v17 main_v8 main_v18 (mulf : (⟨S64, .f32⟩ : BufTy).Contents (Elt F) → (⟨S64, .f32⟩ : BufTy).Contents (Elt F) → (⟨S64, .f32⟩ : BufTy).Contents (Elt F))
  :: StableHlo.binary main_v15 main_v18 main_v19 (addf : (⟨S64, .f32⟩ : BufTy).Contents (Elt F) → (⟨S64, .f32⟩ : BufTy).Contents (Elt F) → (⟨S64, .f32⟩ : BufTy).Contents (Elt F))
  :: StableHlo.binary main_arg4 main_v19 main_v20 (mulf : (⟨S64, .f32⟩ : BufTy).Contents (Elt F) → (⟨S64, .f32⟩ : BufTy).Contents (Elt F) → (⟨S64, .f32⟩ : BufTy).Contents (Elt F))
  :: StableHlo.binary main_v14 main_v20 main_v21 (addf : (⟨S64, .f32⟩ : BufTy).Contents (Elt F) → (⟨S64, .f32⟩ : BufTy).Contents (Elt F) → (⟨S64, .f32⟩ : BufTy).Contents (Elt F))
  :: StableHlo.nullary main_cst_1 (constant S_ .f32 0x00000000#32)
  :: StableHlo.binary main_v21 main_cst_1 main_v22 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F))
  :: StableHlo.nullary main_cst_2 (constant S_ .f32 0x42800000#32)
  :: StableHlo.binary main_v22 main_cst_2 main_v23 (Host.divf : (⟨S_, .f32⟩ : BufTy).Contents (Elt F) → (⟨S_, .f32⟩ : BufTy).Contents (Elt F) → (⟨S_, .f32⟩ : BufTy).Contents (Elt F))
  :: StableHlo.nullary main_cst_3 (constant S_ .f32 0x00000000#32)
  :: StableHlo.binary main_v14 main_cst_3 main_v24 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F))
  :: StableHlo.nullary main_cst_4 (constant S_ .f32 0x42800000#32)
  :: StableHlo.binary main_v24 main_cst_4 main_v25 (Host.divf : (⟨S_, .f32⟩ : BufTy).Contents (Elt F) → (⟨S_, .f32⟩ : BufTy).Contents (Elt F) → (⟨S_, .f32⟩ : BufTy).Contents (Elt F))
  :: StableHlo.nullary main_cst_5 (constant S_ .f32 0x00000000#32)
  :: StableHlo.binary main_v20 main_cst_5 main_v26 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F))
  :: StableHlo.nullary main_cst_6 (constant S_ .f32 0x42800000#32)
  :: StableHlo.binary main_v26 main_cst_6 main_v27 (Host.divf : (⟨S_, .f32⟩ : BufTy).Contents (Elt F) → (⟨S_, .f32⟩ : BufTy).Contents (Elt F) → (⟨S_, .f32⟩ : BufTy).Contents (Elt F))
  :: StableHlo.unary main_v23 main_v28 (broadcastInDim S1 ![] bcast_S_S1 : (⟨S_, .f32⟩ : BufTy).Contents (Elt F) → (⟨S1, .f32⟩ : BufTy).Contents (Elt F))
  :: StableHlo.unary main_v25 main_v29 (broadcastInDim S1 ![] bcast_S_S1 : (⟨S_, .f32⟩ : BufTy).Contents (Elt F) → (⟨S1, .f32⟩ : BufTy).Contents (Elt F))
  :: StableHlo.unary main_v27 main_v30 (broadcastInDim S1 ![] bcast_S_S1 : (⟨S_, .f32⟩ : BufTy).Contents (Elt F) → (⟨S1, .f32⟩ : BufTy).Contents (Elt F))
  :: [] )

/-- and the last, which stacks the three means. -/
abbrev tailLast : HloOp τ sig (Elt F) :=
  StableHlo.nary ![main_v28, main_v29, main_v30] main_v31 (fun u => concatenate S3 0 [⟨S1, u 0⟩, ⟨S1, u 1⟩, ⟨S1, u 2⟩] concatenates_S1_S1_S1_S3_d0)

theorem tail_split : (hostOps1 : List (HloOp τ sig (Elt F))) = tailInit ++ [tailLast] := rfl

/-- Column `j` of the kernel's result array as a vector over the 64 batches. -/
def statCol0 (o : (⟨S64x128, .f32⟩ : BufTy).Contents (Elt F)) : (⟨S64, .f32⟩ : BufTy).Contents (Elt F) :=
  shapeCast S64 (extractStridedSlice S64x1 ![0, 0] o slices_S64x128_S64x1_0_0) shapeCasts_S64x1_S64
def statCol1 (o : (⟨S64x128, .f32⟩ : BufTy).Contents (Elt F)) : (⟨S64, .f32⟩ : BufTy).Contents (Elt F) :=
  shapeCast S64 (extractStridedSlice S64x1 ![0, 1] o slices_S64x128_S64x1_0_1) shapeCasts_S64x1_S64
def statCol2 (o : (⟨S64x128, .f32⟩ : BufTy).Contents (Elt F)) : (⟨S64, .f32⟩ : BufTy).Contents (Elt F) :=
  shapeCast S64 (extractStridedSlice S64x1 ![0, 2] o slices_S64x128_S64x1_0_2) shapeCasts_S64x1_S64
def statCol3 (o : (⟨S64x128, .f32⟩ : BufTy).Contents (Elt F)) : (⟨S64, .f32⟩ : BufTy).Contents (Elt F) :=
  shapeCast S64 (extractStridedSlice S64x1 ![0, 3] o slices_S64x128_S64x1_0_3) shapeCasts_S64x1_S64

/-- One stage's loss per batch: flag · (w · sym + (1 − w) · asym). -/
def stageLoss (flag w sym asym : (⟨S64, .f32⟩ : BufTy).Contents (Elt F)) : (⟨S64, .f32⟩ : BufTy).Contents (Elt F) :=
  mulf flag (addf (mulf w sym) (mulf (subf (broadcastInDim S64 ![] bcast_S_S64 (constant S_ .f32 0x3F800000#32)) w) asym))

/-- The mean over the 64 batches, as a one-element vector. -/
def batchMean (v : (⟨S64, .f32⟩ : BufTy).Contents (Elt F)) : (⟨S1, .f32⟩ : BufTy).Contents (Elt F) :=
  broadcastInDim S1 ![] bcast_S_S1 (Host.divf (Host.reduceAdd v (constant S_ .f32 0x00000000#32) reducesTo_S64_S_d0 h_S_) (constant S_ .f32 0x42800000#32))

/-- The three means stacked: of the total loss, of stage one's, of stage two's. -/
def threeMeans (l1 l2 : (⟨S64, .f32⟩ : BufTy).Contents (Elt F)) : (⟨S3, .f32⟩ : BufTy).Contents (Elt F) :=
  concatenate S3 0 [⟨S1, batchMean (addf l1 l2)⟩, ⟨S1, batchMean l1⟩, ⟨S1, batchMean l2⟩] concatenates_S1_S1_S1_S3_d0

/-- The kernel program's result from the statistics array and the three flag vectors. -/
def resultOf (o : (⟨S64x128, .f32⟩ : BufTy).Contents (Elt F)) (x3 x4 x5 : (⟨S64, .f32⟩ : BufTy).Contents (Elt F)) : (⟨S3, .f32⟩ : BufTy).Contents (Elt F) :=
  threeMeans (stageLoss x3 x5 (statCol0 o) (statCol1 o)) (stageLoss x4 x5 (statCol2 o) (statCol3 o))

theorem after_append' (l₁ l₂ : List (HloOp τ sig (Elt F))) (W : Valuation τ sig (Elt F)) :
    after (l₁ ++ l₂) W = after l₂ (after l₁ W) := by
  induction l₁ generalizing W with
  | nil => rfl
  | cons op l ih => rw [List.cons_append, after_cons, after_cons, ih]

section Means

variable (W : Valuation τ sig (Elt F))

abbrev lossA : (⟨S64, .f32⟩ : BufTy).Contents (Elt F) :=
  stageLoss (W (Proc.devRef .tc main_arg3)) (W (Proc.devRef .tc main_arg5)) (statCol0 (W (Proc.devRef .tc main_v0))) (statCol1 (W (Proc.devRef .tc main_v0)))
abbrev lossB : (⟨S64, .f32⟩ : BufTy).Contents (Elt F) :=
  stageLoss (W (Proc.devRef .tc main_arg4)) (W (Proc.devRef .tc main_arg5)) (statCol2 (W (Proc.devRef .tc main_v0))) (statCol3 (W (Proc.devRef .tc main_v0)))

set_option maxRecDepth 65536 in
set_option maxHeartbeats 4000000 in
theorem mean_total : after (tailInit (F := F)) W (Proc.devRef .tc main_v28) = batchMean (addf (lossA W) (lossB W)) := by
  after_results_simp <;> rfl

set_option maxRecDepth 65536 in
set_option maxHeartbeats 4000000 in
theorem mean_one : after (tailInit (F := F)) W (Proc.devRef .tc main_v29) = batchMean (lossA W) := by
  after_results_simp <;> rfl

set_option maxRecDepth 65536 in
set_option maxHeartbeats 4000000 in
theorem mean_two : after (tailInit (F := F)) W (Proc.devRef .tc main_v30) = batchMean (lossB W) := by
  after_results_simp <;> rfl

/-- The result buffer after the host lines, from any contents `W` at their start. -/
theorem tail_result : after (hostOps1 (F := F)) W (Proc.devRef .tc main_v31)
    = resultOf (W (Proc.devRef .tc main_v0)) (W (Proc.devRef .tc main_arg3)) (W (Proc.devRef .tc main_arg4)) (W (Proc.devRef .tc main_arg5)) := by
  rw [tail_split, after_append']
  simp only [after_cons, after_nil]
  rw [nary_result]
  show concatenate S3 0 [⟨S1, after (tailInit (F := F)) W (Proc.devRef .tc main_v28)⟩, ⟨S1, after (tailInit (F := F)) W (Proc.devRef .tc main_v29)⟩,
      ⟨S1, after (tailInit (F := F)) W (Proc.devRef .tc main_v30)⟩] concatenates_S1_S1_S1_S3_d0 = _
  rw [mean_total, mean_one, mean_two]
  rfl

end Means

end Cert.KernelIdeal.Hand

end
-- ==== Proof.LibGramRows.lean ====
/-
  General lemmas for programs that compare every row of one batched point cloud with every row of another:
  arrays `[A, B, C]` (batch, row, coordinate or batch, row, column) read at an index, at the exact (extended)
  reals where every float operation is the textbook one.

  * a sum along the last axis of an `[A, B, C]` array, and along the second axis of an `[A, B]` array, as a
    `Fin`-indexed sum (a kernel's lane reduction and the host's reduce alike, the host's with its initial value);
  * a minimum along the last or the middle axis of an `[A, B, C]` array as the fold of `min` from the initial
    value (kernel and host alike);
  * the keepdims forms `[A, B] → [A, B, 1] → [A, B, C]` (a value per row repeated along the columns) and
    `[A, C] → [A, 1, C] → [A, B, C]` (a value per column repeated along the rows), as a kernel spells them
    (shape cast, broadcast) and as the host does (broadcast_in_dim);
  * the batched product of `[A, B, K]` with `[A, C, K]` contracting the last axes, batch axis first, read at
    `(a, b, c)` as the sum over `k` of left `(a, b, k)` times right `(a, c, k)` — a kernel's matrix product
    into the zero accumulator and the host's dot_general alike.

  Nothing here mentions a particular program: the extents are variables, only ranks and axis lists are literal.
-/
import Idealize.ShloMosaic.Lib.Pipeline.Value
import Idealize.ShloMosaic.Lib.ValueIdx
import Idealize.ShloMosaic.PureOps.Ideal.Laws

noncomputable section

namespace Cert.LibGramRows

open Idealize.ShloMosaic Idealize.ShloMosaic.ValueIdx

/-! ## Sums and minima along one axis -/

section Reductions
variable {A B C : ℕ} {φ : FTy}

/-- A kernel's sum along the last axis of an `[A, B, C]` array, read at `(a, b)`. -/
theorem sumLast_apply (src : FVec Ideal ⟨3, ![A, B, C]⟩ φ) (acc : BitVec φ.bits)
    (h : (⟨3, ![A, B, C]⟩ : Shape).Reduces [2] ⟨2, ![A, B]⟩) (hφ : FKind.Formats φ) (hacc : acc = FKind.add.neutral φ hφ)
    (a : Fin A) (b : Fin B) :
    multiReduction .add [2] ⟨2, ![A, B]⟩ src acc h hφ hacc (ix2 a b) = ∑ c : Fin C, src (ix3 a b c) := by
  refine (Ideal.multiReduction_add_single src acc h hφ hacc (ix2 a b)).trans ?_
  refine Finset.sum_congr rfl fun k _ => congrArg src ?_
  funext ax; apply Fin.ext
  match ax with
  | ⟨0, _⟩ => rfl
  | ⟨1, _⟩ => rfl
  | ⟨2, _⟩ => rfl

/-- A kernel's sum along the second axis of an `[A, B]` array, read at `a`. -/
theorem rowSum_apply (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ)
    (a : Fin A) :
    multiReduction .add [1] ⟨1, ![A]⟩ src acc h hφ hacc (ix1 a) = ∑ b : Fin B, src (ix2 a b) := by
  refine (Ideal.multiReduction_add_single src acc h hφ hacc (ix1 a)).trans ?_
  refine Finset.sum_congr rfl fun k _ => congrArg src ?_
  funext ax; apply Fin.ext
  match ax with
  | ⟨0, _⟩ => rfl
  | ⟨1, _⟩ => rfl

/-- A kernel's minimum along the last axis of an `[A, B, C]` array, read at `(a, b)`: the fold of `min` from the
    accumulator's value. -/
theorem minLast_apply (src : FVec Ideal ⟨3, ![A, B, C]⟩ φ) (acc : BitVec φ.bits)
    (h : (⟨3, ![A, B, C]⟩ : Shape).Reduces [2] ⟨2, ![A, B]⟩) (hφ : FKind.Formats φ) (hacc : acc = FKind.minimumf.neutral φ hφ)
    (a : Fin A) (b : Fin B) :
    multiReduction .minimumf [2] ⟨2, ![A, B]⟩ src acc h hφ hacc (ix2 a b)
      = (Finset.univ : Finset (Fin C)).fold min (Ideal.ofBits φ acc) (fun c => src (ix3 a b c)) := by
  rw [multiReduction_minimumf_eq_fold]
  refine (h.fold_filter_drop_single _ _ src (ix2 a b)).trans ?_
  refine congrArg (fun f => Finset.fold min (Ideal.ofBits φ acc) f (Finset.univ : Finset (Fin C))) (funext fun c => congrArg src ?_)
  funext ax; apply Fin.ext
  match ax with
  | ⟨0, _⟩ => rfl
  | ⟨1, _⟩ => rfl
  | ⟨2, _⟩ => rfl

/-- A kernel's minimum along the middle axis of an `[A, B, C]` array, read at `(a, c)`. -/
theorem minMid_apply (src : FVec Ideal ⟨3, ![A, B, C]⟩ φ) (acc : BitVec φ.bits)
    (h : (⟨3, ![A, B, C]⟩ : Shape).Reduces [1] ⟨2, ![A, C]⟩) (hφ : FKind.Formats φ) (hacc : acc = FKind.minimumf.neutral φ hφ)
    (a : Fin A) (c : Fin C) :
    multiReduction .minimumf [1] ⟨2, ![A, C]⟩ src acc h hφ hacc (ix2 a c)
      = (Finset.univ : Finset (Fin B)).fold min (Ideal.ofBits φ acc) (fun b => src (ix3 a b c)) := by
  rw [multiReduction_minimumf_eq_fold]
  refine (h.fold_filter_drop_single _ _ src (ix2 a c)).trans ?_
  refine congrArg (fun f => Finset.fold min (Ideal.ofBits φ acc) f (Finset.univ : Finset (Fin B))) (funext fun b => congrArg src ?_)
  funext ax; apply Fin.ext
  match ax with
  | ⟨0, _⟩ => rfl
  | ⟨1, _⟩ => rfl
  | ⟨2, _⟩ => rfl

/-- The host's sum along the last axis of an `[A, B, C]` array, read at `(a, b)`: the initial value plus the sum. -/
theorem hostSumLast_apply {u : Shape} (x : FVec Ideal ⟨3, ![A, B, C]⟩ φ) (init : FVec Ideal u φ)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduceAdd x init h' hu (ix2 a b) = init (Shape.Idx.first hu) + ∑ c : Fin C, x (ix3 a b c) := by
  simp only [Host.reduceAdd, Ideal.hostReduceAdd_def]
  rw [Ideal.hostReduceAdd_single h' h]
  refine congrArg (_ + ·) (Finset.sum_congr rfl fun k _ => congrArg x ?_)
  funext ax; apply Fin.ext
  match ax with
  | ⟨0, _⟩ => rfl
  | ⟨1, _⟩ => rfl
  | ⟨2, _⟩ => rfl

/-- The host's sum along the second axis of an `[A, B]` array, read at `a`. -/
theorem hostRowSum_apply {u : Shape} (x : FVec Ideal ⟨2, ![A, B]⟩ φ) (init : FVec Ideal u φ)
    (h' : (⟨2, ![A, B]⟩ : Shape).ReducesTo [1] ⟨1, ![A]⟩) (h : (⟨2, ![A, B]⟩ : Shape).Reduces [1] ⟨1, ![A]⟩)
    (hu : 0 < u.numel) (a : Fin A) :
    Host.reduceAdd x init h' hu (ix1 a) = init (Shape.Idx.first hu) + ∑ b : Fin B, x (ix2 a b) := by
  simp only [Host.reduceAdd, Ideal.hostReduceAdd_def]
  rw [Ideal.hostReduceAdd_single h' h]
  refine congrArg (_ + ·) (Finset.sum_congr rfl fun k _ => congrArg x ?_)
  funext ax; apply Fin.ext
  match ax with
  | ⟨0, _⟩ => rfl
  | ⟨1, _⟩ => rfl

/-- The host's minimum along the last axis of an `[A, B, C]` array, read at `(a, b)`. -/
theorem hostMinLast_apply {u : Shape} (x : FVec Ideal ⟨3, ![A, B, C]⟩ φ) (init : FVec Ideal u φ)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce FloatOps.minimumf x init h' hu (ix2 a b)
      = (Finset.univ : Finset (Fin C)).fold min (init (Shape.Idx.first hu)) (fun c => x (ix3 a b c)) := by
  rw [Host.reduce_eq_fold_single FloatOps.minimumf x init h' h hu]
  refine congrArg (fun f => Finset.fold min (init (Shape.Idx.first hu)) f (Finset.univ : Finset (Fin C))) (funext fun c => congrArg x ?_)
  funext ax; apply Fin.ext
  match ax with
  | ⟨0, _⟩ => rfl
  | ⟨1, _⟩ => rfl
  | ⟨2, _⟩ => rfl

/-- The host's minimum along the middle axis of an `[A, B, C]` array, read at `(a, c)`. -/
theorem hostMinMid_apply {u : Shape} (x : FVec Ideal ⟨3, ![A, B, C]⟩ φ) (init : FVec Ideal u φ)
    (h' : (⟨3, ![A, B, C]⟩ : Shape).ReducesTo [1] ⟨2, ![A, C]⟩) (h : (⟨3, ![A, B, C]⟩ : Shape).Reduces [1] ⟨2, ![A, C]⟩)
    (hu : 0 < u.numel) (a : Fin A) (c : Fin C) :
    Host.reduce FloatOps.minimumf x init h' hu (ix2 a c)
      = (Finset.univ : Finset (Fin B)).fold min (init (Shape.Idx.first hu)) (fun b => x (ix3 a b c)) := by
  rw [Host.reduce_eq_fold_single FloatOps.minimumf x init h' h hu]
  refine congrArg (fun f => Finset.fold min (init (Shape.Idx.first hu)) f (Finset.univ : Finset (Fin B))) (funext fun b => congrArg x ?_)
  funext ax; apply Fin.ext
  match ax with
  | ⟨0, _⟩ => rfl
  | ⟨1, _⟩ => rfl
  | ⟨2, _⟩ => rfl

end Reductions

/-! ## The keepdims forms -/

section Layout
variable {α : Type} {A B C : ℕ}

/-- `[A, B] → [A, B, 1]`: the value of row `(a, b)`, whatever the unit coordinate. -/
theorem cast_rows_apply (x : (⟨2, ![A, B]⟩ : Shape).Idx → α) (h : (⟨2, ![A, B]⟩ : Shape).ShapeCasts ⟨3, ![A, B, 1]⟩)
    (a : Fin A) (b : Fin B) (u : Fin 1) : shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, C] → [A, 1, C]`: the value of column `(a, c)`. -/
theorem cast_cols_apply (x : (⟨2, ![A, C]⟩ : Shape).Idx → α) (h : (⟨2, ![A, C]⟩ : Shape).ShapeCasts ⟨3, ![A, 1, C]⟩)
    (a : Fin A) (u : Fin 1) (c : Fin C) : shapeCast ⟨3, ![A, 1, C]⟩ x h (ix3 a u c) = x (ix2 a c) :=
  shapeCast_apply x h _ _ (by
    have hu : u.val = 0 := by omega
    rw [Shape.rowMajor_val_two, Shape.rowMajor_val_three]
    show a.val * C + c.val = (a.val * 1 + u.val) * C + c.val
    rw [hu, Nat.mul_one, Nat.add_zero])

/-- `[A, B, 1] → [A, B, C]`: row `(a, b)`'s value at every column. -/
theorem bcast_rows_apply (v : (⟨3, ![A, B, 1]⟩ : Shape).Idx → α) (h : (⟨3, ![A, B, 1]⟩ : Shape).Broadcasts ⟨3, ![A, B, C]⟩)
    (a : Fin A) (b : Fin B) (c : Fin C) : broadcastTo ⟨3, ![A, B, C]⟩ v h (ix3 a b c) = v (ix3 a b (0 : Fin 1)) := by
  refine broadcastTo_apply v h (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- `[A, 1, C] → [A, B, C]`: column `(a, c)`'s value at every row. -/
theorem bcast_cols_apply (v : (⟨3, ![A, 1, C]⟩ : Shape).Idx → α) (h : (⟨3, ![A, 1, C]⟩ : Shape).Broadcasts ⟨3, ![A, B, C]⟩)
    (a : Fin A) (b : Fin B) (c : Fin C) : broadcastTo ⟨3, ![A, B, C]⟩ v h (ix3 a b c) = v (ix3 a (0 : Fin 1) c) := by
  refine broadcastTo_apply v h (ix3 a b c) (ix3 a (0 : Fin 1) c) fun ax => ?_
  match ax with
  | ⟨0, _⟩ =>
    show a.val = if A = 1 then 0 else a.val
    split
    · have := a.isLt; omega
    · rfl
  | ⟨1, _⟩ => rfl
  | ⟨2, _⟩ =>
    show c.val = if C = 1 then 0 else c.val
    split
    · have := c.isLt; omega
    · rfl

/-- The host's `[A, B] → [A, B, 1]` (axes 0 and 1 kept). -/
theorem hostRows1_apply (x : (⟨2, ![A, B]⟩ : Shape).Idx → α)
    (h : (⟨2, ![A, B]⟩ : Shape).BroadcastsInDim ⟨3, ![A, B, 1]⟩ ![0, 1]) (a : Fin A) (b : Fin B) (u : Fin 1) :
    broadcastInDim ⟨3, ![A, B, 1]⟩ ![0, 1] h x (ix3 a b u) = x (ix2 a b) := by
  refine broadcastInDim_apply _ h x (ix3 a b u) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- The host's `[A, C] → [A, 1, C]` (axes 0 and 2 kept). -/
theorem hostCols1_apply (x : (⟨2, ![A, C]⟩ : Shape).Idx → α)
    (h : (⟨2, ![A, C]⟩ : Shape).BroadcastsInDim ⟨3, ![A, 1, C]⟩ ![0, 2]) (a : Fin A) (u : Fin 1) (c : Fin C) :
    broadcastInDim ⟨3, ![A, 1, C]⟩ ![0, 2] h x (ix3 a u c) = x (ix2 a c) := by
  refine broadcastInDim_apply _ h x (ix3 a u c) (ix2 a c) fun ax => ?_
  match ax with
  | ⟨0, _⟩ =>
    show a.val = if A = 1 then 0 else a.val
    split
    · have := a.isLt; omega
    · rfl
  | ⟨1, _⟩ =>
    show c.val = if C = 1 then 0 else c.val
    split
    · have := c.isLt; omega
    · rfl

/-- The host's `[A, B, 1] → [A, B, C]`. -/
theorem hostRowsC_apply (v : (⟨3, ![A, B, 1]⟩ : Shape).Idx → α)
    (h : (⟨3, ![A, B, 1]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 a b (0 : Fin 1)) := by
  refine broadcastInDim_apply _ h v (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- The host's `[A, 1, C] → [A, B, C]`. -/
theorem hostColsB_apply (v : (⟨3, ![A, 1, C]⟩ : Shape).Idx → α)
    (h : (⟨3, ![A, 1, C]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 a (0 : Fin 1) c) := by
  refine broadcastInDim_apply _ h v (ix3 a b c) (ix3 a (0 : Fin 1) c) fun ax => ?_
  match ax with
  | ⟨0, _⟩ =>
    show a.val = if A = 1 then 0 else a.val
    split
    · have := a.isLt; omega
    · rfl
  | ⟨1, _⟩ => rfl
  | ⟨2, _⟩ =>
    show c.val = if C = 1 then 0 else c.val
    split
    · have := c.isLt; omega
    · rfl

/-- `[A] → [A, 1]`: the value of row `a`, whatever the unit coordinate. -/
theorem cast_col_apply (x : (⟨1, ![A]⟩ : Shape).Idx → α) (h : (⟨1, ![A]⟩ : Shape).ShapeCasts ⟨2, ![A, 1]⟩)
    (a : Fin A) (u : Fin 1) : shapeCast ⟨2, ![A, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- The host's splat of a scalar: the scalar at every index. -/
theorem hostSplat_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Layout

/-! ## The batched product of rows against rows -/

section Product
variable {A B C K : ℕ} {φ₁ φ₂ : FTy}

/-- The dimension numbers of `[A, B, K] · [A, C, K]` over the batch axis `A`, contracting the last axes. -/
abbrev rowsDims (wf : DotDims.WF (⟨3, ![A, B, K]⟩ : Shape) ⟨3, ![A, C, K]⟩ ⟨3, ![A, B, C]⟩ [2] [2] [1] [1] [0] [0]) :
    DotDims (⟨3, ![A, B, K]⟩ : Shape) ⟨3, ![A, C, K]⟩ ⟨3, ![A, B, C]⟩ :=
  ⟨[2], [2], [1], [1], [0], [0], wf⟩

variable (wf : DotDims.WF (⟨3, ![A, B, K]⟩ : Shape) ⟨3, ![A, C, K]⟩ ⟨3, ![A, B, C]⟩ [2] [2] [1] [1] [0] [0])

theorem rowsDims_lhs0 (j : (⟨3, ![A, B, C]⟩ : Shape).Idx) (q : (rowsDims wf).contr.Idx) :
    ((rowsDims wf).lhsIdx j q 0).val = (j 0).val := by
  unfold DotDims.lhsIdx
  rw [dif_pos (show (0 : Fin (⟨3, ![A, B, K]⟩ : Shape).rank) ∈ (rowsDims wf).lhsBatch from List.mem_singleton.mpr rfl)]
  rfl
theorem rowsDims_lhs1 (j : (⟨3, ![A, B, C]⟩ : Shape).Idx) (q : (rowsDims wf).contr.Idx) :
    ((rowsDims wf).lhsIdx j q 1).val = (j 1).val := by
  unfold DotDims.lhsIdx
  rw [dif_neg (show ¬(1 : Fin (⟨3, ![A, B, K]⟩ : Shape).rank) ∈ (rowsDims wf).lhsBatch from fun hm => absurd (congrArg Fin.val (List.mem_singleton.mp hm)) Nat.one_ne_zero),
    dif_pos (show (1 : Fin (⟨3, ![A, B, K]⟩ : Shape).rank) ∈ (rowsDims wf).lhsNonContracting from List.mem_singleton.mpr rfl)]
  rfl
theorem rowsDims_lhs2 (j : (⟨3, ![A, B, C]⟩ : Shape).Idx) (q : (rowsDims wf).contr.Idx) :
    ((rowsDims wf).lhsIdx j q 2).val = (q ⟨0, Nat.one_pos⟩).val :=
  (rowsDims wf).lhsIdx_val_of_single rfl j q
theorem rowsDims_rhs0 (j : (⟨3, ![A, B, C]⟩ : Shape).Idx) (q : (rowsDims wf).contr.Idx) :
    ((rowsDims wf).rhsIdx j q 0).val = (j 0).val := by
  unfold DotDims.rhsIdx
  rw [dif_pos (show (0 : Fin (⟨3, ![A, C, K]⟩ : Shape).rank) ∈ (rowsDims wf).rhsBatch from List.mem_singleton.mpr rfl)]
  rfl
theorem rowsDims_rhs1 (j : (⟨3, ![A, B, C]⟩ : Shape).Idx) (q : (rowsDims wf).contr.Idx) :
    ((rowsDims wf).rhsIdx j q 1).val = (j 2).val := by
  unfold DotDims.rhsIdx
  rw [dif_neg (show ¬(1 : Fin (⟨3, ![A, C, K]⟩ : Shape).rank) ∈ (rowsDims wf).rhsBatch from fun hm => absurd (congrArg Fin.val (List.mem_singleton.mp hm)) Nat.one_ne_zero),
    dif_pos (show (1 : Fin (⟨3, ![A, C, K]⟩ : Shape).rank) ∈ (rowsDims wf).rhsNonContracting from List.mem_singleton.mpr rfl)]
  rfl
theorem rowsDims_rhs2 (j : (⟨3, ![A, B, C]⟩ : Shape).Idx) (q : (rowsDims wf).contr.Idx) :
    ((rowsDims wf).rhsIdx j q 2).val = (q ⟨0, Nat.one_pos⟩).val :=
  (rowsDims wf).rhsIdx_val_of_single rfl j q

/-- The contraction's sum at `(a, b, c)`: over `k` of left `(a, b, k)` times right `(a, c, k)`. -/
theorem rowsDims_sum (lhs : FVec Ideal ⟨3, ![A, B, K]⟩ φ₁) (rhs : FVec Ideal ⟨3, ![A, C, K]⟩ φ₂) (a : Fin A) (b : Fin B) (c : Fin C) :
    (∑ k : (rowsDims wf).contr.Idx, lhs ((rowsDims wf).lhsIdx (ix3 a b c) k) * rhs ((rowsDims wf).rhsIdx (ix3 a b c) k))
      = ∑ k : Fin K, lhs (ix3 a b k) * rhs (ix3 a c k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 a b c) ((contrEquiv1 (rowsDims wf) K rfl rfl).symm k) = ix3 a b k :=
    funext fun ax => Fin.ext (by
      match ax with
      | ⟨0, _⟩ => exact rowsDims_lhs0 wf _ _
      | ⟨1, _⟩ => exact rowsDims_lhs1 wf _ _
      | ⟨2, _⟩ => exact (rowsDims_lhs2 wf _ _).trans hk)
  have er : (rowsDims wf).rhsIdx (ix3 a b c) ((contrEquiv1 (rowsDims wf) K rfl rfl).symm k) = ix3 a c k :=
    funext fun ax => Fin.ext (by
      match ax with
      | ⟨0, _⟩ => exact rowsDims_rhs0 wf _ _
      | ⟨1, _⟩ => exact rowsDims_rhs1 wf _ _
      | ⟨2, _⟩ => exact (rowsDims_rhs2 wf _ _).trans hk)
  rw [el, er]

/-- A kernel's product into the zero accumulator, read at `(a, b, c)`. -/
theorem rowsMatmul_apply (prec : Option ContractPrecision) (lhs : FVec Ideal ⟨3, ![A, B, K]⟩ φ₁)
    (rhs : FVec Ideal ⟨3, ![A, C, K]⟩ φ₂) (a : Fin A) (b : Fin B) (c : Fin C) :
    FloatOps.matmul (rowsDims wf) prec lhs rhs (constant ⟨3, ![A, B, C]⟩ .f32 0x00000000#32) (ix3 a b c)
      = ∑ k : Fin K, lhs (ix3 a b k) * rhs (ix3 a c k) := by
  rw [Ideal.matmul_constant_zero_apply]
  exact rowsDims_sum wf lhs rhs a b c

/-- The host's dot_general, read at `(a, b, c)`. -/
theorem rowsDot_apply (prec : Option ContractPrecision) (sched : HostSchedule) (lhs : FVec Ideal ⟨3, ![A, B, K]⟩ φ₁)
    (rhs : FVec Ideal ⟨3, ![A, C, K]⟩ φ₂) (a : Fin A) (b : Fin B) (c : Fin C) :
    FloatOps.dotGeneral (rowsDims wf) prec sched lhs rhs (ix3 a b c)
      = ∑ k : Fin K, lhs (ix3 a b k) * rhs (ix3 a c k) := by
  rw [Ideal.dotGeneral_apply]
  exact rowsDims_sum wf lhs rhs a b c

end Product

end Cert.LibGramRows

end
-- ==== Proof.Spec.lean ====
/-
  The mathematics that joins the two programs, over the extended reals and with no program in sight.

  For one batch let D n m be the squared distance between prediction point n and target point m (any
  extended reals), and let croot y = √(max y 0). The reference averages, over the slot n, half the sum of
  slot n's nearest-target distance  min_m croot (D n m)  and target n's nearest-prediction distance
  min_n' croot (D n' n). The kernel averages the two families separately, takes the root AFTER the minimum,
  and reaches the sum over n and the minimum over n in eight chunks of 128.

  The two agree because croot is monotone (so it commutes with a minimum, and croot ⊤ = ⊤ absorbs the
  minimum's initial value), because every term summed is non-negative (on non-negative extended reals
  multiplication distributes over addition, infinities included), and because eight chunks of 128 are the
  1024 indices.
-/
import Idealize.ShloMosaic.PureOps.Ideal
import Idealize.ShloMosaic.PureOps.Ideal.Laws
import Mathlib.Data.EReal.Operations
import Mathlib.Algebra.BigOperators.Fin
import Mathlib.Data.Finset.Fold

noncomputable section

namespace Cert.Chamfer

open Idealize.ShloMosaic
open scoped BigOperators

/-! ## The clamped root -/

/-- √(max y 0): the distance from a squared distance that rounding may have pushed below zero. -/
def croot (y : EReal) : EReal := Ideal.sqrt (max y 0)

theorem sqrt_nonneg {y : EReal} (h : 0 ≤ y) : 0 ≤ Ideal.sqrt y := by
  induction y using EReal.rec with
  | bot => exact absurd h (by simp)
  | top => simp
  | coe r =>
    have hr : 0 ≤ r := by exact_mod_cast h
    simp only [Ideal.sqrt_coe, if_neg (not_lt.mpr hr)]
    exact_mod_cast Real.sqrt_nonneg r

theorem sqrt_mono {a b : EReal} (ha : 0 ≤ a) (hab : a ≤ b) : Ideal.sqrt a ≤ Ideal.sqrt b := by
  induction b using EReal.rec with
  | bot => exact absurd (ha.trans hab) (by simp)
  | top => simp
  | coe s =>
    induction a using EReal.rec with
    | bot => exact absurd ha (by simp)
    | top => exact absurd hab (by simp)
    | coe r =>
      have hr : 0 ≤ r := by exact_mod_cast ha
      have hrs : r ≤ s := by exact_mod_cast hab
      simp only [Ideal.sqrt_coe, if_neg (not_lt.mpr hr), if_neg (not_lt.mpr (hr.trans hrs))]
      exact_mod_cast Real.sqrt_le_sqrt hrs

theorem croot_nonneg (y : EReal) : 0 ≤ croot y := sqrt_nonneg (le_max_right _ _)

theorem croot_mono : Monotone croot := fun _ _ h => sqrt_mono (le_max_right _ _) (max_le_max h le_rfl)

theorem croot_top : croot ⊤ = ⊤ := by simp [croot]

/-- The clamped root of a minimum (from ⊤) is the minimum (from ⊤) of the clamped roots. -/
theorem croot_fold_min {ι : Type} (s : Finset ι) (f : ι → EReal) :
    croot (s.fold min ⊤ f) = s.fold min ⊤ (fun i => croot (f i)) := by
  classical
  induction s using Finset.induction_on with
  | empty => simp [croot_top]
  | insert a s ha ih => rw [Finset.fold_insert ha, Finset.fold_insert ha, croot_mono.map_min, ih]

/-! ## Sums of non-negative extended reals -/

theorem mul_sum_of_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a) (Finset.sum_nonneg fun i _ => hf i), ih]

/-- Half the sum of two means is the mean of the half-sums, for non-negative families: with h the half and
    q the reciprocal of the count. -/
theorem half_means {ι : Type} [Fintype ι] (x y : ι → EReal) (hx : ∀ i, 0 ≤ x i) (hy : ∀ i, 0 ≤ y i) (h q : EReal) :
    h * ((∑ i, x i) * q + (∑ i, y i) * q) = (∑ i, h * (x i + y i)) * q := by
  have hX : 0 ≤ ∑ i, x i := Finset.sum_nonneg fun i _ => hx i
  have hY : 0 ≤ ∑ i, y i := Finset.sum_nonneg fun i _ => hy i
  rw [← EReal.right_distrib_of_nonneg hX hY, ← mul_assoc, ← Finset.sum_add_distrib,
    mul_sum_of_nonneg _ _ _ (fun i => add_nonneg (hx i) (hy i))]

/-! ## Eight chunks of 128 -/

theorem forall_chunks (P : ℕ → Prop) :
    (∀ k, k < 8 → ∀ j : Fin 128, P (128 * k + j.val)) ↔ ∀ n : Fin 1024, P n.val := by
  constructor
  · intro h n
    have := h (n.val / 128) (by omega) ⟨n.val % 128, Nat.mod_lt _ (by omega)⟩
    simpa [Nat.div_add_mod] using this
  · intro h k hk j
    exact h ⟨128 * k + j.val, by omega⟩

theorem sum_chunks (X : ℕ → EReal) :
    ∑ k ∈ Finset.range 8, ∑ j : Fin 128, X (128 * k + j.val) = ∑ n : Fin 1024, X n.val := by
  rw [← Fin.sum_univ_eq_sum_range (fun k => ∑ j : Fin 128, X (128 * k + j.val)) 8, ← Fintype.sum_prod_type']
  exact Fintype.sum_equiv (finProdFinEquiv (m := 8) (n := 128)) _ _ (fun p => by
    congr 1
    simp only [finProdFinEquiv, Equiv.coe_fn_mk]
    omega)

/-! ## The statistic, both ways -/

variable (D : Fin 1024 → Fin 1024 → EReal)

/-- The symmetric statistic as the reference computes it: `z` the sum's initial value, `h` the half, `k` the count. -/
def symRef (z h k : EReal) : EReal :=
  Ideal.div (z + ∑ n : Fin 1024, h * ((Finset.univ.fold min ⊤ fun m => croot (D n m)) + (Finset.univ.fold min ⊤ fun n' => croot (D n' n)))) k

/-- The same as the kernel computes it, from the total of the roots of the row minima `S` and the column minima `R`. -/
def symKer (S : EReal) (R : Fin 1024 → EReal) (h k : EReal) : EReal :=
  h * (Ideal.div S k + Ideal.div (∑ m : Fin 1024, croot (R m)) k)

theorem symKer_eq_symRef (S : EReal) (R : Fin 1024 → EReal) (z h k : EReal)
    (hS : S = ∑ n : Fin 1024, croot (Finset.univ.fold min ⊤ fun m => D n m))
    (hR : ∀ m, R m = Finset.univ.fold min ⊤ fun n => D n m)
    (hz : z = 0) (hk : k = ((1024 : ℝ) : EReal)) :
    symKer S R h k = symRef D z h k := by
  subst hz hk hS
  unfold symKer symRef
  rw [Ideal.div_coe (by norm_num), Ideal.div_coe (by norm_num), Ideal.div_coe (by norm_num), zero_add]
  simp only [hR, croot_fold_min]
  exact half_means _ _ (fun n => (Finset.le_fold_min 0).mpr ⟨le_top, fun m _ => croot_nonneg _⟩)
    (fun n => (Finset.le_fold_min 0).mpr ⟨le_top, fun m _ => croot_nonneg _⟩) _ _

/-! ## The squared distances and the constants' patterns -/

/-- The f32 patterns both programs name: 0, 2, ½, 1024, +∞. -/
abbrev wZero : EReal := Ideal.ofBits .f32 0x00000000#32
abbrev wTwo : EReal := Ideal.ofBits .f32 0x40000000#32
abbrev wHalf : EReal := Ideal.ofBits .f32 0x3F000000#32
abbrev wCount : EReal := Ideal.ofBits .f32 0x44800000#32
abbrev wInf : EReal := Ideal.ofBits .f32 0x7F800000#32

/-- The squared distance, in Gram form, between row `n` of `P` and row `m` of `T`:
    ‖P n‖² + ‖T m‖² − 2 ⟨P n, T m⟩. -/
def gramOf (P T : Fin 1024 → Fin 3 → EReal) (n m : Fin 1024) : EReal :=
  ((∑ d : Fin 3, P n d * P n d) + ∑ d : Fin 3, T m d * T m d) - wTwo * ∑ d : Fin 3, P n d * T m d

/-- The mean distance between paired rows. -/
def pairedOf (P T : Fin 1024 → Fin 3 → EReal) : EReal :=
  Ideal.div (∑ n : Fin 1024, Ideal.sqrt (∑ d : Fin 3, (P n d - T n d) * (P n d - T n d))) wCount

theorem ofBits_1024 : Ideal.ofBits .f32 0x44800000#32 = ((1024 : ℝ) : EReal) := by
  simp [Ideal.ofBits, Ideal.ieee]
  rw [← EReal.coe_mul]
  norm_num

theorem ofBits_inf : Ideal.ofBits .f32 0x7F800000#32 = ⊤ := by
  simp [Ideal.ofBits, Ideal.ieee]

end Cert.Chamfer

end
-- ==== Proof.KValue.lean ====
/-
  The kernel body's arithmetic read at an index, at the exact (extended) reals.

  For batch `b` of a block write T m d for the target block's entry (b, m, d) and P n d for a prediction
  block's. The body's payloads are then: the squared norms Σ_d T m d²; the squared distances in Gram form
  (Σ_d P n d² + Σ_d T m d²) − 2 Σ_d P n d · T m d between the rows of a chunk of 128 query points and all 1024
  target points; per trip, the chunk's sum of clamped roots of row minima added to the running sum and the
  chunk's column minima folded into the running minima; after the loop, the two means; and the mean paired
  distance.
-/
import proofs.«147218_j17695265260051_2_alg».proof.Proof.KBlock
import proofs.«147218_j17695265260051_2_alg».proof.Proof.LibGramRows
import proofs.«147218_j17695265260051_2_alg».proof.Proof.Spec

set_option maxRecDepth 65536

noncomputable section

namespace Cert.KernelIdeal.Hand

open Cert.KernelIdeal Cert.KernelIdeal.Gen Cert.LibGramRows Cert.Chamfer
open Idealize.ShloMosaic Idealize.ShloMosaic.ValueIdx

/-- Batch `b`'s points of a block. -/
def rowsOf (x : Vec Ideal S8x1024x3 .f32) (b : Fin 8) : Fin 1024 → Fin 3 → EReal := fun n d => x (ix3 b n d)

/-- The target block's squared norms. -/
theorem pay7_apply (t : Vec Ideal S8x1024x3 .f32) (b : Fin 8) (m : Fin 1024) :
    k0_pay7 t (ix2 b m) = ∑ d : Fin 3, t (ix3 b m d) * t (ix3 b m d) := by
  unfold k0_pay7
  exact sumLast_apply (mulf t t) 0x00000000#32 reduces_S8x1024x3_S8x1024 (.inl rfl) rfl b m

/-- Trip `k`'s chunk holds query points 128k … 128k+127. -/
theorem chunkA_apply (p : Vec Ideal S8x1024x3 .f32) (k : Fin k0_t1_loop.trips) (b : Fin 8) (j : Fin 128) (d : Fin 3)
    (hk : 128 * k.val + j.val < 1024) :
    chunkA p k (ix3 b j d) = p (ix3 b (⟨128 * k.val + j.val, hk⟩ : Fin 1024) d) := by
  unfold chunkA
  show p ((Rect.unit (s := S8x1024x3) (k0_off1 k) S8x128x3.size (k0_off1_inb k)).emb (ix3 b j d)) = _
  refine congrArg p (funext fun a => Fin.ext ?_)
  have e := k0_off1_eq k
  match a with
  | ⟨0, _⟩ => show k0_off1 k 0 + 1 * b.val = b.val; rw [e]; show 0 + 1 * b.val = b.val; omega
  | ⟨1, _⟩ => show k0_off1 k 1 + 1 * j.val = 128 * k.val + j.val; rw [e]; show 128 * k.val + 1 * j.val = 128 * k.val + j.val; omega
  | ⟨2, _⟩ => show k0_off1 k 2 + 1 * d.val = d.val; rw [e]; show 0 + 1 * d.val = d.val; omega

/-- The squared distances between a chunk's rows and the target's rows. -/
theorem pay12_apply (t : Vec Ideal S8x1024x3 .f32) (ch : Vec Ideal S8x128x3 .f32) (b : Fin 8) (j : Fin 128) (m : Fin 1024) :
    k0_pay12 t ch (ix3 b j m)
      = ((∑ d : Fin 3, ch (ix3 b j d) * ch (ix3 b j d)) + ∑ d : Fin 3, t (ix3 b m d) * t (ix3 b m d))
          - wTwo * ∑ d : Fin 3, ch (ix3 b j d) * t (ix3 b m d) := by
  unfold k0_pay12
  rw [subf_apply, addf_apply, mulf_apply, broadcast_apply]
  rw [bcast_rows_apply, cast_rows_apply, bcast_cols_apply, cast_cols_apply, pay7_apply]
  rw [sumLast_apply (mulf ch ch) 0x00000000#32 reduces_S8x128x3_S8x128 (.inl rfl) rfl b j]
  have hm : matmul (F := Ideal) (φ₁ := .f32) (φ₂ := .f32) dot_S8x128x3_S8x1024x3_S8x128x1024_2_2_1_1_0_0 (some .fp32) ch t (constant (F := Ideal) S8x128x1024 .f32 0x00000000#32) (ix3 b j m)
      = ∑ d : Fin 3, ch (ix3 b j d) * t (ix3 b m d) :=
    rowsMatmul_apply (φ₁ := .f32) (φ₂ := .f32) dot_S8x128x3_S8x1024x3_S8x128x1024_2_2_1_1_0_0_wf (some .fp32) ch t b j m
  rw [hm]
  rfl

/-- The clamped root, as the body spells it, read at an index. -/
theorem crootVec_apply {s : Shape} (X : FVec Ideal s .f32) (i : s.Idx) :
    sqrt (F := Ideal) (maximumf X (broadcast s (Scalar.ofBits (F := Ideal) .f32 0x00000000#32))) i = croot (X i) :=
  congrArg (fun z => Ideal.sqrt (max (X i) z)) Ideal.ofBits_zero_f32

/-- A row's sum of clamped roots, over 128 and over 1024 columns. -/
theorem sumRoots128_apply (X : FVec Ideal S8x128 .f32) (b : Fin 8) :
    multiReduction (F := Ideal) .add [1] S8 (sqrt (F := Ideal) (maximumf X (broadcast S8x128 (Scalar.ofBits (F := Ideal) .f32 0x00000000#32)))) 0x00000000#32 reduces_S8x128_S8 (.inl rfl) rfl (ix1 b)
      = ∑ j : Fin 128, croot (X (ix2 b j)) :=
  (rowSum_apply _ 0x00000000#32 reduces_S8x128_S8 (.inl rfl) rfl b).trans (Finset.sum_congr rfl fun j _ => crootVec_apply X (ix2 b j))

theorem sumRoots1024_apply (X : FVec Ideal S8x1024 .f32) (b : Fin 8) :
    multiReduction (F := Ideal) .add [1] S8 (sqrt (F := Ideal) (maximumf X (broadcast S8x1024 (Scalar.ofBits (F := Ideal) .f32 0x00000000#32)))) 0x00000000#32 reduces_S8x1024_S8 (.inl rfl) rfl (ix1 b)
      = ∑ m : Fin 1024, croot (X (ix2 b m)) :=
  (rowSum_apply _ 0x00000000#32 reduces_S8x1024_S8 (.inl rfl) rfl b).trans (Finset.sum_congr rfl fun m _ => crootVec_apply X (ix2 b m))

/-- A row's sum of roots. -/
theorem sumSqrt1024_apply (X : FVec Ideal S8x1024 .f32) (b : Fin 8) :
    multiReduction (F := Ideal) .add [1] S8 (sqrt (F := Ideal) X) 0x00000000#32 reduces_S8x1024_S8 (.inl rfl) rfl (ix1 b)
      = ∑ n : Fin 1024, Ideal.sqrt (X (ix2 b n)) :=
  rowSum_apply _ 0x00000000#32 reduces_S8x1024_S8 (.inl rfl) rfl b

/-- One trip's addition to the running sum. -/
theorem pay13_apply (t : Vec Ideal S8x1024x3 .f32) (s : FVec Ideal S8 .f32) (ch : Vec Ideal S8x128x3 .f32) (b : Fin 8) :
    k0_pay13 t s ch (ix1 b)
      = s (ix1 b) + ∑ j : Fin 128, croot ((Finset.univ : Finset (Fin 1024)).fold min wInf fun m => k0_pay12 t ch (ix3 b j m)) :=
  congrArg (s (ix1 b) + ·) ((sumRoots128_apply _ b).trans (Finset.sum_congr rfl fun j _ =>
    congrArg croot (minLast_apply (k0_pay12 t ch) 0x7F800000#32 reduces_S8x128x1024_S8x128 (.inl rfl) rfl b j)))

/-- One trip's fold into the running column minima. -/
theorem pay14_apply (t : Vec Ideal S8x1024x3 .f32) (r : FVec Ideal S8x1024 .f32) (ch : Vec Ideal S8x128x3 .f32) (b : Fin 8) (m : Fin 1024) :
    k0_pay14 t r ch (ix2 b m)
      = min (r (ix2 b m)) ((Finset.univ : Finset (Fin 128)).fold min wInf fun j => k0_pay12 t ch (ix3 b j m)) :=
  congrArg (min (r (ix2 b m))) (minMid_apply (k0_pay12 t ch) 0x7F800000#32 reduces_S8x128x1024_S8x1024 (.inl rfl) rfl b m)

/-- After the loop: the mean of the running sum plus the mean of the clamped roots of the column minima. -/
theorem pay15_apply (s : FVec Ideal S8 .f32) (r : FVec Ideal S8x1024 .f32) (b : Fin 8) :
    k0_pay15 s r (ix1 b)
      = Ideal.div (s (ix1 b)) wCount + Ideal.div (∑ m : Fin 1024, croot (r (ix2 b m))) wCount :=
  congrArg (fun z => Ideal.div (s (ix1 b)) wCount + Ideal.div z wCount) (sumRoots1024_apply r b)

/-- The mean distance between paired points. -/
theorem pay8_apply (t p : Vec Ideal S8x1024x3 .f32) (b : Fin 8) :
    k0_pay8 t p (ix1 b)
      = Ideal.div (∑ n : Fin 1024, Ideal.sqrt (∑ d : Fin 3, (p (ix3 b n d) - t (ix3 b n d)) * (p (ix3 b n d) - t (ix3 b n d)))) wCount :=
  congrArg (fun z => Ideal.div z wCount) ((sumSqrt1024_apply _ b).trans (Finset.sum_congr rfl fun n _ =>
    congrArg Ideal.sqrt (sumLast_apply (mulf (subf p t) (subf p t)) 0x00000000#32 reduces_S8x1024x3_S8x1024 (.inl rfl) rfl b n)))

end Cert.KernelIdeal.Hand

/-! ## The loops' carried values, in terms of the batch's squared distances -/

namespace Cert.KernelIdeal.Hand

open Cert.KernelIdeal Cert.KernelIdeal.Gen Cert.LibGramRows Cert.Chamfer
open Idealize.ShloMosaic Idealize.ShloMosaic.ValueIdx

theorem tripsA : k0_t1_loop.trips = 8 := by decide

/-- The squared distances between batch `b`'s prediction rows and target rows. -/
abbrev distOf (t p : Vec Ideal S8x1024x3 .f32) (b : Fin 8) : Fin 1024 → Fin 1024 → EReal :=
  gramOf (rowsOf p b) (rowsOf t b)

/-- A trip's squared distances are those of rows 128k … 128k+127 of the batch. -/
theorem chunk_dist (t p : Vec Ideal S8x1024x3 .f32) (k : Fin k0_t1_loop.trips) (b : Fin 8) (j : Fin 128) (m : Fin 1024)
    (hk : 128 * k.val + j.val < 1024) :
    k0_pay12 t (chunkA p k) (ix3 b j m) = distOf t p b ⟨128 * k.val + j.val, hk⟩ m := by
  rw [pay12_apply]
  simp only [chunkA_apply p k b j _ hk]
  rfl

/-- Row `i`'s clamped root of its nearest-target squared distance (0 past the last row). -/
def rowTerm (D : Fin 1024 → Fin 1024 → EReal) (i : ℕ) : EReal :=
  if h : i < 1024 then croot ((Finset.univ : Finset (Fin 1024)).fold min ⊤ fun m => D ⟨i, h⟩ m) else 0

/-- Row `i`'s squared distance to target `m` (⊤ past the last row). -/
def colTerm (D : Fin 1024 → Fin 1024 → EReal) (m : Fin 1024) (i : ℕ) : EReal :=
  if h : i < 1024 then D ⟨i, h⟩ m else ⊤

/-- Before trip `n` the running sum holds the rows of the first `n` chunks. -/
theorem carried_sum (t p : Vec Ideal S8x1024x3 .f32) (b : Fin 8) (n : ℕ) (hn : n ≤ 8) :
    (carriedA t p n).1 (ix1 b) = ∑ k ∈ Finset.range n, ∑ j : Fin 128, rowTerm (distOf t p b) (128 * k + j.val) := by
  induction n with
  | zero =>
    rw [Finset.range_zero, Finset.sum_empty]
    exact Ideal.ofBits_zero_f32
  | succ n ih =>
    have hlt : n < k0_t1_loop.trips := by rw [tripsA]; omega
    rw [Finset.sum_range_succ, ← ih (by omega)]
    show (carriedA t p (n + 1)).1 (ix1 b) = _
    rw [carriedA, dif_pos hlt]
    show k0_pay13 t (carriedA t p n).1 (chunkA p ⟨n, hlt⟩) (ix1 b) = _
    rw [pay13_apply]
    refine congrArg ((carriedA t p n).1 (ix1 b) + ·) (Finset.sum_congr rfl fun j _ => ?_)
    have hj : 128 * n + j.val < 1024 := by have := j.isLt; omega
    rw [rowTerm, dif_pos hj, show wInf = ⊤ from ofBits_inf]
    exact congrArg croot (congrArg (fun f => Finset.fold min ⊤ f (Finset.univ : Finset (Fin 1024)))
      (funext fun m => chunk_dist t p ⟨n, hlt⟩ b j m hj))

/-- Before trip `n` the running minimum of column `m` is the minimum over the rows of the first `n` chunks. -/
theorem carried_min (t p : Vec Ideal S8x1024x3 .f32) (b : Fin 8) (m : Fin 1024) (n : ℕ) (hn : n ≤ 8) (c : EReal) :
    c ≤ (carriedA t p n).2 (ix2 b m) ↔ ∀ k, k < n → ∀ j : Fin 128, c ≤ colTerm (distOf t p b) m (128 * k + j.val) := by
  induction n with
  | zero =>
    constructor
    · intro _ k hk; omega
    · intro _
      show c ≤ wInf
      rw [show wInf = ⊤ from ofBits_inf]; exact le_top
  | succ n ih =>
    have hlt : n < k0_t1_loop.trips := by rw [tripsA]; omega
    rw [carriedA, dif_pos hlt]
    show c ≤ k0_pay14 t (carriedA t p n).2 (chunkA p ⟨n, hlt⟩) (ix2 b m) ↔ _
    rw [pay14_apply, le_min_iff, ih (by omega), Finset.le_fold_min, show wInf = ⊤ from ofBits_inf]
    have hterm : ∀ j : Fin 128, k0_pay12 t (chunkA p ⟨n, hlt⟩) (ix3 b j m) = colTerm (distOf t p b) m (128 * n + j.val) := fun j => by
      have hj : 128 * n + j.val < 1024 := by have := j.isLt; omega
      rw [colTerm, dif_pos hj]
      exact chunk_dist t p ⟨n, hlt⟩ b j m hj
    constructor
    · rintro ⟨h1, -, h2⟩ k hk j
      rcases Nat.lt_succ_iff_lt_or_eq.mp hk with hk' | rfl
      · exact h1 k hk' j
      · rw [← hterm]; exact h2 j (Finset.mem_univ _)
    · intro h
      exact ⟨fun k hk j => h k (by omega) j, le_top, fun j _ => by rw [hterm]; exact h n (by omega) j⟩

/-- After the eight trips the running sum is the sum over all 1024 rows, -/
theorem carried_sum_all (t p : Vec Ideal S8x1024x3 .f32) (b : Fin 8) :
    (carriedA t p 8).1 (ix1 b)
      = ∑ n : Fin 1024, croot ((Finset.univ : Finset (Fin 1024)).fold min ⊤ fun m => distOf t p b n m) := by
  rw [carried_sum t p b 8 le_rfl, sum_chunks]
  refine Finset.sum_congr rfl fun n _ => ?_
  rw [rowTerm, dif_pos n.isLt]

/-- and the running minimum of column `m` the minimum over all 1024 rows. -/
theorem carried_min_all (t p : Vec Ideal S8x1024x3 .f32) (b : Fin 8) (m : Fin 1024) :
    (carriedA t p 8).2 (ix2 b m) = (Finset.univ : Finset (Fin 1024)).fold min ⊤ fun n => distOf t p b n m := by
  refine eq_of_forall_le_iff fun c => ?_
  rw [carried_min t p b m 8 le_rfl c, forall_chunks (fun i => c ≤ colTerm (distOf t p b) m i), Finset.le_fold_min]
  constructor
  · intro h
    exact ⟨le_top, fun n _ => by have := h n; rwa [colTerm, dif_pos n.isLt] at this⟩
  · rintro ⟨-, h⟩ n
    rw [colTerm, dif_pos n.isLt]; exact h n (Finset.mem_univ _)

/-- The second loop is the first one's text over the other prediction block. -/
theorem carriedB_eq (t p : Vec Ideal S8x1024x3 .f32) (n : ℕ) : carriedB t p n = carriedA t p n := by
  induction n with
  | zero => rfl
  | succ n ih =>
    rw [carriedA, carriedB, ih]
    rfl

/-! ## The four statistics of a batch, as the kernel computes them -/

/-- The symmetric statistic of batch `b` of a block, the kernel's way, is the reference's way. -/
theorem sym_of_block (t p : Vec Ideal S8x1024x3 .f32) (b : Fin 8) :
    wHalf * k0_pay15 (carriedA t p 8).1 (carriedA t p 8).2 (ix1 b) = symRef (distOf t p b) wZero wHalf wCount := by
  rw [pay15_apply]
  exact symKer_eq_symRef (distOf t p b) _ (fun m => (carriedA t p 8).2 (ix2 b m)) wZero wHalf wCount
    (carried_sum_all t p b) (fun m => carried_min_all t p b m) Ideal.ofBits_zero_f32 ofBits_1024

/-- The asymmetric statistic of batch `b` of a block. -/
theorem asym_of_block (t p : Vec Ideal S8x1024x3 .f32) (b : Fin 8) :
    k0_pay8 t p (ix1 b) = pairedOf (rowsOf p b) (rowsOf t b) :=
  pay8_apply t p b

end Cert.KernelIdeal.Hand

end
-- ==== Proof.KCols.lean ====
/-
  The four statistics columns of the kernel's result array, batch by batch.

  Lanes 0–3 of a block row hold: half the sum of the two means of the first prediction's chamfer stream, the
  first prediction's mean paired distance, and the same two for the second prediction. Read through the host's
  column slices, entry B of column j is lane j of row B mod 8 of the block of grid point B div 8, whose input
  blocks are rows 8·(B div 8) … of the argument arrays: so it is the statistic of batch B's own points.
-/
import proofs.«147218_j17695265260051_2_alg».proof.Proof.KArray
import proofs.«147218_j17695265260051_2_alg».proof.Proof.KValue

set_option maxRecDepth 65536

noncomputable section

namespace Cert.KernelIdeal.Hand

open Cert.KernelIdeal Cert.KernelIdeal.Gen Cert.LibGramRows Cert.Chamfer
open Idealize.ShloMosaic Idealize.ShloMosaic.TcCoe Idealize.ShloMosaic.ValueIdx
open Idealize.SL Idealize.SL.Sem

/-! ## The lanes of a block row -/

/-- Four per-row values laid side by side in lanes 0–3 of an 8 x 128 block (zeros after them), read back. -/
theorem lanes_apply (c0 c1 c2 c3 : FVec Ideal S8 .f32) (z : FVec Ideal S8x124 .f32) (b : Fin 8) :
    (concatenate S8x128 1
        [⟨S8x4, concatenate S8x4 1 [⟨S8x1, shapeCast S8x1 c0 shapeCasts_S8_S8x1⟩, ⟨S8x1, shapeCast S8x1 c1 shapeCasts_S8_S8x1⟩,
            ⟨S8x1, shapeCast S8x1 c2 shapeCasts_S8_S8x1⟩, ⟨S8x1, shapeCast S8x1 c3 shapeCasts_S8_S8x1⟩] concatenates_S8x1_S8x1_S8x1_S8x1_S8x4_d1⟩,
         ⟨S8x124, z⟩] concatenates_S8x4_S8x124_S8x128_d1 (ix2 b (0 : Fin 128)) = c0 (ix1 b))
    ∧ (concatenate S8x128 1
        [⟨S8x4, concatenate S8x4 1 [⟨S8x1, shapeCast S8x1 c0 shapeCasts_S8_S8x1⟩, ⟨S8x1, shapeCast S8x1 c1 shapeCasts_S8_S8x1⟩,
            ⟨S8x1, shapeCast S8x1 c2 shapeCasts_S8_S8x1⟩, ⟨S8x1, shapeCast S8x1 c3 shapeCasts_S8_S8x1⟩] concatenates_S8x1_S8x1_S8x1_S8x1_S8x4_d1⟩,
         ⟨S8x124, z⟩] concatenates_S8x4_S8x124_S8x128_d1 (ix2 b (1 : Fin 128)) = c1 (ix1 b))
    ∧ (concatenate S8x128 1
        [⟨S8x4, concatenate S8x4 1 [⟨S8x1, shapeCast S8x1 c0 shapeCasts_S8_S8x1⟩, ⟨S8x1, shapeCast S8x1 c1 shapeCasts_S8_S8x1⟩,
            ⟨S8x1, shapeCast S8x1 c2 shapeCasts_S8_S8x1⟩, ⟨S8x1, shapeCast S8x1 c3 shapeCasts_S8_S8x1⟩] concatenates_S8x1_S8x1_S8x1_S8x1_S8x4_d1⟩,
         ⟨S8x124, z⟩] concatenates_S8x4_S8x124_S8x128_d1 (ix2 b (2 : Fin 128)) = c2 (ix1 b))
    ∧ (concatenate S8x128 1
        [⟨S8x4, concatenate S8x4 1 [⟨S8x1, shapeCast S8x1 c0 shapeCasts_S8_S8x1⟩, ⟨S8x1, shapeCast S8x1 c1 shapeCasts_S8_S8x1⟩,
            ⟨S8x1, shapeCast S8x1 c2 shapeCasts_S8_S8x1⟩, ⟨S8x1, shapeCast S8x1 c3 shapeCasts_S8_S8x1⟩] concatenates_S8x1_S8x1_S8x1_S8x1_S8x4_d1⟩,
         ⟨S8x124, z⟩] concatenates_S8x4_S8x124_S8x128_d1 (ix2 b (3 : Fin 128)) = c3 (ix1 b)) := by
  have hax : ∀ {n0 n1 : ℕ} (u : Fin n0) (v : Fin n1) (u' : Fin n0) (v' : Fin n1), v.val = v'.val → u = u' →
      ∀ ax : Fin 2, (ix2 u v ax).val = (ix2 u' v' ax).val := by
    intro n0 n1 u v u' v' hv hu ax
    subst hu
    match ax with
    | ⟨0, _⟩ => rfl
    | ⟨1, _⟩ => exact hv
  refine ⟨?_, ?_, ?_, ?_⟩
  · refine (concatenate_pair_apply_left (t := S8x128) (s₁ := S8x4) (s₂ := S8x124) (1 : Fin 2) _ _ concatenates_S8x4_S8x124_S8x128_d1 (ix2 b (0 : Fin 128)) rfl (ix2 b (0 : Fin 4))
      (fun ax => by match ax with | ⟨0, _⟩ => rfl | ⟨1, _⟩ => rfl)).trans ?_
    refine (concatenate_apply_piece (t := S8x4) (1 : Fin 2) [⟨S8x1, shapeCast S8x1 c0 shapeCasts_S8_S8x1⟩, ⟨S8x1, shapeCast S8x1 c1 shapeCasts_S8_S8x1⟩, ⟨S8x1, shapeCast S8x1 c2 shapeCasts_S8_S8x1⟩, ⟨S8x1, shapeCast S8x1 c3 shapeCasts_S8_S8x1⟩] concatenates_S8x1_S8x1_S8x1_S8x1_S8x4_d1 (ix2 b (0 : Fin 4)) 0 (by show 0 < 4; omega) S8x1 _ rfl rfl 0 rfl
      (ix2 b (0 : Fin 1)) (fun ax hax' => by match ax with | ⟨0, _⟩ => rfl | ⟨1, _⟩ => exact absurd rfl hax') rfl).trans ?_
    exact cast_col_apply c0 shapeCasts_S8_S8x1 b 0
  · refine (concatenate_pair_apply_left (t := S8x128) (s₁ := S8x4) (s₂ := S8x124) (1 : Fin 2) _ _ concatenates_S8x4_S8x124_S8x128_d1 (ix2 b (1 : Fin 128)) rfl (ix2 b (1 : Fin 4))
      (fun ax => by match ax with | ⟨0, _⟩ => rfl | ⟨1, _⟩ => rfl)).trans ?_
    refine (concatenate_apply_piece (t := S8x4) (1 : Fin 2) [⟨S8x1, shapeCast S8x1 c0 shapeCasts_S8_S8x1⟩, ⟨S8x1, shapeCast S8x1 c1 shapeCasts_S8_S8x1⟩, ⟨S8x1, shapeCast S8x1 c2 shapeCasts_S8_S8x1⟩, ⟨S8x1, shapeCast S8x1 c3 shapeCasts_S8_S8x1⟩] concatenates_S8x1_S8x1_S8x1_S8x1_S8x4_d1 (ix2 b (1 : Fin 4)) 1 (by show 1 < 4; omega) S8x1 _ rfl rfl 1 rfl
      (ix2 b (0 : Fin 1)) (fun ax hax' => by match ax with | ⟨0, _⟩ => rfl | ⟨1, _⟩ => exact absurd rfl hax') rfl).trans ?_
    exact cast_col_apply c1 shapeCasts_S8_S8x1 b 0
  · refine (concatenate_pair_apply_left (t := S8x128) (s₁ := S8x4) (s₂ := S8x124) (1 : Fin 2) _ _ concatenates_S8x4_S8x124_S8x128_d1 (ix2 b (2 : Fin 128)) rfl (ix2 b (2 : Fin 4))
      (fun ax => by match ax with | ⟨0, _⟩ => rfl | ⟨1, _⟩ => rfl)).trans ?_
    refine (concatenate_apply_piece (t := S8x4) (1 : Fin 2) [⟨S8x1, shapeCast S8x1 c0 shapeCasts_S8_S8x1⟩, ⟨S8x1, shapeCast S8x1 c1 shapeCasts_S8_S8x1⟩, ⟨S8x1, shapeCast S8x1 c2 shapeCasts_S8_S8x1⟩, ⟨S8x1, shapeCast S8x1 c3 shapeCasts_S8_S8x1⟩] concatenates_S8x1_S8x1_S8x1_S8x1_S8x4_d1 (ix2 b (2 : Fin 4)) 2 (by show 2 < 4; omega) S8x1 _ rfl rfl 2 rfl
      (ix2 b (0 : Fin 1)) (fun ax hax' => by match ax with | ⟨0, _⟩ => rfl | ⟨1, _⟩ => exact absurd rfl hax') rfl).trans ?_
    exact cast_col_apply c2 shapeCasts_S8_S8x1 b 0
  · refine (concatenate_pair_apply_left (t := S8x128) (s₁ := S8x4) (s₂ := S8x124) (1 : Fin 2) _ _ concatenates_S8x4_S8x124_S8x128_d1 (ix2 b (3 : Fin 128)) rfl (ix2 b (3 : Fin 4))
      (fun ax => by match ax with | ⟨0, _⟩ => rfl | ⟨1, _⟩ => rfl)).trans ?_
    refine (concatenate_apply_piece (t := S8x4) (1 : Fin 2) [⟨S8x1, shapeCast S8x1 c0 shapeCasts_S8_S8x1⟩, ⟨S8x1, shapeCast S8x1 c1 shapeCasts_S8_S8x1⟩, ⟨S8x1, shapeCast S8x1 c2 shapeCasts_S8_S8x1⟩, ⟨S8x1, shapeCast S8x1 c3 shapeCasts_S8_S8x1⟩] concatenates_S8x1_S8x1_S8x1_S8x1_S8x4_d1 (ix2 b (3 : Fin 4)) 3 (by show 3 < 4; omega) S8x1 _ rfl rfl 3 rfl
      (ix2 b (0 : Fin 1)) (fun ax hax' => by match ax with | ⟨0, _⟩ => rfl | ⟨1, _⟩ => exact absurd rfl hax') rfl).trans ?_
    exact cast_col_apply c3 shapeCasts_S8_S8x1 b 0

/-- Lanes 0–3 of row `b` of the block computed from the prediction blocks `p1`, `p2` and the target block `t`. -/
theorem block_lanes (p1 p2 t : Vec Ideal S8x1024x3 .f32) (b : Fin 8) :
    blockValue p1 p2 t (ix2 b (0 : Fin 128)) = symRef (distOf t p1 b) wZero wHalf wCount
    ∧ blockValue p1 p2 t (ix2 b (1 : Fin 128)) = pairedOf (rowsOf p1 b) (rowsOf t b)
    ∧ blockValue p1 p2 t (ix2 b (2 : Fin 128)) = symRef (distOf t p2 b) wZero wHalf wCount
    ∧ blockValue p1 p2 t (ix2 b (3 : Fin 128)) = pairedOf (rowsOf p2 b) (rowsOf t b) := by
  obtain ⟨h0, h1, h2, h3⟩ := lanes_apply
    (mulf (broadcast S8 (Scalar.ofBits (F := Ideal) .f32 0x3F000000#32)) (k0_pay15 (carriedA t p1 8).1 (carriedA t p1 8).2))
    (k0_pay8 t p1)
    (mulf (broadcast S8 (Scalar.ofBits (F := Ideal) .f32 0x3F000000#32)) (k0_pay15 (carriedB t p2 8).1 (carriedB t p2 8).2))
    (k0_pay9 t p2)
    (broadcast S8x124 (Scalar.ofBits (F := Ideal) .f32 0x00000000#32)) b
  refine ⟨?_, ?_, ?_, ?_⟩
  · exact (show blockValue p1 p2 t (ix2 b (0 : Fin 128)) = _ from h0).trans (sym_of_block t p1 b)
  · exact (show blockValue p1 p2 t (ix2 b (1 : Fin 128)) = _ from h1).trans (asym_of_block t p1 b)
  · refine (show blockValue p1 p2 t (ix2 b (2 : Fin 128)) = _ from h2).trans ?_
    rw [carriedB_eq]
    exact sym_of_block t p2 b
  · exact (show blockValue p1 p2 t (ix2 b (3 : Fin 128)) = _ from h3).trans (asym_of_block t p2 b)

end Cert.KernelIdeal.Hand

end
-- ==== Proof.KFinal.lean ====
/-
  The four statistics columns of the kernel's result array as functions of the argument arrays: entry B of
  each column is the statistic of batch B's own rows of the point clouds.
-/
import proofs.«147218_j17695265260051_2_alg».proof.Proof.KCols

set_option maxRecDepth 65536

noncomputable section

namespace Cert.KernelIdeal.Hand

open Cert.KernelIdeal Cert.KernelIdeal.Gen Cert.LibGramRows Cert.Chamfer
open Idealize.ShloMosaic Idealize.ShloMosaic.TcCoe Idealize.ShloMosaic.ValueIdx
open Idealize.SL Idealize.SL.Sem

variable (m : (ℓ : Loc nD τ sig) → Buf (Elt Ideal) ℓ)

/-- Batch `B`'s rows of a whole point cloud. -/
def cloudRows (x : (⟨S64x1024x3, .f32⟩ : BufTy).Contents (Elt Ideal)) (B : Fin 64) : Fin 1024 → Fin 3 → EReal := fun n d => x (ix3 B n d)

/-- Row `b` of a window's block at grid point `t` is row 8t + b of the window's argument array. -/
theorem rows_iblk0 (c : Dev nD) (t : Fin cfg0.N) (b : Fin 8) (hB : t.val * 8 + b.val < 64) :
    rowsOf (iblk m c 0 t) b = cloudRows (m ((c : Thread nD τ).loc main_arg0)) ⟨t.val * 8 + b.val, hB⟩ := by
  obtain ⟨e0, e1, e2, -, -, -, -, -, -, -, -⟩ := idx_facts t
  funext n d
  show V m c main_arg0 (((cfg0.win 0).blk t).view.emb (ix3 b n d)) = _
  refine congrArg (m ((c : Thread nD τ).loc main_arg0)) (funext fun a => Fin.ext ?_)
  match a with
  | ⟨0, _⟩ => show win0_0.index t (0 : Fin 3) * 8 + 1 * b.val = t.val * 8 + b.val; rw [e0]; omega
  | ⟨1, _⟩ => show win0_0.index t (1 : Fin 3) * 1024 + 1 * n.val = n.val; rw [e1]; omega
  | ⟨2, _⟩ => show win0_0.index t (2 : Fin 3) * 3 + 1 * d.val = d.val; rw [e2]; omega

theorem rows_iblk1 (c : Dev nD) (t : Fin cfg0.N) (b : Fin 8) (hB : t.val * 8 + b.val < 64) :
    rowsOf (iblk m c 1 t) b = cloudRows (m ((c : Thread nD τ).loc main_arg1)) ⟨t.val * 8 + b.val, hB⟩ := by
  obtain ⟨-, -, -, e0, e1, e2, -, -, -, -, -⟩ := idx_facts t
  funext n d
  show V m c main_arg1 (((cfg0.win 1).blk t).view.emb (ix3 b n d)) = _
  refine congrArg (m ((c : Thread nD τ).loc main_arg1)) (funext fun a => Fin.ext ?_)
  match a with
  | ⟨0, _⟩ => show win0_1.index t (0 : Fin 3) * 8 + 1 * b.val = t.val * 8 + b.val; rw [e0]; omega
  | ⟨1, _⟩ => show win0_1.index t (1 : Fin 3) * 1024 + 1 * n.val = n.val; rw [e1]; omega
  | ⟨2, _⟩ => show win0_1.index t (2 : Fin 3) * 3 + 1 * d.val = d.val; rw [e2]; omega

theorem rows_iblk2 (c : Dev nD) (t : Fin cfg0.N) (b : Fin 8) (hB : t.val * 8 + b.val < 64) :
    rowsOf (iblk m c 2 t) b = cloudRows (m ((c : Thread nD τ).loc main_arg2)) ⟨t.val * 8 + b.val, hB⟩ := by
  obtain ⟨-, -, -, -, -, -, e0, e1, e2, -, -⟩ := idx_facts t
  funext n d
  show V m c main_arg2 (((cfg0.win 2).blk t).view.emb (ix3 b n d)) = _
  refine congrArg (m ((c : Thread nD τ).loc main_arg2)) (funext fun a => Fin.ext ?_)
  match a with
  | ⟨0, _⟩ => show win0_2.index t (0 : Fin 3) * 8 + 1 * b.val = t.val * 8 + b.val; rw [e0]; omega
  | ⟨1, _⟩ => show win0_2.index t (1 : Fin 3) * 1024 + 1 * n.val = n.val; rw [e1]; omega
  | ⟨2, _⟩ => show win0_2.index t (2 : Fin 3) * 3 + 1 * d.val = d.val; rw [e2]; omega

/-- A column slice of the result array, read at batch `B`: lane `j` of row `B`. -/
theorem statCol0_apply (o : (⟨S64x128, .f32⟩ : BufTy).Contents (Elt Ideal)) (B : Fin 64) : statCol0 o (ix1 B) = o (ix2 B (0 : Fin 128)) :=
  (shapeCast_apply _ shapeCasts_S64x1_S64 (ix1 B) (ix2 B (0 : Fin 1)) (by
      rw [Shape.rowMajor_val_two, Shape.rowMajor_val_one]; show B.val * 1 + 0 = B.val; omega)).trans
    (extractStridedSlice_apply ![0, 0] o slices_S64x128_S64x1_0_0 (ix2 B (0 : Fin 1)) (ix2 B (0 : Fin 128)) (fun a => by
      match a with
      | ⟨0, _⟩ => show B.val = 0 + B.val; omega
      | ⟨1, _⟩ => rfl))
theorem statCol1_apply (o : (⟨S64x128, .f32⟩ : BufTy).Contents (Elt Ideal)) (B : Fin 64) : statCol1 o (ix1 B) = o (ix2 B (1 : Fin 128)) :=
  (shapeCast_apply _ shapeCasts_S64x1_S64 (ix1 B) (ix2 B (0 : Fin 1)) (by
      rw [Shape.rowMajor_val_two, Shape.rowMajor_val_one]; show B.val * 1 + 0 = B.val; omega)).trans
    (extractStridedSlice_apply ![0, 1] o slices_S64x128_S64x1_0_1 (ix2 B (0 : Fin 1)) (ix2 B (1 : Fin 128)) (fun a => by
      match a with
      | ⟨0, _⟩ => show B.val = 0 + B.val; omega
      | ⟨1, _⟩ => rfl))
theorem statCol2_apply (o : (⟨S64x128, .f32⟩ : BufTy).Contents (Elt Ideal)) (B : Fin 64) : statCol2 o (ix1 B) = o (ix2 B (2 : Fin 128)) :=
  (shapeCast_apply _ shapeCasts_S64x1_S64 (ix1 B) (ix2 B (0 : Fin 1)) (by
      rw [Shape.rowMajor_val_two, Shape.rowMajor_val_one]; show B.val * 1 + 0 = B.val; omega)).trans
    (extractStridedSlice_apply ![0, 2] o slices_S64x128_S64x1_0_2 (ix2 B (0 : Fin 1)) (ix2 B (2 : Fin 128)) (fun a => by
      match a with
      | ⟨0, _⟩ => show B.val = 0 + B.val; omega
      | ⟨1, _⟩ => rfl))
theorem statCol3_apply (o : (⟨S64x128, .f32⟩ : BufTy).Contents (Elt Ideal)) (B : Fin 64) : statCol3 o (ix1 B) = o (ix2 B (3 : Fin 128)) :=
  (shapeCast_apply _ shapeCasts_S64x1_S64 (ix1 B) (ix2 B (0 : Fin 1)) (by
      rw [Shape.rowMajor_val_two, Shape.rowMajor_val_one]; show B.val * 1 + 0 = B.val; omega)).trans
    (extractStridedSlice_apply ![0, 3] o slices_S64x128_S64x1_0_3 (ix2 B (0 : Fin 1)) (ix2 B (3 : Fin 128)) (fun a => by
      match a with
      | ⟨0, _⟩ => show B.val = 0 + B.val; omega
      | ⟨1, _⟩ => rfl))

/-- Lane `j` of row `B` of the result array is lane `j` of row B mod 8 of the block of grid point B div 8. -/
theorem statsArray_apply (c : Dev nD) (B : Fin 64) (j : Fin 128) :
    statsArray m c (ix2 B j)
      = blockAt m c ⟨B.val / 8, lt_of_lt_of_eq (by omega) N_0.symm⟩ (ix2 (⟨B.val % 8, Nat.mod_lt _ (by omega)⟩ : Fin 8) j) := rfl

/-- THE FOUR COLUMNS at batch `B`: the statistics of batch `B`'s own rows. -/
theorem cols_apply (c : Dev nD) (B : Fin 64) :
    statCol0 (statsArray m c) (ix1 B)
        = symRef (gramOf (cloudRows (m ((c : Thread nD τ).loc main_arg0)) B) (cloudRows (m ((c : Thread nD τ).loc main_arg2)) B)) wZero wHalf wCount
    ∧ statCol1 (statsArray m c) (ix1 B)
        = pairedOf (cloudRows (m ((c : Thread nD τ).loc main_arg0)) B) (cloudRows (m ((c : Thread nD τ).loc main_arg2)) B)
    ∧ statCol2 (statsArray m c) (ix1 B)
        = symRef (gramOf (cloudRows (m ((c : Thread nD τ).loc main_arg1)) B) (cloudRows (m ((c : Thread nD τ).loc main_arg2)) B)) wZero wHalf wCount
    ∧ statCol3 (statsArray m c) (ix1 B)
        = pairedOf (cloudRows (m ((c : Thread nD τ).loc main_arg1)) B) (cloudRows (m ((c : Thread nD τ).loc main_arg2)) B) := by
  have hB : B.val / 8 * 8 + B.val % 8 < 64 := by have := B.isLt; omega
  have hBe : (⟨B.val / 8 * 8 + B.val % 8, hB⟩ : Fin 64) = B := Fin.ext (by show B.val / 8 * 8 + B.val % 8 = B.val; omega)
  obtain ⟨h0, h1, h2, h3⟩ := block_lanes
    (iblk m c 0 ⟨B.val / 8, lt_of_lt_of_eq (by omega) N_0.symm⟩) (iblk m c 1 ⟨B.val / 8, lt_of_lt_of_eq (by omega) N_0.symm⟩)
    (iblk m c 2 ⟨B.val / 8, lt_of_lt_of_eq (by omega) N_0.symm⟩) (⟨B.val % 8, Nat.mod_lt _ (by omega)⟩ : Fin 8)
  have r0 := rows_iblk0 m c ⟨B.val / 8, lt_of_lt_of_eq (by omega) N_0.symm⟩ (⟨B.val % 8, Nat.mod_lt _ (by omega)⟩ : Fin 8) hB
  have r1 := rows_iblk1 m c ⟨B.val / 8, lt_of_lt_of_eq (by omega) N_0.symm⟩ (⟨B.val % 8, Nat.mod_lt _ (by omega)⟩ : Fin 8) hB
  have r2 := rows_iblk2 m c ⟨B.val / 8, lt_of_lt_of_eq (by omega) N_0.symm⟩ (⟨B.val % 8, Nat.mod_lt _ (by omega)⟩ : Fin 8) hB
  rw [hBe] at r0 r1 r2
  unfold distOf at h0 h2
  rw [r0, r2] at h0 h1
  rw [r1, r2] at h2 h3
  exact ⟨(statCol0_apply _ B).trans ((statsArray_apply m c B 0).trans h0),
    (statCol1_apply _ B).trans ((statsArray_apply m c B 1).trans h1),
    (statCol2_apply _ B).trans ((statsArray_apply m c B 2).trans h2),
    (statCol3_apply _ B).trans ((statsArray_apply m c B 3).trans h3)⟩

end Cert.KernelIdeal.Hand

end
-- ==== Proof.KFull.lean ====
/-
  The kernel program's run with its result AND its arguments named: one reading of the frame run's post.
-/
import proofs.«147218_j17695265260051_2_alg».proof.Proof.KArray

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

/-- The result buffer, read off the frame run's post. -/
theorem value_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_v31)
      = resultOf (statsArray m c) (m ((c.tc : Thread nD τ).loc main_arg3)) (m ((c.tc : Thread nD τ).loc main_arg4)) (m ((c.tc : Thread nD τ).loc main_arg5)) := by
  refine ((h c).2 main_v31 (Pipeline.mem_restRefs_of main_v31 (by decide) (by decide))).trans ?_
  unfold Pipeline.afterTail₀
  show after (hostOps1 (F := F)) _ (Proc.devRef .tc main_v31) = _
  rw [tail_result]
  rw [(Pipeline.withArrays_arr spec0 launch0.win.arr_inj c _ _ 3).trans (final m c),
    Pipeline.withArrays_of_ne _ c (V0 m c) _ main_arg3 (by decide),
    Pipeline.withArrays_of_ne _ c (V0 m c) _ main_arg4 (by decide),
    Pipeline.withArrays_of_ne _ c (V0 m c) _ main_arg5 (by decide)]
  rfl

/-- Every weakly fair execution of the kernel program terminates with the result at `resultOf` of the statistics
    array and the flags, and the six arguments as launched. -/
theorem run_full : θ_run defs (onTc (τ := τ) (main (F := F))) ⟨m, fun _ => 0, ρ⟩ (fun r => ∀ c : Dev nD,
      r.2.mem ((c.tc : Thread nD τ).loc main_v31)
        = resultOf (statsArray m c) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨value_of_post m h c,
     ((h c).1 0).trans (((dats m 0 c).arrAt_in 0 rfl _).trans ((A_eq m c 0).trans (V_of_launch m c main_arg0))),
     ((h c).1 1).trans (((dats m 0 c).arrAt_in 1 rfl _).trans ((A_eq m c 1).trans (V_of_launch m c main_arg1))),
     ((h c).1 2).trans (((dats m 0 c).arrAt_in 2 rfl _).trans ((A_eq m c 2).trans (V_of_launch m c main_arg2))),
     ((h c).2 main_arg3 (Pipeline.mem_restRefs_of main_arg3 (by decide) (by decide))).trans
       (tail_keeps_flag m main_arg3 (by decide) (flag_not_written main_arg3 (.inl rfl)) c),
     ((h c).2 main_arg4 (Pipeline.mem_restRefs_of main_arg4 (by decide) (by decide))).trans
       (tail_keeps_flag m main_arg4 (by decide) (flag_not_written main_arg4 (.inr (.inl rfl))) c),
     ((h c).2 main_arg5 (Pipeline.mem_restRefs_of main_arg5 (by decide) (by decide))).trans
       (tail_keeps_flag m main_arg5 (by decide) (flag_not_written main_arg5 (.inr (.inr rfl))) c)⟩) (run_main m ρ)

end Cert.KernelIdeal.Hand

end
-- ==== Proof.RefOps.lean ====
/-
  The reference program's run, read back: its @main is a straight line of 117 host operations (the two
  calls of the outlined Euclidean norm standing inline), so every weakly fair execution terminates with the
  result buffer at the operations' composed term of the six argument arrays, the arguments unchanged.

  The composed term is named in stages after what it computes: the Gram form of the squared distances
  ‖a_n‖² + ‖b_m‖² − 2⟨a_n, b_m⟩ between every prediction point and every target point of a batch; their
  clamped square roots; the symmetric statistic (the mean over slot n of half the sum of slot n's nearest
  target distance and target n's nearest prediction distance); the asymmetric statistic (the mean distance
  between paired points); and the flag-weighted losses with their three means.
-/
import proofs.«147218_j17695265260051_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ binary main_arg0 main_arg0 main_v0 (mulf : (⟨S64x1024x3, .f32⟩ : BufTy).Contents (Elt F) → (⟨S64x1024x3, .f32⟩ : BufTy).Contents (Elt F) → (⟨S64x1024x3, .f32⟩ : BufTy).Contents (Elt F)),
    nullary main_cst (constant S_ .f32 0x00000000#32),
    binary main_v0 main_cst main_v1 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v1 main_v2 (broadcastInDim S64x1024x1 ![0, 1] bcast_S64x1024_S64x1024x1_0_1 : (⟨S64x1024, .f32⟩ : BufTy).Contents (Elt F) → (⟨S64x1024x1, .f32⟩ : BufTy).Contents (Elt F)),
    binary main_arg2 main_arg2 main_v3 (mulf : (⟨S64x1024x3, .f32⟩ : BufTy).Contents (Elt F) → (⟨S64x1024x3, .f32⟩ : BufTy).Contents (Elt F) → (⟨S64x1024x3, .f32⟩ : BufTy).Contents (Elt F)),
    nullary main_cst_0 (constant S_ .f32 0x00000000#32),
    binary main_v3 main_cst_0 main_v4 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v4 main_v5 (broadcastInDim S64x1x1024 ![0, 2] bcast_S64x1024_S64x1x1024_0_2 : (⟨S64x1024, .f32⟩ : BufTy).Contents (Elt F) → (⟨S64x1x1024, .f32⟩ : BufTy).Contents (Elt F)),
    unary main_v2 main_v6 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v5 main_v7 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v6 main_v7 main_v8 (addf : (⟨S64x1024x1024, .f32⟩ : BufTy).Contents (Elt F) → (⟨S64x1024x1024, .f32⟩ : BufTy).Contents (Elt F) → (⟨S64x1024x1024, .f32⟩ : BufTy).Contents (Elt F)),
    binary main_arg0 main_arg2 main_v9 ((fun l r => Host.dotGeneral dot_S64x1024x3_S64x1024x3_S64x1024x1024_2_2_1_1_0_0 none l r) : (⟨S64x1024x3, .f32⟩ : BufTy).Contents (Elt F) → (⟨S64x1024x3, .f32⟩ : BufTy).Contents (Elt F) → (⟨S64x1024x1024, .f32⟩ : BufTy).Contents (Elt F)),
    nullary main_cst_1 (constant S_ .f32 0x40000000#32),
    unary main_cst_1 main_v10 (broadcastInDim S64x1024x1024 ![] bcast_S_S64x1024x1024 : (⟨S_, .f32⟩ : BufTy).Contents (Elt F) → (⟨S64x1024x1024, .f32⟩ : BufTy).Contents (Elt F)),
    binary main_v10 main_v9 main_v11 (mulf : (⟨S64x1024x1024, .f32⟩ : BufTy).Contents (Elt F) → (⟨S64x1024x1024, .f32⟩ : BufTy).Contents (Elt F) → (⟨S64x1024x1024, .f32⟩ : BufTy).Contents (Elt F)),
    binary main_v8 main_v11 main_v12 (subf : (⟨S64x1024x1024, .f32⟩ : BufTy).Contents (Elt F) → (⟨S64x1024x1024, .f32⟩ : BufTy).Contents (Elt F) → (⟨S64x1024x1024, .f32⟩ : BufTy).Contents (Elt F)),
    nullary main_cst_2 (constant S_ .f32 0x00000000#32),
    unary main_cst_2 main_v13 (broadcastInDim S64x1024x1024 ![] bcast_S_S64x1024x1024 : (⟨S_, .f32⟩ : BufTy).Contents (Elt F) → (⟨S64x1024x1024, .f32⟩ : BufTy).Contents (Elt F)),
    binary main_v12 main_v13 main_v14 (maximumf : (⟨S64x1024x1024, .f32⟩ : BufTy).Contents (Elt F) → (⟨S64x1024x1024, .f32⟩ : BufTy).Contents (Elt F) → (⟨S64x1024x1024, .f32⟩ : BufTy).Contents (Elt F)),
    unary main_v14 main_v15 (Host.sqrt : (⟨S64x1024x1024, .f32⟩ : BufTy).Contents (Elt F) → (⟨S64x1024x1024, .f32⟩ : BufTy).Contents (Elt F)),
    nullary main_cst_3 (constant S_ .f32 0x7F800000#32),
    binary main_v15 main_cst_3 main_v16 ((fun x v => Host.reduce FloatOps.minimumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_4 (constant S_ .f32 0x7F800000#32),
    binary main_v15 main_cst_4 main_v17 ((fun x v => Host.reduce FloatOps.minimumf x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    binary main_v16 main_v17 main_v18 (addf : (⟨S64x1024, .f32⟩ : BufTy).Contents (Elt F) → (⟨S64x1024, .f32⟩ : BufTy).Contents (Elt F) → (⟨S64x1024, .f32⟩ : BufTy).Contents (Elt F)),
    nullary main_cst_5 (constant S_ .f32 0x3F000000#32),
    unary main_cst_5 main_v19 (broadcastInDim S64x1024 ![] bcast_S_S64x1024 : (⟨S_, .f32⟩ : BufTy).Contents (Elt F) → (⟨S64x1024, .f32⟩ : BufTy).Contents (Elt F)),
    binary main_v19 main_v18 main_v20 (mulf : (⟨S64x1024, .f32⟩ : BufTy).Contents (Elt F) → (⟨S64x1024, .f32⟩ : BufTy).Contents (Elt F) → (⟨S64x1024, .f32⟩ : BufTy).Contents (Elt F)),
    nullary main_cst_6 (constant S_ .f32 0x00000000#32),
    binary main_v20 main_cst_6 main_v21 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_7 (constant S_ .f32 0x44800000#32),
    unary main_cst_7 main_v22 (broadcastInDim S64 ![] bcast_S_S64 : (⟨S_, .f32⟩ : BufTy).Contents (Elt F) → (⟨S64, .f32⟩ : BufTy).Contents (Elt F)),
    binary main_v21 main_v22 main_v23 (Host.divf : (⟨S64, .f32⟩ : BufTy).Contents (Elt F) → (⟨S64, .f32⟩ : BufTy).Contents (Elt F) → (⟨S64, .f32⟩ : BufTy).Contents (Elt F)),
    binary main_arg0 main_arg2 main_v24 (subf : (⟨S64x1024x3, .f32⟩ : BufTy).Contents (Elt F) → (⟨S64x1024x3, .f32⟩ : BufTy).Contents (Elt F) → (⟨S64x1024x3, .f32⟩ : BufTy).Contents (Elt F)),
    TRef.binary (TRef.of (T := ⟨S64x1024x3, .f32⟩) main_v24) (TRef.of (T := ⟨S64x1024x3, .f32⟩) main_v24) (TRef.of (T := ⟨S64x1024x3, .f32⟩) main_call0_v0) mulf,
    TRef.nullary (TRef.of (T := ⟨S_, .f32⟩) main_call0_cst) (constant S_ .f32 0x00000000#32),
    TRef.binary (TRef.of (T := ⟨S64x1024x3, .f32⟩) main_call0_v0) (TRef.of (T := ⟨S_, .f32⟩) main_call0_cst) (TRef.of (T := ⟨S64x1024, .f32⟩) main_call0_v1) (fun x v => Host.reduceAdd x v reducesTo_S64x1024x3_S64x1024_d2 h_S_),
    TRef.unary (TRef.of (T := ⟨S64x1024, .f32⟩) main_call0_v1) (TRef.of (T := ⟨S64x1024, .f32⟩) main_v25) Host.sqrt,
    nullary main_cst_8 (constant S_ .f32 0x00000000#32),
    binary main_v25 main_cst_8 main_v26 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_9 (constant S_ .f32 0x44800000#32),
    unary main_cst_9 main_v27 (broadcastInDim S64 ![] bcast_S_S64 : (⟨S_, .f32⟩ : BufTy).Contents (Elt F) → (⟨S64, .f32⟩ : BufTy).Contents (Elt F)),
    binary main_v26 main_v27 main_v28 (Host.divf : (⟨S64, .f32⟩ : BufTy).Contents (Elt F) → (⟨S64, .f32⟩ : BufTy).Contents (Elt F) → (⟨S64, .f32⟩ : BufTy).Contents (Elt F)),
    binary main_arg5 main_v23 main_v29 (mulf : (⟨S64, .f32⟩ : BufTy).Contents (Elt F) → (⟨S64, .f32⟩ : BufTy).Contents (Elt F) → (⟨S64, .f32⟩ : BufTy).Contents (Elt F)),
    nullary main_cst_10 (constant S_ .f32 0x3F800000#32),
    unary main_cst_10 main_v30 (broadcastInDim S64 ![] bcast_S_S64 : (⟨S_, .f32⟩ : BufTy).Contents (Elt F) → (⟨S64, .f32⟩ : BufTy).Contents (Elt F)),
    binary main_v30 main_arg5 main_v31 (subf : (⟨S64, .f32⟩ : BufTy).Contents (Elt F) → (⟨S64, .f32⟩ : BufTy).Contents (Elt F) → (⟨S64, .f32⟩ : BufTy).Contents (Elt F)),
    binary main_v31 main_v28 main_v32 (mulf : (⟨S64, .f32⟩ : BufTy).Contents (Elt F) → (⟨S64, .f32⟩ : BufTy).Contents (Elt F) → (⟨S64, .f32⟩ : BufTy).Contents (Elt F)),
    binary main_v29 main_v32 main_v33 (addf : (⟨S64, .f32⟩ : BufTy).Contents (Elt F) → (⟨S64, .f32⟩ : BufTy).Contents (Elt F) → (⟨S64, .f32⟩ : BufTy).Contents (Elt F)),
    binary main_arg3 main_v33 main_v34 (mulf : (⟨S64, .f32⟩ : BufTy).Contents (Elt F) → (⟨S64, .f32⟩ : BufTy).Contents (Elt F) → (⟨S64, .f32⟩ : BufTy).Contents (Elt F)),
    binary main_arg1 main_arg1 main_v35 (mulf : (⟨S64x1024x3, .f32⟩ : BufTy).Contents (Elt F) → (⟨S64x1024x3, .f32⟩ : BufTy).Contents (Elt F) → (⟨S64x1024x3, .f32⟩ : BufTy).Contents (Elt F)),
    nullary main_cst_11 (constant S_ .f32 0x00000000#32),
    binary main_v35 main_cst_11 main_v36 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v36 main_v37 (broadcastInDim S64x1024x1 ![0, 1] bcast_S64x1024_S64x1024x1_0_1 : (⟨S64x1024, .f32⟩ : BufTy).Contents (Elt F) → (⟨S64x1024x1, .f32⟩ : BufTy).Contents (Elt F)),
    binary main_arg2 main_arg2 main_v38 (mulf : (⟨S64x1024x3, .f32⟩ : BufTy).Contents (Elt F) → (⟨S64x1024x3, .f32⟩ : BufTy).Contents (Elt F) → (⟨S64x1024x3, .f32⟩ : BufTy).Contents (Elt F)),
    nullary main_cst_12 (constant S_ .f32 0x00000000#32),
    binary main_v38 main_cst_12 main_v39 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v39 main_v40 (broadcastInDim S64x1x1024 ![0, 2] bcast_S64x1024_S64x1x1024_0_2 : (⟨S64x1024, .f32⟩ : BufTy).Contents (Elt F) → (⟨S64x1x1024, .f32⟩ : BufTy).Contents (Elt F)),
    unary main_v37 main_v41 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v40 main_v42 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v41 main_v42 main_v43 (addf : (⟨S64x1024x1024, .f32⟩ : BufTy).Contents (Elt F) → (⟨S64x1024x1024, .f32⟩ : BufTy).Contents (Elt F) → (⟨S64x1024x1024, .f32⟩ : BufTy).Contents (Elt F)),
    binary main_arg1 main_arg2 main_v44 ((fun l r => Host.dotGeneral dot_S64x1024x3_S64x1024x3_S64x1024x1024_2_2_1_1_0_0 none l r) : (⟨S64x1024x3, .f32⟩ : BufTy).Contents (Elt F) → (⟨S64x1024x3, .f32⟩ : BufTy).Contents (Elt F) → (⟨S64x1024x1024, .f32⟩ : BufTy).Contents (Elt F)),
    nullary main_cst_13 (constant S_ .f32 0x40000000#32),
    unary main_cst_13 main_v45 (broadcastInDim S64x1024x1024 ![] bcast_S_S64x1024x1024 : (⟨S_, .f32⟩ : BufTy).Contents (Elt F) → (⟨S64x1024x1024, .f32⟩ : BufTy).Contents (Elt F)),
    binary main_v45 main_v44 main_v46 (mulf : (⟨S64x1024x1024, .f32⟩ : BufTy).Contents (Elt F) → (⟨S64x1024x1024, .f32⟩ : BufTy).Contents (Elt F) → (⟨S64x1024x1024, .f32⟩ : BufTy).Contents (Elt F)),
    binary main_v43 main_v46 main_v47 (subf : (⟨S64x1024x1024, .f32⟩ : BufTy).Contents (Elt F) → (⟨S64x1024x1024, .f32⟩ : BufTy).Contents (Elt F) → (⟨S64x1024x1024, .f32⟩ : BufTy).Contents (Elt F)),
    nullary main_cst_14 (constant S_ .f32 0x00000000#32),
    unary main_cst_14 main_v48 (broadcastInDim S64x1024x1024 ![] bcast_S_S64x1024x1024 : (⟨S_, .f32⟩ : BufTy).Contents (Elt F) → (⟨S64x1024x1024, .f32⟩ : BufTy).Contents (Elt F)),
    binary main_v47 main_v48 main_v49 (maximumf : (⟨S64x1024x1024, .f32⟩ : BufTy).Contents (Elt F) → (⟨S64x1024x1024, .f32⟩ : BufTy).Contents (Elt F) → (⟨S64x1024x1024, .f32⟩ : BufTy).Contents (Elt F)),
    unary main_v49 main_v50 (Host.sqrt : (⟨S64x1024x1024, .f32⟩ : BufTy).Contents (Elt F) → (⟨S64x1024x1024, .f32⟩ : BufTy).Contents (Elt F)),
    nullary main_cst_15 (constant S_ .f32 0x7F800000#32),
    binary main_v50 main_cst_15 main_v51 ((fun x v => Host.reduce FloatOps.minimumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_16 (constant S_ .f32 0x7F800000#32),
    binary main_v50 main_cst_16 main_v52 ((fun x v => Host.reduce FloatOps.minimumf x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    binary main_v51 main_v52 main_v53 (addf : (⟨S64x1024, .f32⟩ : BufTy).Contents (Elt F) → (⟨S64x1024, .f32⟩ : BufTy).Contents (Elt F) → (⟨S64x1024, .f32⟩ : BufTy).Contents (Elt F)),
    nullary main_cst_17 (constant S_ .f32 0x3F000000#32),
    unary main_cst_17 main_v54 (broadcastInDim S64x1024 ![] bcast_S_S64x1024 : (⟨S_, .f32⟩ : BufTy).Contents (Elt F) → (⟨S64x1024, .f32⟩ : BufTy).Contents (Elt F)),
    binary main_v54 main_v53 main_v55 (mulf : (⟨S64x1024, .f32⟩ : BufTy).Contents (Elt F) → (⟨S64x1024, .f32⟩ : BufTy).Contents (Elt F) → (⟨S64x1024, .f32⟩ : BufTy).Contents (Elt F)),
    nullary main_cst_18 (constant S_ .f32 0x00000000#32),
    binary main_v55 main_cst_18 main_v56 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_19 (constant S_ .f32 0x44800000#32),
    unary main_cst_19 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    binary main_arg1 main_arg2 main_v59 (subf : (⟨S64x1024x3, .f32⟩ : BufTy).Contents (Elt F) → (⟨S64x1024x3, .f32⟩ : BufTy).Contents (Elt F) → (⟨S64x1024x3, .f32⟩ : BufTy).Contents (Elt F)),
    TRef.binary (TRef.of (T := ⟨S64x1024x3, .f32⟩) main_v59) (TRef.of (T := ⟨S64x1024x3, .f32⟩) main_v59) (TRef.of (T := ⟨S64x1024x3, .f32⟩) main_call1_v0) mulf,
    TRef.nullary (TRef.of (T := ⟨S_, .f32⟩) main_call1_cst) (constant S_ .f32 0x00000000#32),
    TRef.binary (TRef.of (T := ⟨S64x1024x3, .f32⟩) main_call1_v0) (TRef.of (T := ⟨S_, .f32⟩) main_call1_cst) (TRef.of (T := ⟨S64x1024, .f32⟩) main_call1_v1) (fun x v => Host.reduceAdd x v reducesTo_S64x1024x3_S64x1024_d2 h_S_),
    TRef.unary (TRef.of (T := ⟨S64x1024, .f32⟩) main_call1_v1) (TRef.of (T := ⟨S64x1024, .f32⟩) main_v60) Host.sqrt,
    nullary main_cst_20 (constant S_ .f32 0x00000000#32),
    binary main_v60 main_cst_20 main_v61 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_21 (constant S_ .f32 0x44800000#32),
    unary main_cst_21 main_v62 (broadcastInDim S64 ![] bcast_S_S64 : (⟨S_, .f32⟩ : BufTy).Contents (Elt F) → (⟨S64, .f32⟩ : BufTy).Contents (Elt F)),
    binary main_v61 main_v62 main_v63 (Host.divf : (⟨S64, .f32⟩ : BufTy).Contents (Elt F) → (⟨S64, .f32⟩ : BufTy).Contents (Elt F) → (⟨S64, .f32⟩ : BufTy).Contents (Elt F)),
    binary main_arg5 main_v58 main_v64 (mulf : (⟨S64, .f32⟩ : BufTy).Contents (Elt F) → (⟨S64, .f32⟩ : BufTy).Contents (Elt F) → (⟨S64, .f32⟩ : BufTy).Contents (Elt F)),
    nullary main_cst_22 (constant S_ .f32 0x3F800000#32),
    unary main_cst_22 main_v65 (broadcastInDim S64 ![] bcast_S_S64 : (⟨S_, .f32⟩ : BufTy).Contents (Elt F) → (⟨S64, .f32⟩ : BufTy).Contents (Elt F)),
    binary main_v65 main_arg5 main_v66 (subf : (⟨S64, .f32⟩ : BufTy).Contents (Elt F) → (⟨S64, .f32⟩ : BufTy).Contents (Elt F) → (⟨S64, .f32⟩ : BufTy).Contents (Elt F)),
    binary main_v66 main_v63 main_v67 (mulf : (⟨S64, .f32⟩ : BufTy).Contents (Elt F) → (⟨S64, .f32⟩ : BufTy).Contents (Elt F) → (⟨S64, .f32⟩ : BufTy).Contents (Elt F)),
    binary main_v64 main_v67 main_v68 (addf : (⟨S64, .f32⟩ : BufTy).Contents (Elt F) → (⟨S64, .f32⟩ : BufTy).Contents (Elt F) → (⟨S64, .f32⟩ : BufTy).Contents (Elt F)),
    binary main_arg4 main_v68 main_v69 (mulf : (⟨S64, .f32⟩ : BufTy).Contents (Elt F) → (⟨S64, .f32⟩ : BufTy).Contents (Elt F) → (⟨S64, .f32⟩ : BufTy).Contents (Elt F)),
    binary main_v34 main_v69 main_v70 (addf : (⟨S64, .f32⟩ : BufTy).Contents (Elt F) → (⟨S64, .f32⟩ : BufTy).Contents (Elt F) → (⟨S64, .f32⟩ : BufTy).Contents (Elt F)),
    nullary main_cst_23 (constant S_ .f32 0x00000000#32),
    binary main_v70 main_cst_23 main_v71 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_24 (constant S_ .f32 0x42800000#32),
    binary main_v71 main_cst_24 main_v72 (Host.divf : (⟨S_, .f32⟩ : BufTy).Contents (Elt F) → (⟨S_, .f32⟩ : BufTy).Contents (Elt F) → (⟨S_, .f32⟩ : BufTy).Contents (Elt F)),
    nullary main_cst_25 (constant S_ .f32 0x00000000#32),
    binary main_v34 main_cst_25 main_v73 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_26 (constant S_ .f32 0x42800000#32),
    binary main_v73 main_cst_26 main_v74 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    binary main_v69 main_cst_27 main_v75 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_28 (constant S_ .f32 0x42800000#32),
    binary main_v75 main_cst_28 main_v76 (Host.divf : (⟨S_, .f32⟩ : BufTy).Contents (Elt F) → (⟨S_, .f32⟩ : BufTy).Contents (Elt F) → (⟨S_, .f32⟩ : BufTy).Contents (Elt F)),
    unary main_v72 main_v77 (broadcastInDim S1 ![] bcast_S_S1 : (⟨S_, .f32⟩ : BufTy).Contents (Elt F) → (⟨S1, .f32⟩ : BufTy).Contents (Elt F)),
    unary main_v74 main_v78 (broadcastInDim S1 ![] bcast_S_S1 : (⟨S_, .f32⟩ : BufTy).Contents (Elt F) → (⟨S1, .f32⟩ : BufTy).Contents (Elt F)),
    unary main_v76 main_v79 (broadcastInDim S1 ![] bcast_S_S1 : (⟨S_, .f32⟩ : BufTy).Contents (Elt F) → (⟨S1, .f32⟩ : BufTy).Contents (Elt F)),
    nary ![main_v77, main_v78, main_v79] main_v80 (fun u => concatenate S3 0 [⟨S1, u 0⟩, ⟨S1, u 1⟩, ⟨S1, u 2⟩] concatenates_S1_S1_S1_S3_d0) ]

/-- All of them but the last, -/
abbrev opsInit : List (HloOp τ sig (Elt F)) :=
  [ binary main_arg0 main_arg0 main_v0 (mulf : (⟨S64x1024x3, .f32⟩ : BufTy).Contents (Elt F) → (⟨S64x1024x3, .f32⟩ : BufTy).Contents (Elt F) → (⟨S64x1024x3, .f32⟩ : BufTy).Contents (Elt F)),
    nullary main_cst (constant S_ .f32 0x00000000#32),
    binary main_v0 main_cst main_v1 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v1 main_v2 (broadcastInDim S64x1024x1 ![0, 1] bcast_S64x1024_S64x1024x1_0_1 : (⟨S64x1024, .f32⟩ : BufTy).Contents (Elt F) → (⟨S64x1024x1, .f32⟩ : BufTy).Contents (Elt F)),
    binary main_arg2 main_arg2 main_v3 (mulf : (⟨S64x1024x3, .f32⟩ : BufTy).Contents (Elt F) → (⟨S64x1024x3, .f32⟩ : BufTy).Contents (Elt F) → (⟨S64x1024x3, .f32⟩ : BufTy).Contents (Elt F)),
    nullary main_cst_0 (constant S_ .f32 0x00000000#32),
    binary main_v3 main_cst_0 main_v4 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v4 main_v5 (broadcastInDim S64x1x1024 ![0, 2] bcast_S64x1024_S64x1x1024_0_2 : (⟨S64x1024, .f32⟩ : BufTy).Contents (Elt F) → (⟨S64x1x1024, .f32⟩ : BufTy).Contents (Elt F)),
    unary main_v2 main_v6 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v5 main_v7 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v6 main_v7 main_v8 (addf : (⟨S64x1024x1024, .f32⟩ : BufTy).Contents (Elt F) → (⟨S64x1024x1024, .f32⟩ : BufTy).Contents (Elt F) → (⟨S64x1024x1024, .f32⟩ : BufTy).Contents (Elt F)),
    binary main_arg0 main_arg2 main_v9 ((fun l r => Host.dotGeneral dot_S64x1024x3_S64x1024x3_S64x1024x1024_2_2_1_1_0_0 none l r) : (⟨S64x1024x3, .f32⟩ : BufTy).Contents (Elt F) → (⟨S64x1024x3, .f32⟩ : BufTy).Contents (Elt F) → (⟨S64x1024x1024, .f32⟩ : BufTy).Contents (Elt F)),
    nullary main_cst_1 (constant S_ .f32 0x40000000#32),
    unary main_cst_1 main_v10 (broadcastInDim S64x1024x1024 ![] bcast_S_S64x1024x1024 : (⟨S_, .f32⟩ : BufTy).Contents (Elt F) → (⟨S64x1024x1024, .f32⟩ : BufTy).Contents (Elt F)),
    binary main_v10 main_v9 main_v11 (mulf : (⟨S64x1024x1024, .f32⟩ : BufTy).Contents (Elt F) → (⟨S64x1024x1024, .f32⟩ : BufTy).Contents (Elt F) → (⟨S64x1024x1024, .f32⟩ : BufTy).Contents (Elt F)),
    binary main_v8 main_v11 main_v12 (subf : (⟨S64x1024x1024, .f32⟩ : BufTy).Contents (Elt F) → (⟨S64x1024x1024, .f32⟩ : BufTy).Contents (Elt F) → (⟨S64x1024x1024, .f32⟩ : BufTy).Contents (Elt F)),
    nullary main_cst_2 (constant S_ .f32 0x00000000#32),
    unary main_cst_2 main_v13 (broadcastInDim S64x1024x1024 ![] bcast_S_S64x1024x1024 : (⟨S_, .f32⟩ : BufTy).Contents (Elt F) → (⟨S64x1024x1024, .f32⟩ : BufTy).Contents (Elt F)),
    binary main_v12 main_v13 main_v14 (maximumf : (⟨S64x1024x1024, .f32⟩ : BufTy).Contents (Elt F) → (⟨S64x1024x1024, .f32⟩ : BufTy).Contents (Elt F) → (⟨S64x1024x1024, .f32⟩ : BufTy).Contents (Elt F)),
    unary main_v14 main_v15 (Host.sqrt : (⟨S64x1024x1024, .f32⟩ : BufTy).Contents (Elt F) → (⟨S64x1024x1024, .f32⟩ : BufTy).Contents (Elt F)),
    nullary main_cst_3 (constant S_ .f32 0x7F800000#32),
    binary main_v15 main_cst_3 main_v16 ((fun x v => Host.reduce FloatOps.minimumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_4 (constant S_ .f32 0x7F800000#32),
    binary main_v15 main_cst_4 main_v17 ((fun x v => Host.reduce FloatOps.minimumf x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    binary main_v16 main_v17 main_v18 (addf : (⟨S64x1024, .f32⟩ : BufTy).Contents (Elt F) → (⟨S64x1024, .f32⟩ : BufTy).Contents (Elt F) → (⟨S64x1024, .f32⟩ : BufTy).Contents (Elt F)),
    nullary main_cst_5 (constant S_ .f32 0x3F000000#32),
    unary main_cst_5 main_v19 (broadcastInDim S64x1024 ![] bcast_S_S64x1024 : (⟨S_, .f32⟩ : BufTy).Contents (Elt F) → (⟨S64x1024, .f32⟩ : BufTy).Contents (Elt F)),
    binary main_v19 main_v18 main_v20 (mulf : (⟨S64x1024, .f32⟩ : BufTy).Contents (Elt F) → (⟨S64x1024, .f32⟩ : BufTy).Contents (Elt F) → (⟨S64x1024, .f32⟩ : BufTy).Contents (Elt F)),
    nullary main_cst_6 (constant S_ .f32 0x00000000#32),
    binary main_v20 main_cst_6 main_v21 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_7 (constant S_ .f32 0x44800000#32),
    unary main_cst_7 main_v22 (broadcastInDim S64 ![] bcast_S_S64 : (⟨S_, .f32⟩ : BufTy).Contents (Elt F) → (⟨S64, .f32⟩ : BufTy).Contents (Elt F)),
    binary main_v21 main_v22 main_v23 (Host.divf : (⟨S64, .f32⟩ : BufTy).Contents (Elt F) → (⟨S64, .f32⟩ : BufTy).Contents (Elt F) → (⟨S64, .f32⟩ : BufTy).Contents (Elt F)),
    binary main_arg0 main_arg2 main_v24 (subf : (⟨S64x1024x3, .f32⟩ : BufTy).Contents (Elt F) → (⟨S64x1024x3, .f32⟩ : BufTy).Contents (Elt F) → (⟨S64x1024x3, .f32⟩ : BufTy).Contents (Elt F)),
    TRef.binary (TRef.of (T := ⟨S64x1024x3, .f32⟩) main_v24) (TRef.of (T := ⟨S64x1024x3, .f32⟩) main_v24) (TRef.of (T := ⟨S64x1024x3, .f32⟩) main_call0_v0) mulf,
    TRef.nullary (TRef.of (T := ⟨S_, .f32⟩) main_call0_cst) (constant S_ .f32 0x00000000#32),
    TRef.binary (TRef.of (T := ⟨S64x1024x3, .f32⟩) main_call0_v0) (TRef.of (T := ⟨S_, .f32⟩) main_call0_cst) (TRef.of (T := ⟨S64x1024, .f32⟩) main_call0_v1) (fun x v => Host.reduceAdd x v reducesTo_S64x1024x3_S64x1024_d2 h_S_),
    TRef.unary (TRef.of (T := ⟨S64x1024, .f32⟩) main_call0_v1) (TRef.of (T := ⟨S64x1024, .f32⟩) main_v25) Host.sqrt,
    nullary main_cst_8 (constant S_ .f32 0x00000000#32),
    binary main_v25 main_cst_8 main_v26 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_9 (constant S_ .f32 0x44800000#32),
    unary main_cst_9 main_v27 (broadcastInDim S64 ![] bcast_S_S64 : (⟨S_, .f32⟩ : BufTy).Contents (Elt F) → (⟨S64, .f32⟩ : BufTy).Contents (Elt F)),
    binary main_v26 main_v27 main_v28 (Host.divf : (⟨S64, .f32⟩ : BufTy).Contents (Elt F) → (⟨S64, .f32⟩ : BufTy).Contents (Elt F) → (⟨S64, .f32⟩ : BufTy).Contents (Elt F)),
    binary main_arg5 main_v23 main_v29 (mulf : (⟨S64, .f32⟩ : BufTy).Contents (Elt F) → (⟨S64, .f32⟩ : BufTy).Contents (Elt F) → (⟨S64, .f32⟩ : BufTy).Contents (Elt F)),
    nullary main_cst_10 (constant S_ .f32 0x3F800000#32),
    unary main_cst_10 main_v30 (broadcastInDim S64 ![] bcast_S_S64 : (⟨S_, .f32⟩ : BufTy).Contents (Elt F) → (⟨S64, .f32⟩ : BufTy).Contents (Elt F)),
    binary main_v30 main_arg5 main_v31 (subf : (⟨S64, .f32⟩ : BufTy).Contents (Elt F) → (⟨S64, .f32⟩ : BufTy).Contents (Elt F) → (⟨S64, .f32⟩ : BufTy).Contents (Elt F)),
    binary main_v31 main_v28 main_v32 (mulf : (⟨S64, .f32⟩ : BufTy).Contents (Elt F) → (⟨S64, .f32⟩ : BufTy).Contents (Elt F) → (⟨S64, .f32⟩ : BufTy).Contents (Elt F)),
    binary main_v29 main_v32 main_v33 (addf : (⟨S64, .f32⟩ : BufTy).Contents (Elt F) → (⟨S64, .f32⟩ : BufTy).Contents (Elt F) → (⟨S64, .f32⟩ : BufTy).Contents (Elt F)),
    binary main_arg3 main_v33 main_v34 (mulf : (⟨S64, .f32⟩ : BufTy).Contents (Elt F) → (⟨S64, .f32⟩ : BufTy).Contents (Elt F) → (⟨S64, .f32⟩ : BufTy).Contents (Elt F)),
    binary main_arg1 main_arg1 main_v35 (mulf : (⟨S64x1024x3, .f32⟩ : BufTy).Contents (Elt F) → (⟨S64x1024x3, .f32⟩ : BufTy).Contents (Elt F) → (⟨S64x1024x3, .f32⟩ : BufTy).Contents (Elt F)),
    nullary main_cst_11 (constant S_ .f32 0x00000000#32),
    binary main_v35 main_cst_11 main_v36 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v36 main_v37 (broadcastInDim S64x1024x1 ![0, 1] bcast_S64x1024_S64x1024x1_0_1 : (⟨S64x1024, .f32⟩ : BufTy).Contents (Elt F) → (⟨S64x1024x1, .f32⟩ : BufTy).Contents (Elt F)),
    binary main_arg2 main_arg2 main_v38 (mulf : (⟨S64x1024x3, .f32⟩ : BufTy).Contents (Elt F) → (⟨S64x1024x3, .f32⟩ : BufTy).Contents (Elt F) → (⟨S64x1024x3, .f32⟩ : BufTy).Contents (Elt F)),
    nullary main_cst_12 (constant S_ .f32 0x00000000#32),
    binary main_v38 main_cst_12 main_v39 ((fun x v => Host.reduceAdd x v reducesTo_S64x1024x3_S64x1024_d2 h_S_) : (⟨S64x1024x3, .f32⟩ : BufTy).Contents (Elt F) → (⟨S_, .f32⟩ : BufTy).Contents (Elt F) → (⟨S64x1024, .f32⟩ : BufTy).Contents (Elt F)),
    unary main_v39 main_v40 (broadcastInDim S64x1x1024 ![0, 2] bcast_S64x1024_S64x1x1024_0_2 : (⟨S64x1024, .f32⟩ : BufTy).Contents (Elt F) → (⟨S64x1x1024, .f32⟩ : BufTy).Contents (Elt F)),
    unary main_v37 main_v41 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v40 main_v42 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    binary main_v41 main_v42 main_v43 (addf : (⟨S64x1024x1024, .f32⟩ : BufTy).Contents (Elt F) → (⟨S64x1024x1024, .f32⟩ : BufTy).Contents (Elt F) → (⟨S64x1024x1024, .f32⟩ : BufTy).Contents (Elt F)),
    binary main_arg1 main_arg2 main_v44 ((fun l r => Host.dotGeneral dot_S64x1024x3_S64x1024x3_S64x1024x1024_2_2_1_1_0_0 none l r) : (⟨S64x1024x3, .f32⟩ : BufTy).Contents (Elt F) → (⟨S64x1024x3, .f32⟩ : BufTy).Contents (Elt F) → (⟨S64x1024x1024, .f32⟩ : BufTy).Contents (Elt F)),
    nullary main_cst_13 (constant S_ .f32 0x40000000#32),
    unary main_cst_13 main_v45 (broadcastInDim S64x1024x1024 ![] bcast_S_S64x1024x1024 : (⟨S_, .f32⟩ : BufTy).Contents (Elt F) → (⟨S64x1024x1024, .f32⟩ : BufTy).Contents (Elt F)),
    binary main_v45 main_v44 main_v46 (mulf : (⟨S64x1024x1024, .f32⟩ : BufTy).Contents (Elt F) → (⟨S64x1024x1024, .f32⟩ : BufTy).Contents (Elt F) → (⟨S64x1024x1024, .f32⟩ : BufTy).Contents (Elt F)),
    binary main_v43 main_v46 main_v47 (subf : (⟨S64x1024x1024, .f32⟩ : BufTy).Contents (Elt F) → (⟨S64x1024x1024, .f32⟩ : BufTy).Contents (Elt F) → (⟨S64x1024x1024, .f32⟩ : BufTy).Contents (Elt F)),
    nullary main_cst_14 (constant S_ .f32 0x00000000#32),
    unary main_cst_14 main_v48 (broadcastInDim S64x1024x1024 ![] bcast_S_S64x1024x1024 : (⟨S_, .f32⟩ : BufTy).Contents (Elt F) → (⟨S64x1024x1024, .f32⟩ : BufTy).Contents (Elt F)),
    binary main_v47 main_v48 main_v49 (maximumf : (⟨S64x1024x1024, .f32⟩ : BufTy).Contents (Elt F) → (⟨S64x1024x1024, .f32⟩ : BufTy).Contents (Elt F) → (⟨S64x1024x1024, .f32⟩ : BufTy).Contents (Elt F)),
    unary main_v49 main_v50 (Host.sqrt : (⟨S64x1024x1024, .f32⟩ : BufTy).Contents (Elt F) → (⟨S64x1024x1024, .f32⟩ : BufTy).Contents (Elt F)),
    nullary main_cst_15 (constant S_ .f32 0x7F800000#32),
    binary main_v50 main_cst_15 main_v51 ((fun x v => Host.reduce FloatOps.minimumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_16 (constant S_ .f32 0x7F800000#32),
    binary main_v50 main_cst_16 main_v52 ((fun x v => Host.reduce FloatOps.minimumf x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    binary main_v51 main_v52 main_v53 (addf : (⟨S64x1024, .f32⟩ : BufTy).Contents (Elt F) → (⟨S64x1024, .f32⟩ : BufTy).Contents (Elt F) → (⟨S64x1024, .f32⟩ : BufTy).Contents (Elt F)),
    nullary main_cst_17 (constant S_ .f32 0x3F000000#32),
    unary main_cst_17 main_v54 (broadcastInDim S64x1024 ![] bcast_S_S64x1024 : (⟨S_, .f32⟩ : BufTy).Contents (Elt F) → (⟨S64x1024, .f32⟩ : BufTy).Contents (Elt F)),
    binary main_v54 main_v53 main_v55 (mulf : (⟨S64x1024, .f32⟩ : BufTy).Contents (Elt F) → (⟨S64x1024, .f32⟩ : BufTy).Contents (Elt F) → (⟨S64x1024, .f32⟩ : BufTy).Contents (Elt F)),
    nullary main_cst_18 (constant S_ .f32 0x00000000#32),
    binary main_v55 main_cst_18 main_v56 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_19 (constant S_ .f32 0x44800000#32),
    unary main_cst_19 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    binary main_arg1 main_arg2 main_v59 (subf : (⟨S64x1024x3, .f32⟩ : BufTy).Contents (Elt F) → (⟨S64x1024x3, .f32⟩ : BufTy).Contents (Elt F) → (⟨S64x1024x3, .f32⟩ : BufTy).Contents (Elt F)),
    TRef.binary (TRef.of (T := ⟨S64x1024x3, .f32⟩) main_v59) (TRef.of (T := ⟨S64x1024x3, .f32⟩) main_v59) (TRef.of (T := ⟨S64x1024x3, .f32⟩) main_call1_v0) mulf,
    TRef.nullary (TRef.of (T := ⟨S_, .f32⟩) main_call1_cst) (constant S_ .f32 0x00000000#32),
    TRef.binary (TRef.of (T := ⟨S64x1024x3, .f32⟩) main_call1_v0) (TRef.of (T := ⟨S_, .f32⟩) main_call1_cst) (TRef.of (T := ⟨S64x1024, .f32⟩) main_call1_v1) (fun x v => Host.reduceAdd x v reducesTo_S64x1024x3_S64x1024_d2 h_S_),
    TRef.unary (TRef.of (T := ⟨S64x1024, .f32⟩) main_call1_v1) (TRef.of (T := ⟨S64x1024, .f32⟩) main_v60) Host.sqrt,
    nullary main_cst_20 (constant S_ .f32 0x00000000#32),
    binary main_v60 main_cst_20 main_v61 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    nullary main_cst_21 (constant S_ .f32 0x44800000#32),
    unary main_cst_21 main_v62 (broadcastInDim S64 ![] bcast_S_S64 : (⟨S_, .f32⟩ : BufTy).Contents (Elt F) → (⟨S64, .f32⟩ : BufTy).Contents (Elt F)),
    binary main_v61 main_v62 main_v63 (Host.divf : (⟨S64, .f32⟩ : BufTy).Contents (Elt F) → (⟨S64, .f32⟩ : BufTy).Contents (Elt F) → (⟨S64, .f32⟩ : BufTy).Contents (Elt F)),
    binary main_arg5 main_v58 main_v64 (mulf : (⟨S64, .f32⟩ : BufTy).Contents (Elt F) → (⟨S64, .f32⟩ : BufTy).Contents (Elt F) → (⟨S64, .f32⟩ : BufTy).Contents (Elt F)),
    nullary main_cst_22 (constant S_ .f32 0x3F800000#32),
    unary main_cst_22 main_v65 (broadcastInDim S64 ![] bcast_S_S64 : (⟨S_, .f32⟩ : BufTy).Contents (Elt F) → (⟨S64, .f32⟩ : BufTy).Contents (Elt F)),
    binary main_v65 main_arg5 main_v66 (subf : (⟨S64, .f32⟩ : BufTy).Contents (Elt F) → (⟨S64, .f32⟩ : BufTy).Contents (Elt F) → (⟨S64, .f32⟩ : BufTy).Contents (Elt F)),
    binary main_v66 main_v63 main_v67 (mulf : (⟨S64, .f32⟩ : BufTy).Contents (Elt F) → (⟨S64, .f32⟩ : BufTy).Contents (Elt F) → (⟨S64, .f32⟩ : BufTy).Contents (Elt F)),
    binary main_v64 main_v67 main_v68 (addf : (⟨S64, .f32⟩ : BufTy).Contents (Elt F) → (⟨S64, .f32⟩ : BufTy).Contents (Elt F) → (⟨S64, .f32⟩ : BufTy).Contents (Elt F)),
    binary main_arg4 main_v68 main_v69 (mulf : (⟨S64, .f32⟩ : BufTy).Contents (Elt F) → (⟨S64, .f32⟩ : BufTy).Contents (Elt F) → (⟨S64, .f32⟩ : BufTy).Contents (Elt F)),
    binary main_v34 main_v69 main_v70 (addf : (⟨S64, .f32⟩ : BufTy).Contents (Elt F) → (⟨S64, .f32⟩ : BufTy).Contents (Elt F) → (⟨S64, .f32⟩ : BufTy).Contents (Elt F)),
    nullary main_cst_23 (constant S_ .f32 0x00000000#32),
    binary main_v70 main_cst_23 main_v71 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_24 (constant S_ .f32 0x42800000#32),
    binary main_v71 main_cst_24 main_v72 (Host.divf : (⟨S_, .f32⟩ : BufTy).Contents (Elt F) → (⟨S_, .f32⟩ : BufTy).Contents (Elt F) → (⟨S_, .f32⟩ : BufTy).Contents (Elt F)),
    nullary main_cst_25 (constant S_ .f32 0x00000000#32),
    binary main_v34 main_cst_25 main_v73 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_26 (constant S_ .f32 0x42800000#32),
    binary main_v73 main_cst_26 main_v74 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    binary main_v69 main_cst_27 main_v75 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_28 (constant S_ .f32 0x42800000#32),
    binary main_v75 main_cst_28 main_v76 (Host.divf : (⟨S_, .f32⟩ : BufTy).Contents (Elt F) → (⟨S_, .f32⟩ : BufTy).Contents (Elt F) → (⟨S_, .f32⟩ : BufTy).Contents (Elt F)),
    unary main_v72 main_v77 (broadcastInDim S1 ![] bcast_S_S1 : (⟨S_, .f32⟩ : BufTy).Contents (Elt F) → (⟨S1, .f32⟩ : BufTy).Contents (Elt F)),
    unary main_v74 main_v78 (broadcastInDim S1 ![] bcast_S_S1 : (⟨S_, .f32⟩ : BufTy).Contents (Elt F) → (⟨S1, .f32⟩ : BufTy).Contents (Elt F)),
    unary main_v76 main_v79 (broadcastInDim S1 ![] bcast_S_S1 : (⟨S_, .f32⟩ : BufTy).Contents (Elt F) → (⟨S1, .f32⟩ : BufTy).Contents (Elt F)) ]

/-- and the last, which stacks the three means. -/
abbrev lastOp : HloOp τ sig (Elt F) :=
  nary ![main_v77, main_v78, main_v79] main_v80 (fun u => concatenate S3 0 [⟨S1, u 0⟩, ⟨S1, u 1⟩, ⟨S1, u 2⟩] concatenates_S1_S1_S1_S3_d0)

theorem ops_split : (ops : List (HloOp τ sig (Elt F))) = opsInit ++ [lastOp] := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., binary_bufs_sub .., nullary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., binary_bufs_sub .., nullary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., unary_bufs_sub .., nary_bufs_sub ..⟩

/-! ## The result, in stages -/

/-- The squared norms of a cloud's points: the sum over the three coordinates of the squares. -/
def sqNorms (x : (⟨S64x1024x3, .f32⟩ : BufTy).Contents (Elt F)) : (⟨S64x1024, .f32⟩ : BufTy).Contents (Elt F) :=
  Host.reduceAdd (mulf x x) (constant S_ .f32 0x00000000#32) reducesTo_S64x1024x3_S64x1024_d2 h_S_

/-- The Gram form of the squared distances between prediction point n and target point m of each batch. -/
def gram (x t : (⟨S64x1024x3, .f32⟩ : BufTy).Contents (Elt F)) : (⟨S64x1024x1024, .f32⟩ : BufTy).Contents (Elt F) :=
  subf (addf (broadcastInDim S64x1024x1024 ![0, 1, 2] bcast_S64x1024x1_S64x1024x1024_0_1_2 (broadcastInDim S64x1024x1 ![0, 1] bcast_S64x1024_S64x1024x1_0_1 (sqNorms x)))
          (broadcastInDim S64x1024x1024 ![0, 1, 2] bcast_S64x1x1024_S64x1024x1024_0_1_2 (broadcastInDim S64x1x1024 ![0, 2] bcast_S64x1024_S64x1x1024_0_2 (sqNorms t))))
    (mulf (broadcastInDim S64x1024x1024 ![] bcast_S_S64x1024x1024 (constant S_ .f32 0x40000000#32))
      (Host.dotGeneral dot_S64x1024x3_S64x1024x3_S64x1024x1024_2_2_1_1_0_0 none x t))

/-- The distances: the square root of the squared distance clamped at zero. -/
def dist (x t : (⟨S64x1024x3, .f32⟩ : BufTy).Contents (Elt F)) : (⟨S64x1024x1024, .f32⟩ : BufTy).Contents (Elt F) :=
  Host.sqrt (maximumf (gram x t) (broadcastInDim S64x1024x1024 ![] bcast_S_S64x1024x1024 (constant S_ .f32 0x00000000#32)))

/-- The symmetric statistic of a batch. -/
def symStat (x t : (⟨S64x1024x3, .f32⟩ : BufTy).Contents (Elt F)) : (⟨S64, .f32⟩ : BufTy).Contents (Elt F) :=
  Host.divf
    (Host.reduceAdd
      (mulf (broadcastInDim S64x1024 ![] bcast_S_S64x1024 (constant S_ .f32 0x3F000000#32))
        (addf (Host.reduce FloatOps.minimumf (dist x t) (constant S_ .f32 0x7F800000#32) reducesTo_S64x1024x1024_S64x1024_d2 h_S_)
              (Host.reduce FloatOps.minimumf (dist x t) (constant S_ .f32 0x7F800000#32) reducesTo_S64x1024x1024_S64x1024_d1 h_S_)))
      (constant S_ .f32 0x00000000#32) reducesTo_S64x1024_S64_d1 h_S_)
    (broadcastInDim S64 ![] bcast_S_S64 (constant S_ .f32 0x44800000#32))

/-- The asymmetric statistic of a batch. -/
def asymStat (x t : (⟨S64x1024x3, .f32⟩ : BufTy).Contents (Elt F)) : (⟨S64, .f32⟩ : BufTy).Contents (Elt F) :=
  Host.divf
    (Host.reduceAdd (Host.sqrt (sqNorms (subf x t))) (constant S_ .f32 0x00000000#32) reducesTo_S64x1024_S64_d1 h_S_)
    (broadcastInDim S64 ![] bcast_S_S64 (constant S_ .f32 0x44800000#32))

/-- One stage's loss per batch: flag · (w · sym + (1 − w) · asym). -/
def stageLoss (flag w sym asym : (⟨S64, .f32⟩ : BufTy).Contents (Elt F)) : (⟨S64, .f32⟩ : BufTy).Contents (Elt F) :=
  mulf flag (addf (mulf w sym) (mulf (subf (broadcastInDim S64 ![] bcast_S_S64 (constant S_ .f32 0x3F800000#32)) w) asym))

/-- The mean over the 64 batches, as a one-element vector. -/
def batchMean (v : (⟨S64, .f32⟩ : BufTy).Contents (Elt F)) : (⟨S1, .f32⟩ : BufTy).Contents (Elt F) :=
  broadcastInDim S1 ![] bcast_S_S1 (Host.divf (Host.reduceAdd v (constant S_ .f32 0x00000000#32) reducesTo_S64_S_d0 h_S_) (constant S_ .f32 0x42800000#32))

/-- The three means stacked: of the total loss, of stage one's, of stage two's. -/
def threeMeans (l1 l2 : (⟨S64, .f32⟩ : BufTy).Contents (Elt F)) : (⟨S3, .f32⟩ : BufTy).Contents (Elt F) :=
  concatenate S3 0 [⟨S1, batchMean (addf l1 l2)⟩, ⟨S1, batchMean l1⟩, ⟨S1, batchMean l2⟩] concatenates_S1_S1_S1_S3_d0

/-- The reference's result as a function of its six arguments. -/
def result (x0 x1 x2 : (⟨S64x1024x3, .f32⟩ : BufTy).Contents (Elt F)) (x3 x4 x5 : (⟨S64, .f32⟩ : BufTy).Contents (Elt F)) : (⟨S3, .f32⟩ : BufTy).Contents (Elt F) :=
  threeMeans (stageLoss x3 x5 (symStat x0 x2) (asymStat x0 x2)) (stageLoss x4 x5 (symStat x1 x2) (asymStat x1 x2))

end Cert.ReferenceIdeal.Hand

end
-- ==== Proof.RefValue.lean ====
/-
  The reference's two statistics read at a batch, at the exact (extended) reals.

  For batch `B` write P n d and T m d for the prediction's and the target's entries (B, n, d), (B, m, d). The
  reference's squared distances are the Gram form of Spec.lean (its sums carry the host reduce's initial value
  0, which adds nothing); its symmetric statistic is `symRef` of them and its asymmetric one `pairedOf`.
-/
import proofs.«147218_j17695265260051_2_alg».proof.Proof.RefOps
import proofs.«147218_j17695265260051_2_alg».proof.Proof.LibGramRows
import proofs.«147218_j17695265260051_2_alg».proof.Proof.Spec

set_option maxRecDepth 16384

noncomputable section

namespace Cert.ReferenceIdeal.Hand

open Cert.ReferenceIdeal Cert.ReferenceIdeal.Gen Cert.LibGramRows Cert.Chamfer
open Idealize.ShloMosaic Idealize.ShloMosaic.ValueIdx

/-- Batch `B`'s points of a cloud. -/
def batchRows (x : (⟨S64x1024x3, .f32⟩ : BufTy).Contents (Elt Ideal)) (B : Fin 64) : Fin 1024 → Fin 3 → EReal := fun n d => x (ix3 B n d)

theorem sqNorms_apply (x : (⟨S64x1024x3, .f32⟩ : BufTy).Contents (Elt Ideal)) (B : Fin 64) (n : Fin 1024) :
    sqNorms x (ix2 B n) = ∑ d : Fin 3, x (ix3 B n d) * x (ix3 B n d) :=
  (hostSumLast_apply (mulf x x) (constant S_ .f32 0x00000000#32) reducesTo_S64x1024x3_S64x1024_d2 (by decide) h_S_ B n).trans
    ((congrArg (· + ∑ d : Fin 3, x (ix3 B n d) * x (ix3 B n d)) Ideal.ofBits_zero_f32).trans (zero_add _))

/-- The reference's squared distances are the Gram form of the batch's rows. -/
theorem gram_apply (x t : (⟨S64x1024x3, .f32⟩ : BufTy).Contents (Elt Ideal)) (B : Fin 64) (n m : Fin 1024) :
    gram x t (ix3 B n m) = gramOf (batchRows x B) (batchRows t B) n m := by
  have hd : Host.dotGeneral (F := Ideal) (φ₁ := .f32) (φ₂ := .f32) dot_S64x1024x3_S64x1024x3_S64x1024x1024_2_2_1_1_0_0 none x t (ix3 B n m)
      = ∑ d : Fin 3, x (ix3 B n d) * t (ix3 B m d) := by
    simp only [Host.dotGeneral]
    exact rowsDot_apply (φ₁ := .f32) (φ₂ := .f32) dot_S64x1024x3_S64x1024x3_S64x1024x1024_2_2_1_1_0_0_wf none _ x t B n m
  unfold gram
  rw [subf_apply, addf_apply, mulf_apply, hostRowsC_apply, hostRows1_apply, hostColsB_apply, hostCols1_apply,
    sqNorms_apply, sqNorms_apply, hostSplat_apply, hd]
  rfl

/-- The reference's distances are the clamped roots of the squared distances. -/
theorem dist_apply (x t : (⟨S64x1024x3, .f32⟩ : BufTy).Contents (Elt Ideal)) (B : Fin 64) (n m : Fin 1024) :
    dist x t (ix3 B n m) = croot (gramOf (batchRows x B) (batchRows t B) n m) :=
  (congrArg (fun z => Ideal.sqrt (max (gram x t (ix3 B n m)) z))
      ((hostSplat_apply (constant (F := Ideal) S_ .f32 0x00000000#32) bcast_S_S64x1024x1024 (ix3 B n m)).trans Ideal.ofBits_zero_f32)).trans
    (congrArg croot (gram_apply x t B n m))

/-- A minimum over the target points (last axis), from +∞, of ANY batch-by-row-by-column array. -/
theorem minOverCols_apply (D : FVec Ideal S64x1024x1024 .f32) (B : Fin 64) (n : Fin 1024) :
    Host.reduce FloatOps.minimumf D (constant S_ .f32 0x7F800000#32) reducesTo_S64x1024x1024_S64x1024_d2 h_S_ (ix2 B n)
      = (Finset.univ : Finset (Fin 1024)).fold min ⊤ fun m => D (ix3 B n m) :=
  (hostMinLast_apply D (constant S_ .f32 0x7F800000#32) reducesTo_S64x1024x1024_S64x1024_d2 (by decide) h_S_ B n).trans
    (congrArg (fun z => Finset.fold min z (fun m => D (ix3 B n m)) (Finset.univ : Finset (Fin 1024))) ofBits_inf)

/-- A minimum over the prediction points (middle axis), from +∞. -/
theorem minOverRows_apply (D : FVec Ideal S64x1024x1024 .f32) (B : Fin 64) (n : Fin 1024) :
    Host.reduce FloatOps.minimumf D (constant S_ .f32 0x7F800000#32) reducesTo_S64x1024x1024_S64x1024_d1 h_S_ (ix2 B n)
      = (Finset.univ : Finset (Fin 1024)).fold min ⊤ fun n' => D (ix3 B n' n) :=
  (hostMinMid_apply D (constant S_ .f32 0x7F800000#32) reducesTo_S64x1024x1024_S64x1024_d1 (by decide) h_S_ B n).trans
    (congrArg (fun z => Finset.fold min z (fun n' => D (ix3 B n' n)) (Finset.univ : Finset (Fin 1024))) ofBits_inf)

/-- The mean over the slots of half the sum of two per-slot arrays. -/
theorem meanHalfSum_apply (M2 M1 : FVec Ideal S64x1024 .f32) (B : Fin 64) :
    Host.divf
        (Host.reduceAdd (mulf (broadcastInDim S64x1024 ![] bcast_S_S64x1024 (constant S_ .f32 0x3F000000#32)) (addf M2 M1))
          (constant S_ .f32 0x00000000#32) reducesTo_S64x1024_S64_d1 h_S_)
        (broadcastInDim S64 ![] bcast_S_S64 (constant S_ .f32 0x44800000#32)) (ix1 B)
      = Ideal.div (wZero + ∑ n : Fin 1024, wHalf * (M2 (ix2 B n) + M1 (ix2 B n))) wCount := by
  have hsum : Host.reduceAdd (mulf (broadcastInDim S64x1024 ![] bcast_S_S64x1024 (constant S_ .f32 0x3F000000#32)) (addf M2 M1))
        (constant S_ .f32 0x00000000#32) reducesTo_S64x1024_S64_d1 h_S_ (ix1 B)
      = wZero + ∑ n : Fin 1024, wHalf * (M2 (ix2 B n) + M1 (ix2 B n)) :=
    (hostRowSum_apply _ (constant S_ .f32 0x00000000#32) reducesTo_S64x1024_S64_d1 (by decide) h_S_ B).trans
      (congrArg (wZero + ·) (Finset.sum_congr rfl fun n _ =>
        congrArg (· * (M2 (ix2 B n) + M1 (ix2 B n))) (hostSplat_apply (constant S_ .f32 0x3F000000#32) bcast_S_S64x1024 (ix2 B n))))
  exact congrArg₂ Ideal.div hsum (hostSplat_apply (constant S_ .f32 0x44800000#32) bcast_S_S64 (ix1 B))

/-- The mean over the slots of the roots of a per-slot array. -/
theorem meanSqrt_apply (Q : FVec Ideal S64x1024 .f32) (B : Fin 64) :
    Host.divf (Host.reduceAdd (Host.sqrt Q) (constant S_ .f32 0x00000000#32) reducesTo_S64x1024_S64_d1 h_S_)
        (broadcastInDim S64 ![] bcast_S_S64 (constant S_ .f32 0x44800000#32)) (ix1 B)
      = Ideal.div (∑ n : Fin 1024, Ideal.sqrt (Q (ix2 B n))) wCount := by
  have hsum : Host.reduceAdd (Host.sqrt Q) (constant S_ .f32 0x00000000#32) reducesTo_S64x1024_S64_d1 h_S_ (ix1 B)
      = ∑ n : Fin 1024, Ideal.sqrt (Q (ix2 B n)) :=
    (hostRowSum_apply _ (constant S_ .f32 0x00000000#32) reducesTo_S64x1024_S64_d1 (by decide) h_S_ B).trans
      ((congrArg (· + ∑ n : Fin 1024, Host.sqrt Q (ix2 B n)) Ideal.ofBits_zero_f32).trans (zero_add _))
  exact congrArg₂ Ideal.div hsum (hostSplat_apply (constant S_ .f32 0x44800000#32) bcast_S_S64 (ix1 B))

/-- The reference's symmetric statistic at batch `B`. -/
theorem symStat_apply (x t : (⟨S64x1024x3, .f32⟩ : BufTy).Contents (Elt Ideal)) (B : Fin 64) :
    symStat x t (ix1 B) = symRef (gramOf (batchRows x B) (batchRows t B)) wZero wHalf wCount := by
  unfold symStat
  rw [meanHalfSum_apply]
  simp only [minOverCols_apply, minOverRows_apply, dist_apply]
  rfl

/-- The reference's asymmetric statistic at batch `B`. -/
theorem asymStat_apply (x t : (⟨S64x1024x3, .f32⟩ : BufTy).Contents (Elt Ideal)) (B : Fin 64) :
    asymStat x t (ix1 B) = pairedOf (batchRows x B) (batchRows t B) := by
  unfold asymStat
  rw [meanSqrt_apply]
  simp only [sqNorms_apply]
  rfl

end Cert.ReferenceIdeal.Hand

end
-- ==== Proof.RefRun.lean ====
/-
  The reference program's run, read back: every weakly fair execution of its @main terminates with the
  result buffer at the staged function `result` of the launch contents of the six arguments, and the
  arguments unchanged.

  The straight line is read in two steps: the three means, each the fold of the first 116 operations read
  at its own buffer; then the last operation, which stacks them.
-/
import proofs.«147218_j17695265260051_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

section Means

variable (V : Valuation τ sig (Elt F))

/-- Stage one's loss per batch, from the contents `V`. -/
abbrev loss1 : (⟨S64, .f32⟩ : BufTy).Contents (Elt F) :=
  stageLoss (V (Proc.devRef .tc main_arg3)) (V (Proc.devRef .tc main_arg5))
    (symStat (V (Proc.devRef .tc main_arg0)) (V (Proc.devRef .tc main_arg2)))
    (asymStat (V (Proc.devRef .tc main_arg0)) (V (Proc.devRef .tc main_arg2)))
/-- Stage two's. -/
abbrev loss2 : (⟨S64, .f32⟩ : BufTy).Contents (Elt F) :=
  stageLoss (V (Proc.devRef .tc main_arg4)) (V (Proc.devRef .tc main_arg5))
    (symStat (V (Proc.devRef .tc main_arg1)) (V (Proc.devRef .tc main_arg2)))
    (asymStat (V (Proc.devRef .tc main_arg1)) (V (Proc.devRef .tc main_arg2)))

set_option maxRecDepth 65536 in
set_option maxHeartbeats 46800000 in
theorem mean_total : after (opsInit (F := F)) V (Proc.devRef .tc main_v77) = batchMean (addf (loss1 V) (loss2 V)) := by
  after_results_simp <;> rfl

set_option maxRecDepth 65536 in
set_option maxHeartbeats 46800000 in
theorem mean_one : after (opsInit (F := F)) V (Proc.devRef .tc main_v78) = batchMean (loss1 V) := by
  after_results_simp <;> rfl

set_option maxRecDepth 65536 in
set_option maxHeartbeats 46800000 in
theorem mean_two : after (opsInit (F := F)) V (Proc.devRef .tc main_v79) = batchMean (loss2 V) := by
  after_results_simp <;> rfl

/-- The result buffer after the whole line. -/
theorem result_eq : after (ops (F := F)) V (Proc.devRef .tc main_v80)
    = result (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split, after_append']
  simp only [after_cons, after_nil]
  rw [nary_result]
  show concatenate S3 0 [⟨S1, after (opsInit (F := F)) V (Proc.devRef .tc main_v77)⟩, ⟨S1, after (opsInit (F := F)) V (Proc.devRef .tc main_v78)⟩,
      ⟨S1, after (opsInit (F := F)) V (Proc.devRef .tc main_v79)⟩] concatenates_S1_S1_S1_S3_d0 = _
  rw [mean_total, mean_one, mean_two]
  rfl

end Means

set_option maxRecDepth 65536 in
set_option maxHeartbeats 46800000 in
/-- Every weakly fair execution of the reference's @main terminates with the result at `result` of the launch
    contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans (result_eq (fun b => m (c, b))),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.Bridge.lean ====
/-
  The two programs compute one function.

  Column by column and batch by batch, the kernel's statistics array holds what the reference's statistics
  vectors hold: both are the same expression of batch B's rows (Spec.lean), the kernel's via its blocks and
  its chunked loops, the reference's via its whole-array host operations. The host lines that follow are the
  same in both programs, so the results agree.
-/
import proofs.«147218_j17695265260051_2_alg».proof.Proof.KFinal
import proofs.«147218_j17695265260051_2_alg».proof.Proof.KFull
import proofs.«147218_j17695265260051_2_alg».proof.Proof.RefValue
import proofs.«147218_j17695265260051_2_alg».proof.Proof.RefRun

set_option maxRecDepth 65536

noncomputable section

namespace Cert.Bridge

open Idealize.ShloMosaic Idealize.ShloMosaic.TcCoe Idealize.ShloMosaic.ValueIdx
open Idealize.SL Idealize.SL.Sem
open Cert.Chamfer

variable (m : (ℓ : Loc Cert.KernelIdeal.nD Cert.KernelIdeal.τ Cert.KernelIdeal.sig) → Buf (Elt Ideal) ℓ)

/-- The kernel's four statistics columns are the reference's four statistics vectors of the same arrays. -/
theorem cols_eq (c : Dev Cert.KernelIdeal.nD) :
    Cert.KernelIdeal.Hand.statCol0 (Cert.KernelIdeal.Hand.statsArray m c)
        = Cert.ReferenceIdeal.Hand.symStat (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
    ∧ Cert.KernelIdeal.Hand.statCol1 (Cert.KernelIdeal.Hand.statsArray m c)
        = Cert.ReferenceIdeal.Hand.asymStat (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
    ∧ Cert.KernelIdeal.Hand.statCol2 (Cert.KernelIdeal.Hand.statsArray m c)
        = Cert.ReferenceIdeal.Hand.symStat (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
    ∧ Cert.KernelIdeal.Hand.statCol3 (Cert.KernelIdeal.Hand.statsArray m c)
        = Cert.ReferenceIdeal.Hand.asymStat (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) := by
  refine ⟨funext fun i => ?_, funext fun i => ?_, funext fun i => ?_, funext fun i => ?_⟩
  all_goals rw [eq_ix1 i]
  · exact ((Cert.KernelIdeal.Hand.cols_apply m c (i 0)).1).trans (Cert.ReferenceIdeal.Hand.symStat_apply _ _ (i 0)).symm
  · exact ((Cert.KernelIdeal.Hand.cols_apply m c (i 0)).2.1).trans (Cert.ReferenceIdeal.Hand.asymStat_apply _ _ (i 0)).symm
  · exact ((Cert.KernelIdeal.Hand.cols_apply m c (i 0)).2.2.1).trans (Cert.ReferenceIdeal.Hand.symStat_apply _ _ (i 0)).symm
  · exact ((Cert.KernelIdeal.Hand.cols_apply m c (i 0)).2.2.2).trans (Cert.ReferenceIdeal.Hand.asymStat_apply _ _ (i 0)).symm

/-- The reference's result of the kernel program's argument arrays is the kernel program's result. -/
theorem result_agree (c : Dev Cert.KernelIdeal.nD) :
    Cert.ReferenceIdeal.Hand.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Hand.resultOf (Cert.KernelIdeal.Hand.statsArray m c)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h0, h1, h2, h3⟩ := cols_eq m c
  unfold Cert.KernelIdeal.Hand.resultOf
  rw [h0, h1, h2, h3]
  rfl

end Cert.Bridge

end
-- ==== Proof.lean ====
/-
  The certificate of the chamfer-plus-paired-distance loss kernel against its jnp reference: both programs
  run to their end without a fault and leave their six argument arrays unchanged, and at the exact
  (extended) reals they return the same three means.

  The kernel program is one pallas region of eight grid points (eight batches each) followed by host lines;
  its frame is proved against the pipeline library's launch theorem for a region continued by host lines
  (KRun / KFrame for the idealized text, BRun / BFrame for the same text read at words). Its value is read
  off that run: the body's store is a pure function of the three input blocks (KBlock), the eight blocks
  tile the statistics array (KArray), lanes 0–3 of a row are the four statistics of that batch (KValue,
  KCols, KFinal). The reference is a straight line of host operations (RefOps, RefRun) whose statistics are
  read batch by batch (RefValue). Spec.lean holds the law that joins them: the clamped root is monotone, so
  it commutes with the minima; all summands are non-negative, so the halves and the division by the count
  distribute; eight chunks of 128 rows are the 1024 rows. No finiteness of the inputs is needed.
-/
import proofs.«147218_j17695265260051_2_alg».proof.Defs
import proofs.«147218_j17695265260051_2_alg».proof.Proof.Gen.Kernel
import proofs.«147218_j17695265260051_2_alg».proof.Proof.Gen.KernelIdeal
import proofs.«147218_j17695265260051_2_alg».proof.Proof.Gen.ReferenceIdeal
import proofs.«147218_j17695265260051_2_alg».proof.Proof.Gen.Pre_finite_inputs
import proofs.«147218_j17695265260051_2_alg».proof.Proof.BFrame
import proofs.«147218_j17695265260051_2_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Hand.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The idealized kernel program's run with both its result and its arguments named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v31)
          = Cert.KernelIdeal.Hand.resultOf (Cert.KernelIdeal.Hand.statsArray m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  Cert.KernelIdeal.Hand.run_full m ρ

/-- At the exact reals, from memories that agree on the arguments, the two programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.resultOf (Cert.KernelIdeal.Hand.statsArray m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    kernel_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact Cert.Bridge.result_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
